-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_

variable [Facts]

def fn_part4 {F : FTy → Type} [FloatOps F] (main_arg15 : FVec F S5 .f32) (main_v63 : IVec S_ 1) (main_v67 : IVec S_ 1) : IVec S_ 1 :=
  let main_v68 : IVec S_ 1 := andi main_v63 main_v67
  let main_v69 : FVec F S5 .f32 := Host.absf main_arg15
  let main_cst_26 : FVec F S_ .f32 := constant S_ .f32 0x7F800000#32
  let main_v70 : FVec F S5 .f32 := broadcastInDim S5 ![] bcast_S_S5 main_cst_26
  let main_v71 : IVec S5 1 := cmpf .olt main_v69 main_v70
  let main_c_27 : IVec S_ 1 := constantI S_ 1 1#1
  let main_v72 : IVec S_ 1 := (fun x v => Host.reduce IntOp.andi x v reducesTo_S5_S_d0 h_S_) main_v71 main_c_27
  let main_v73 : IVec S_ 1 := andi main_v68 main_v72
  main_v73

def fn_part3 {F : FTy → Type} [FloatOps F] (main_arg12 : FVec F S256 .f32) (main_arg13 : FVec F S256 .f32) (main_arg14 : FVec F S256x5 .f32) (main_arg15 : FVec F S5 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x5 .f32 := Host.absf main_arg14
  let main_cst_24 : FVec F S_ .f32 := constant S_ .f32 0x7F800000#32
  let main_v65 : FVec F S256x5 .f32 := broadcastInDim S256x5 ![] bcast_S_S256x5 main_cst_24
  let main_v66 : IVec S256x5 1 := cmpf .olt main_v64 main_v65
  let main_c_25 : IVec S_ 1 := constantI S_ 1 1#1
  let main_v67 : IVec S_ 1 := (fun x v => Host.reduce IntOp.andi x v reducesTo_S256x5_S_d0_1 h_S_) main_v66 main_c_25
  fn_part4 (F := F) main_arg15 main_v63 main_v67

def fn_part2 {F : FTy → Type} [FloatOps F] (main_arg8 : FVec F S256x256 .f32) (main_arg9 : FVec F S256 .f32) (main_arg10 : FVec F S256x256 .f32) (main_arg11 : FVec F S256 .f32) (main_arg12 : FVec F S256 .f32) (main_arg13 : FVec F S256 .f32) (main_arg14 : FVec F S256x5 .f32) (main_arg15 : FVec F S5 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256 .f32) (main_arg13 : FVec F S256 .f32) (main_arg14 : FVec F S256x5 .f32) (main_arg15 : FVec F S5 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x512 .f32) (main_arg1 : IVec S2x800000 32) (main_arg2 : FVec F S512 .f32) (main_arg3 : FVec F S512 .f32) (main_arg4 : FVec F S512x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256 .f32) (main_arg13 : FVec F S256 .f32) (main_arg14 : FVec F S256x5 .f32) (main_arg15 : FVec F S5 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x512 : Shape := ⟨2, ![50000, 512]⟩
abbrev S2x800000 : Shape := ⟨2, ![2, 800000]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x512 : Shape := ⟨2, ![1, 512]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S1x5 : Shape := ⟨2, ![1, 5]⟩
abbrev S50000x5 : Shape := ⟨2, ![50000, 5]⟩
abbrev S2000x5 : Shape := ⟨2, ![2000, 5]⟩

abbrev nBuf : Space → Nat
  | .hbm => 219
  | .vmem => 26
  | .smem => 0
  | _ => 0

abbrev hbmTy0_0 (i : Nat) : BufTy := match i % 128 with
  | 0 => ⟨S50000x512, .f32⟩
  | 1 => ⟨S2x800000, .i32⟩
  | 2 => ⟨S512, .f32⟩
  | 3 => ⟨S512, .f32⟩
  | 4 => ⟨S512x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256, .f32⟩
  | 13 => ⟨S256, .f32⟩
  | 14 => ⟨S256x5, .f32⟩
  | 15 => ⟨S5, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .f32⟩
  | 50 => ⟨S512, .f32⟩
  | 51 => ⟨S_, .f32⟩
  | 52 => ⟨S512, .f32⟩
  | 53 => ⟨S512, .f32⟩
  | 54 => ⟨S_, .i32⟩
  | 55 => ⟨S_, .f32⟩
  | 56 => ⟨S512, .f32⟩
  | 57 => ⟨S1x512, .f32⟩
  | 58 => ⟨S_, .f32⟩
  | 59 => ⟨S1x512, .f32⟩
  | 60 => ⟨S1x512, .f32⟩
  | 61 => ⟨S50000x512, .f32⟩
  | 62 => ⟨S50000x512, .f32⟩
  | 63 => ⟨S50000x512, .f32⟩
  | 64 => ⟨S_, .f32⟩
  | 65 => ⟨S_, .f32⟩
  | 66 => ⟨S_, .f32⟩
  | 67 => ⟨S_, .f32⟩
  | 68 => ⟨S512, .f32⟩
  | 69 => ⟨S512, .f32⟩
  | 70 => ⟨S512, .f32⟩
  | 71 => ⟨S_, .f32⟩
  | 72 => ⟨S_, .i1⟩
  | 73 => ⟨S_, .f32⟩
  | 74 => ⟨S_, .f32⟩
  | 75 => ⟨S512, .f32⟩
  | 76 => ⟨S512, .f32⟩
  | 77 => ⟨S1x512, .f32⟩
  | 78 => ⟨S50000x512, .f32⟩
  | 79 => ⟨S50000x512, .f32⟩
  | 80 => ⟨S_, .f32⟩
  | 81 => ⟨S512, .f32⟩
  | 82 => ⟨S512, .f32⟩
  | 83 => ⟨S512, .f32⟩
  | 84 => ⟨S1x512, .f32⟩
  | 85 => ⟨S50000x512, .f32⟩
  | 86 => ⟨S50000x512, .f32⟩
  | 87 => ⟨S1x512, .f32⟩
  | 88 => ⟨S50000x512, .f32⟩
  | 89 => ⟨S50000x512, .f32⟩
  | 90 => ⟨S1x512, .f32⟩
  | 91 => ⟨S50000x512, .f32⟩
  | 92 => ⟨S50000x512, .f32⟩
  | 93 => ⟨S50000x256, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x256, .f32⟩
  | 103 => ⟨S850000x1, .f32⟩
  | 104 => ⟨S850000x256, .f32⟩
  | 105 => ⟨S850000x256, .f32⟩
  | 106 => ⟨S_, .f32⟩
  | 107 => ⟨S50000x256, .f32⟩
  | 108 => ⟨S850000x1, .i32⟩
  | 109 => ⟨S50000x256, .f32⟩
  | 110 => ⟨S1x256, .f32⟩
  | 111 => ⟨S50000x256, .f32⟩
  | 112 => ⟨S50000x256, .f32⟩
  | 113 => ⟨S50000x256, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x256, .f32⟩
  | 123 => ⟨S850000x1, .f32⟩
  | 124 => ⟨S850000x256, .f32⟩
  | 125 => ⟨S850000x256, .f32⟩
  | 126 => ⟨S_, .f32⟩
  | 127 => ⟨S50000x256, .f32⟩
  | _ => ⟨S50000x512, .f32⟩

abbrev hbmTy0_1 (i : Nat) : BufTy := match i % 128 with
  | 0 => ⟨S850000x1, .i32⟩
  | 1 => ⟨S50000x256, .f32⟩
  | 2 => ⟨S1x256, .f32⟩
  | 3 => ⟨S50000x256, .f32⟩
  | 4 => ⟨S50000x256, .f32⟩
  | 5 => ⟨S50000x256, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x256, .f32⟩
  | 15 => ⟨S850000x1, .f32⟩
  | 16 => ⟨S850000x256, .f32⟩
  | 17 => ⟨S850000x256, .f32⟩
  | 18 => ⟨S_, .f32⟩
  | 19 => ⟨S50000x256, .f32⟩
  | 20 => ⟨S850000x1, .i32⟩
  | 21 => ⟨S50000x256, .f32⟩
  | 22 => ⟨S1x256, .f32⟩
  | 23 => ⟨S50000x256, .f32⟩
  | 24 => ⟨S50000x256, .f32⟩
  | 25 => ⟨S50000x256, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000x256, .f32⟩
  | 35 => ⟨S850000x1, .f32⟩
  | 36 => ⟨S850000x256, .f32⟩
  | 37 => ⟨S850000x256, .f32⟩
  | 38 => ⟨S_, .f32⟩
  | 39 => ⟨S50000x256, .f32⟩
  | 40 => ⟨S850000x1, .i32⟩
  | 41 => ⟨S50000x256, .f32⟩
  | 42 => ⟨S1x256, .f32⟩
  | 43 => ⟨S50000x256, .f32⟩
  | 44 => ⟨S50000x256, .f32⟩
  | 45 => ⟨S_, .f32⟩
  | 46 => ⟨S256, .f32⟩
  | 47 => ⟨S_, .f32⟩
  | 48 => ⟨S256, .f32⟩
  | 49 => ⟨S256, .f32⟩
  | 50 => ⟨S_, .i32⟩
  | 51 => ⟨S_, .f32⟩
  | 52 => ⟨S256, .f32⟩
  | 53 => ⟨S1x256, .f32⟩
  | 54 => ⟨S_, .f32⟩
  | 55 => ⟨S1x256, .f32⟩
  | 56 => ⟨S1x256, .f32⟩
  | 57 => ⟨S50000x256, .f32⟩
  | 58 => ⟨S50000x256, .f32⟩
  | 59 => ⟨S50000x256, .f32⟩
  | 60 => ⟨S_, .f32⟩
  | 61 => ⟨S_, .f32⟩
  | 62 => ⟨S_, .f32⟩
  | 63 => ⟨S_, .f32⟩
  | 64 => ⟨S256, .f32⟩
  | 65 => ⟨S256, .f32⟩
  | 66 => ⟨S256, .f32⟩
  | 67 => ⟨S_, .f32⟩
  | 68 => ⟨S_, .i1⟩
  | 69 => ⟨S_, .f32⟩
  | 70 => ⟨S_, .f32⟩
  | 71 => ⟨S256, .f32⟩
  | 72 => ⟨S256, .f32⟩
  | 73 => ⟨S1x256, .f32⟩
  | 74 => ⟨S50000x256, .f32⟩
  | 75 => ⟨S50000x256, .f32⟩
  | 76 => ⟨S_, .f32⟩
  | 77 => ⟨S256, .f32⟩
  | 78 => ⟨S256, .f32⟩
  | 79 => ⟨S256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S1x256, .f32⟩
  | 87 => ⟨S50000x256, .f32⟩
  | 88 => ⟨S50000x256, .f32⟩
  | 89 => ⟨S1x5, .f32⟩
  | 90 => ⟨S50000x5, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x5, .f32⟩
  | .local _ .vmem, ⟨23, _⟩ => ⟨S1x5, .f32⟩
  | .local _ .vmem, ⟨24, _⟩ => ⟨S2000x5, .f32⟩
  | .local _ .vmem, ⟨25, _⟩ => ⟨S2000x5, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_cst_3 : Ref sig .tc := ⟨.hbm, 71, rfl⟩
abbrev main_call0_v12 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_7 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_c_8 : Ref sig .tc := ⟨.hbm, 94, rfl⟩
abbrev main_v47 : Ref sig .tc := ⟨.hbm, 95, rfl⟩
abbrev main_v48 : Ref sig .tc := ⟨.hbm, 96, rfl⟩
abbrev main_c_9 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_10 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_11 : Ref sig .tc := ⟨.hbm, 114, rfl⟩
abbrev main_v64 : Ref sig .tc := ⟨.hbm, 115, rfl⟩
abbrev main_v65 : Ref sig .tc := ⟨.hbm, 116, rfl⟩
abbrev main_c_12 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_13 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_c_14 : Ref sig .tc := ⟨.hbm, 134, rfl⟩
abbrev main_v81 : Ref sig .tc := ⟨.hbm, 135, rfl⟩
abbrev main_v82 : Ref sig .tc := ⟨.hbm, 136, rfl⟩
abbrev main_c_15 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_16 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_c_17 : Ref sig .tc := ⟨.hbm, 154, rfl⟩
abbrev main_v98 : Ref sig .tc := ⟨.hbm, 155, rfl⟩
abbrev main_v99 : Ref sig .tc := ⟨.hbm, 156, rfl⟩
abbrev main_c_18 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_19 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_20 : Ref sig .tc := ⟨.hbm, 173, rfl⟩
abbrev main_v114 : Ref sig .tc := ⟨.hbm, 174, rfl⟩
abbrev main_cst_21 : Ref sig .tc := ⟨.hbm, 175, rfl⟩
abbrev main_v115 : Ref sig .tc := ⟨.hbm, 176, rfl⟩
abbrev main_v116 : Ref sig .tc := ⟨.hbm, 177, rfl⟩
abbrev main_c_22 : Ref sig .tc := ⟨.hbm, 178, rfl⟩
abbrev main_call1_cst : Ref sig .tc := ⟨.hbm, 179, rfl⟩
abbrev main_call1_v0 : Ref sig .tc := ⟨.hbm, 180, rfl⟩
abbrev main_call1_v1 : Ref sig .tc := ⟨.hbm, 181, rfl⟩
abbrev main_call1_cst_0 : Ref sig .tc := ⟨.hbm, 182, rfl⟩
abbrev main_call1_v2 : Ref sig .tc := ⟨.hbm, 183, rfl⟩
abbrev main_call1_v3 : Ref sig .tc := ⟨.hbm, 184, rfl⟩
abbrev main_call1_v4 : Ref sig .tc := ⟨.hbm, 185, rfl⟩
abbrev main_call1_v5 : Ref sig .tc := ⟨.hbm, 186, rfl⟩
abbrev main_call1_v6 : Ref sig .tc := ⟨.hbm, 187, rfl⟩
abbrev main_call1_v7 : Ref sig .tc := ⟨.hbm, 188, rfl⟩
abbrev main_call1_cst_1 : Ref sig .tc := ⟨.hbm, 189, rfl⟩
abbrev main_call1_v8 : Ref sig .tc := ⟨.hbm, 190, rfl⟩
abbrev main_call1_cst_2 : Ref sig .tc := ⟨.hbm, 191, rfl⟩
abbrev main_call1_v9 : Ref sig .tc := ⟨.hbm, 192, rfl⟩
abbrev main_call1_v10 : Ref sig .tc := ⟨.hbm, 193, rfl⟩
abbrev main_call1_v11 : Ref sig .tc := ⟨.hbm, 194, rfl⟩
abbrev main_call1_cst_3 : Ref sig .tc := ⟨.hbm, 195, rfl⟩
abbrev main_call1_v12 : Ref sig .tc := ⟨.hbm, 196, rfl⟩
abbrev main_call1_cst_4 : Ref sig .tc := ⟨.hbm, 197, rfl⟩
abbrev main_call1_call0_v0 : Ref sig .tc := ⟨.hbm, 198, rfl⟩
abbrev main_call1_call0_v1 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_cst_23 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x5 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x5 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x5 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  reducesTo_S50000x256_S256_d0 : S50000x256.ReducesTo [0] S256
  bcast_S_S256 : S_.BroadcastsInDim S256 (![] : Fin 0 → Fin S256.rank)
  bcast_S_S1x256 : S_.BroadcastsInDim S1x256 (![] : Fin 0 → Fin S1x256.rank)
  shapeCasts_S5_S1x5 : S5.ShapeCasts S1x5
  inb_S256x5_S256x5_0_0 : ∀ a, (![0, 0] : Fin 2 → Nat) a + S256x5.size a ≤ S256x5.size a
  h_S256x5 : 0 < S256x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2000x5 : S1x5.Broadcasts S2000x5
  inb_S2000x5_S2000x5_0_0 : ∀ a, (![0, 0] : Fin 2 → Nat) a + S2000x5.size a ≤ S2000x5.size a
  h_S2000x5 : 0 < S2000x5.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x5_S2000x5_1_0_0_1_n_n_wf : DotDims.WF S2000x256 S256x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x5.size a ≤ S256x5.size a
  hwx4_1 : ∀ i : grid4.Coords, EltTy.bits .f32 = 32 ∨ (Rect.block (s := S256x5) S256x5.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x5.size a ≤ S1x5.size a
  hwx4_2 : ∀ i : grid4.Coords, EltTy.bits .f32 = 32 ∨ (Rect.block (s := S1x5) S1x5.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x5.size a ≤ S50000x5.size a
  hwx4_3 : ∀ i : grid4.Coords, EltTy.bits .f32 = 32 ∨ (Rect.block (s := S50000x5) S2000x5.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x5_S2000x5_1_0_0_1_n_n : DotDims S2000x256 S256x5 S2000x5 where
  lhsContracting := [1]
  rhsContracting := [0]
  lhsNonContracting := [0]
  rhsNonContracting := [1]
  lhsBatch := []
  rhsBatch := []
  wf := dot_S2000x256_S256x5_S2000x5_1_0_0_1_n_n_wf

abbrev win0_0 : Pipeline.Window sig grid0 :=
  Pipeline.Window.ofSpec (Memref.whole main_v45) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v79) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v96) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v97) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v132) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S256x5.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v133) S1x5.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v134) S2000x5.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512 : Shape := ⟨1, ![512]⟩
abbrev S512x256 : Shape := ⟨2, ![512, 256]⟩
abbrev S256 : Shape := ⟨1, ![256]⟩
abbrev S256x256 : Shape := ⟨2, ![256, 256]⟩
abbrev S256x5 : Shape := ⟨2, ![256, 5]⟩
abbrev S5 : Shape := ⟨1, ![5]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x512 : Shape := ⟨2, ![1, 512]⟩
abbrev S50000x256 : Shape := ⟨2, ![50000, 256]⟩
abbrev S850000x256 : Shape := ⟨2, ![850000, 256]⟩
abbrev S1x256 : Shape := ⟨2, ![1, 256]⟩
abbrev S50000x5 : Shape := ⟨2, ![50000, 5]⟩
abbrev S1x5 : Shape := ⟨2, ![1, 5]⟩

abbrev nBuf : Space → Nat
  | .hbm => 229
  | .vmem => 0
  | .smem => 0
  | _ => 0

abbrev hbmTy0_0 (i : Nat) : BufTy := match i % 128 with
  | 0 => ⟨S50000x512, .f32⟩
  | 1 => ⟨S2x800000, .i32⟩
  | 2 => ⟨S512, .f32⟩
  | 3 => ⟨S512, .f32⟩
  | 4 => ⟨S512x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256, .f32⟩
  | 13 => ⟨S256, .f32⟩
  | 14 => ⟨S256x5, .f32⟩
  | 15 => ⟨S5, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .f32⟩
  | 50 => ⟨S512, .f32⟩
  | 51 => ⟨S_, .f32⟩
  | 52 => ⟨S512, .f32⟩
  | 53 => ⟨S512, .f32⟩
  | 54 => ⟨S_, .i32⟩
  | 55 => ⟨S_, .f32⟩
  | 56 => ⟨S512, .f32⟩
  | 57 => ⟨S1x512, .f32⟩
  | 58 => ⟨S_, .f32⟩
  | 59 => ⟨S1x512, .f32⟩
  | 60 => ⟨S1x512, .f32⟩
  | 61 => ⟨S50000x512, .f32⟩
  | 62 => ⟨S50000x512, .f32⟩
  | 63 => ⟨S50000x512, .f32⟩
  | 64 => ⟨S_, .f32⟩
  | 65 => ⟨S_, .f32⟩
  | 66 => ⟨S_, .f32⟩
  | 67 => ⟨S_, .f32⟩
  | 68 => ⟨S512, .f32⟩
  | 69 => ⟨S512, .f32⟩
  | 70 => ⟨S512, .f32⟩
  | 71 => ⟨S_, .f32⟩
  | 72 => ⟨S_, .i1⟩
  | 73 => ⟨S_, .f32⟩
  | 74 => ⟨S_, .f32⟩
  | 75 => ⟨S512, .f32⟩
  | 76 => ⟨S512, .f32⟩
  | 77 => ⟨S1x512, .f32⟩
  | 78 => ⟨S50000x512, .f32⟩
  | 79 => ⟨S50000x512, .f32⟩
  | 80 => ⟨S_, .f32⟩
  | 81 => ⟨S512, .f32⟩
  | 82 => ⟨S512, .f32⟩
  | 83 => ⟨S512, .f32⟩
  | 84 => ⟨S1x512, .f32⟩
  | 85 => ⟨S50000x512, .f32⟩
  | 86 => ⟨S50000x512, .f32⟩
  | 87 => ⟨S1x512, .f32⟩
  | 88 => ⟨S50000x512, .f32⟩
  | 89 => ⟨S50000x512, .f32⟩
  | 90 => ⟨S1x512, .f32⟩
  | 91 => ⟨S50000x512, .f32⟩
  | 92 => ⟨S50000x512, .f32⟩
  | 93 => ⟨S50000x256, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x256, .f32⟩
  | 103 => ⟨S850000x1, .f32⟩
  | 104 => ⟨S850000x256, .f32⟩
  | 105 => ⟨S850000x256, .f32⟩
  | 106 => ⟨S_, .f32⟩
  | 107 => ⟨S50000x256, .f32⟩
  | 108 => ⟨S850000x1, .i32⟩
  | 109 => ⟨S50000x256, .f32⟩
  | 110 => ⟨S1x256, .f32⟩
  | 111 => ⟨S50000x256, .f32⟩
  | 112 => ⟨S50000x256, .f32⟩
  | 113 => ⟨S50000x256, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x256, .f32⟩
  | 123 => ⟨S850000x1, .f32⟩
  | 124 => ⟨S850000x256, .f32⟩
  | 125 => ⟨S850000x256, .f32⟩
  | 126 => ⟨S_, .f32⟩
  | 127 => ⟨S50000x256, .f32⟩
  | _ => ⟨S50000x512, .f32⟩

abbrev hbmTy0_1 (i : Nat) : BufTy := match i % 128 with
  | 0 => ⟨S850000x1, .i32⟩
  | 1 => ⟨S50000x256, .f32⟩
  | 2 => ⟨S1x256, .f32⟩
  | 3 => ⟨S50000x256, .f32⟩
  | 4 => ⟨S50000x256, .f32⟩
  | 5 => ⟨S50000x256, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x256, .f32⟩
  | 15 => ⟨S850000x1, .f32⟩
  | 16 => ⟨S850000x256, .f32⟩
  | 17 => ⟨S850000x256, .f32⟩
  | 18 => ⟨S_, .f32⟩
  | 19 => ⟨S50000x256, .f32⟩
  | 20 => ⟨S850000x1, .i32⟩
  | 21 => ⟨S50000x256, .f32⟩
  | 22 => ⟨S1x256, .f32⟩
  | 23 => ⟨S50000x256, .f32⟩
  | 24 => ⟨S50000x256, .f32⟩
  | 25 => ⟨S50000x256, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000x256, .f32⟩
  | 35 => ⟨S850000x1, .f32⟩
  | 36 => ⟨S850000x256, .f32⟩
  | 37 => ⟨S850000x256, .f32⟩
  | 38 => ⟨S_, .f32⟩
  | 39 => ⟨S50000x256, .f32⟩
  | 40 => ⟨S850000x1, .i32⟩
  | 41 => ⟨S50000x256, .f32⟩
  | 42 => ⟨S1x256, .f32⟩
  | 43 => ⟨S50000x256, .f32⟩
  | 44 => ⟨S50000x256, .f32⟩
  | 45 => ⟨S_, .f32⟩
  | 46 => ⟨S256, .f32⟩
  | 47 => ⟨S_, .f32⟩
  | 48 => ⟨S256, .f32⟩
  | 49 => ⟨S256, .f32⟩
  | 50 => ⟨S_, .i32⟩
  | 51 => ⟨S_, .f32⟩
  | 52 => ⟨S256, .f32⟩
  | 53 => ⟨S1x256, .f32⟩
  | 54 => ⟨S_, .f32⟩
  | 55 => ⟨S1x256, .f32⟩
  | 56 => ⟨S1x256, .f32⟩
  | 57 => ⟨S50000x256, .f32⟩
  | 58 => ⟨S50000x256, .f32⟩
  | 59 => ⟨S50000x256, .f32⟩
  | 60 => ⟨S_, .f32⟩
  | 61 => ⟨S_, .f32⟩
  | 62 => ⟨S_, .f32⟩
  | 63 => ⟨S_, .f32⟩
  | 64 => ⟨S256, .f32⟩
  | 65 => ⟨S256, .f32⟩
  | 66 => ⟨S256, .f32⟩
  | 67 => ⟨S_, .f32⟩
  | 68 => ⟨S_, .i1⟩
  | 69 => ⟨S_, .f32⟩
  | 70 => ⟨S_, .f32⟩
  | 71 => ⟨S256, .f32⟩
  | 72 => ⟨S256, .f32⟩
  | 73 => ⟨S1x256, .f32⟩
  | 74 => ⟨S50000x256, .f32⟩
  | 75 => ⟨S50000x256, .f32⟩
  | 76 => ⟨S_, .f32⟩
  | 77 => ⟨S256, .f32⟩
  | 78 => ⟨S256, .f32⟩
  | 79 => ⟨S256, .f32⟩
  | 80 => ⟨S1x256, .f32⟩
  | 81 => ⟨S50000x256, .f32⟩
  | 82 => ⟨S50000x256, .f32⟩
  | 83 => ⟨S1x256, .f32⟩
  | 84 => ⟨S50000x256, .f32⟩
  | 85 => ⟨S50000x256, .f32⟩
  | 86 => ⟨S1x256, .f32⟩
  | 87 => ⟨S50000x256, .f32⟩
  | 88 => ⟨S50000x256, .f32⟩
  | 89 => ⟨S50000x5, .f32⟩
  | 90 => ⟨S1x5, .f32⟩
  | 91 => ⟨S50000x5, .f32⟩
  | 92 => ⟨S50000x5, .f32⟩
  | 93 => ⟨S50000x5, .f32⟩
  | 94 => ⟨S50000x5, .f32⟩
  | 95 => ⟨S_, .f32⟩
  | 96 => ⟨S50000x5, .f32⟩
  | 97 => ⟨S50000x5, .f32⟩
  | 98 => ⟨S_, .f32⟩
  | 99 => ⟨S50000x5, .f32⟩
  | 100 => ⟨S50000x5, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_cst_3 : Ref sig .tc := ⟨.hbm, 71, rfl⟩
abbrev main_call0_v12 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_7 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_c_8 : Ref sig .tc := ⟨.hbm, 94, rfl⟩
abbrev main_v47 : Ref sig .tc := ⟨.hbm, 95, rfl⟩
abbrev main_v48 : Ref sig .tc := ⟨.hbm, 96, rfl⟩
abbrev main_c_9 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_10 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_11 : Ref sig .tc := ⟨.hbm, 114, rfl⟩
abbrev main_v64 : Ref sig .tc := ⟨.hbm, 115, rfl⟩
abbrev main_v65 : Ref sig .tc := ⟨.hbm, 116, rfl⟩
abbrev main_c_12 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_13 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_c_14 : Ref sig .tc := ⟨.hbm, 134, rfl⟩
abbrev main_v81 : Ref sig .tc := ⟨.hbm, 135, rfl⟩
abbrev main_v82 : Ref sig .tc := ⟨.hbm, 136, rfl⟩
abbrev main_c_15 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_16 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_c_17 : Ref sig .tc := ⟨.hbm, 154, rfl⟩
abbrev main_v98 : Ref sig .tc := ⟨.hbm, 155, rfl⟩
abbrev main_v99 : Ref sig .tc := ⟨.hbm, 156, rfl⟩
abbrev main_c_18 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_19 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_cst_20 : Ref sig .tc := ⟨.hbm, 173, rfl⟩
abbrev main_v114 : Ref sig .tc := ⟨.hbm, 174, rfl⟩
abbrev main_cst_21 : Ref sig .tc := ⟨.hbm, 175, rfl⟩
abbrev main_v115 : Ref sig .tc := ⟨.hbm, 176, rfl⟩
abbrev main_v116 : Ref sig .tc := ⟨.hbm, 177, rfl⟩
abbrev main_c_22 : Ref sig .tc := ⟨.hbm, 178, rfl⟩
abbrev main_call1_cst : Ref sig .tc := ⟨.hbm, 179, rfl⟩
abbrev main_call1_v0 : Ref sig .tc := ⟨.hbm, 180, rfl⟩
abbrev main_call1_v1 : Ref sig .tc := ⟨.hbm, 181, rfl⟩
abbrev main_call1_cst_0 : Ref sig .tc := ⟨.hbm, 182, rfl⟩
abbrev main_call1_v2 : Ref sig .tc := ⟨.hbm, 183, rfl⟩
abbrev main_call1_v3 : Ref sig .tc := ⟨.hbm, 184, rfl⟩
abbrev main_call1_v4 : Ref sig .tc := ⟨.hbm, 185, rfl⟩
abbrev main_call1_v5 : Ref sig .tc := ⟨.hbm, 186, rfl⟩
abbrev main_call1_v6 : Ref sig .tc := ⟨.hbm, 187, rfl⟩
abbrev main_call1_v7 : Ref sig .tc := ⟨.hbm, 188, rfl⟩
abbrev main_call1_cst_1 : Ref sig .tc := ⟨.hbm, 189, rfl⟩
abbrev main_call1_v8 : Ref sig .tc := ⟨.hbm, 190, rfl⟩
abbrev main_call1_cst_2 : Ref sig .tc := ⟨.hbm, 191, rfl⟩
abbrev main_call1_v9 : Ref sig .tc := ⟨.hbm, 192, rfl⟩
abbrev main_call1_v10 : Ref sig .tc := ⟨.hbm, 193, rfl⟩
abbrev main_call1_v11 : Ref sig .tc := ⟨.hbm, 194, rfl⟩
abbrev main_call1_cst_3 : Ref sig .tc := ⟨.hbm, 195, rfl⟩
abbrev main_call1_v12 : Ref sig .tc := ⟨.hbm, 196, rfl⟩
abbrev main_call1_cst_4 : Ref sig .tc := ⟨.hbm, 197, rfl⟩
abbrev main_call1_call0_v0 : Ref sig .tc := ⟨.hbm, 198, rfl⟩
abbrev main_call1_call0_v1 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_cst_23 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_24 : Ref sig .tc := ⟨.hbm, 223, rfl⟩
abbrev main_v139 : Ref sig .tc := ⟨.hbm, 224, rfl⟩
abbrev main_v140 : Ref sig .tc := ⟨.hbm, 225, rfl⟩
abbrev main_cst_25 : Ref sig .tc := ⟨.hbm, 226, rfl⟩
abbrev main_v141 : Ref sig .tc := ⟨.hbm, 227, rfl⟩
abbrev main_v142 : Ref sig .tc := ⟨.hbm, 228, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  reducesTo_S50000x512_S512_d0 : S50000x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  bcast_S_S256 : S_.BroadcastsInDim S256 (![] : Fin 0 → Fin S256.rank)
  bcast_S_S1x256 : S_.BroadcastsInDim S1x256 (![] : Fin 0 → Fin S1x256.rank)
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  bcast_S_S50000x5 : S_.BroadcastsInDim S50000x5 (![] : Fin 0 → Fin S50000x5.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x5_S50000x5_1_0_0_1_n_n_wf : DotDims.WF S50000x256 S256x5 S50000x5 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x5_S50000x5_1_0_0_1_n_n : DotDims S50000x256 S256x5 S50000x5 where
  lhsContracting := [1]
  rhsContracting := [0]
  lhsNonContracting := [0]
  rhsNonContracting := [1]
  lhsBatch := []
  rhsBatch := []
  wf := dot_S50000x256_S256x5_S50000x5_1_0_0_1_n_n_wf

class Facts : Prop extends Facts₀ where

variable [Facts]
-- ==== Proof.KRun.lean ====
/-
  The kernel program's run, with every buffer's final contents named.

  The program is five matrix-unit regions among stretches of host operations.  Its buffer contents at the boundaries
  are a fold from the launch memory: a stretch of host operations rewrites the buffers it writes, a region leaves its
  output array at what its grid points wrote back and every other buffer as it found it.  Every weakly fair
  execution terminates, and every buffer that outlives the regions ends at the last boundary's contents.
-/
import proofs.«182173_j27023934226530_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    buffer that is not a region's staging buffer ends at the contents of the last boundary of the fold. -/
theorem run_all : θ_run defs (onTc (τ := τ) (main (F := F))) ⟨m, fun _ => 0, ρ⟩ (fun r => ∀ c : Dev nD, ∀ b : Ref sig .tc,
      ¬ (Proc.devRef .tc b : DevRef τ sig).isScoped →
        r.2.mem ((c.tc : Thread nD τ).loc b) = W14 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c b hb => h c _ (mem_uc b hb))

end Cert.KernelIdeal.RunValue

end
-- ==== Proof.RefOps.lean ====
/- The reference program's host operations, copied from the printed program line by line (a called function's lines
   at its call site, over the call's buffer record), in consecutive pieces cut where @main's statement windows end and
   around each matrix product.  A table of the program's own lines: nothing is proved here but that each operation
   touches TensorCore buffers only and allocates none. -/
import proofs.«182173_j27023934226530_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.ShloMosaic.StableHlo

variable {F : FTy → Type} [FloatOps F]

/-- 39 operations, in order. -/
abbrev refA0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.nullary main_c (constantI S_ 32 0#32),
    StableHlo.unary main_c main_v12 (broadcastInDim S850000 ![] bcast_S_S850000 : (⟨S_, .i32⟩ : BufTy).Contents (Elt F) → (⟨S850000, .i32⟩ : BufTy).Contents (Elt F)),
    StableHlo.binary main_v3 main_v12 main_v13 (cmpi .slt : (⟨S850000, .i32⟩ : BufTy).Contents (Elt F) → (⟨S850000, .i32⟩ : BufTy).Contents (Elt F) → (⟨S850000, .i1⟩ : BufTy).Contents (Elt F)),
    StableHlo.nullary main_c_1 (constantI S_ 32 50000#32),
    StableHlo.unary main_c_1 main_v14 (broadcastInDim S850000 ![] bcast_S_S850000 : (⟨S_, .i32⟩ : BufTy).Contents (Elt F) → (⟨S850000, .i32⟩ : BufTy).Contents (Elt F)),
    StableHlo.binary main_v3 main_v14 main_v15 (addi : (⟨S850000, .i32⟩ : BufTy).Contents (Elt F) → (⟨S850000, .i32⟩ : BufTy).Contents (Elt F) → (⟨S850000, .i32⟩ : BufTy).Contents (Elt F)),
    StableHlo.ternary main_v13 main_v15 main_v3 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v16 main_v17 (broadcastInDim S850000x1 ![0] bcast_S850000_S850000x1_0 : (⟨S850000, .i32⟩ : BufTy).Contents (Elt F) → (⟨S850000x1, .i32⟩ : BufTy).Contents (Elt F)),
    StableHlo.binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_2 (constantI S_ 32 0#32),
    StableHlo.unary main_c_2 main_v19 (broadcastInDim S850000 ![] bcast_S_S850000 : (⟨S_, .i32⟩ : BufTy).Contents (Elt F) → (⟨S850000, .i32⟩ : BufTy).Contents (Elt F)),
    StableHlo.binary main_v6 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v21 (broadcastInDim S850000 ![] bcast_S_S850000 : (⟨S_, .i32⟩ : BufTy).Contents (Elt F) → (⟨S850000, .i32⟩ : BufTy).Contents (Elt F)),
    StableHlo.binary main_v6 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v18 main_v25 main_v26 (mulf : (⟨S850000, .f32⟩ : BufTy).Contents (Elt F) → (⟨S850000, .f32⟩ : BufTy).Contents (Elt F) → (⟨S850000, .f32⟩ : BufTy).Contents (Elt F)),
    StableHlo.nullary main_cst_4 (constant S_ .f32 0x00000000#32),
    StableHlo.binary main_arg0 main_cst_4 main_v27 ((fun x v => Host.reduceAdd x v reducesTo_S50000x512_S512_d0 h_S_) : (⟨S50000x512, .f32⟩ : BufTy).Contents (Elt F) → (⟨S_, .f32⟩ : BufTy).Contents (Elt F) → (⟨S512, .f32⟩ : BufTy).Contents (Elt F)),
    StableHlo.nullary main_cst_5 (constant S_ .f32 0x47435000#32),
    StableHlo.unary main_cst_5 main_v28 (broadcastInDim S512 ![] bcast_S_S512 : (⟨S_, .f32⟩ : BufTy).Contents (Elt F) → (⟨S512, .f32⟩ : BufTy).Contents (Elt F)),
    StableHlo.binary main_v27 main_v28 main_v29 (Host.divf : (⟨S512, .f32⟩ : BufTy).Contents (Elt F) → (⟨S512, .f32⟩ : BufTy).Contents (Elt F) → (⟨S512, .f32⟩ : BufTy).Contents (Elt F)),
    StableHlo.nullary main_c_6 (constantI S_ 32 0#32) ]
theorem refA0_sub : (refA0 : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem refA0_fresh : (refA0 : List (HloOp τ sig (Elt F))).Forall fun op => op.fresh = ∅ := by
  simp only [List.Forall]; repeat' constructor
/-- The buffers these operations write. -/
abbrev refA0_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_cst_4, main_v27, main_cst_5, main_v28, main_v29, main_c_6]
theorem refA0_writes : (refA0 : List (HloOp τ sig (Elt F))).Forall fun op => op.writes ⊆ (refA0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refA0_keep (V : Valuation τ sig (Elt F)) (r : Ref sig .tc) (h : r ∉ refA0_W) :
    after refA0 V (Proc.devRef .tc r) = V (Proc.devRef .tc r) :=
  after_of_writes_sub refA0 V refA0_writes h

/-- 22 operations, in order. -/
abbrev refA1 : List (HloOp τ sig (Elt F)) :=
  [ StableHlo.TRef.nullary main_call0.cst (constant S_ .f32 0x00000000#32),
    StableHlo.TRef.binary (.of main_arg0 : StableHlo.TRef sig ⟨S50000x512, .f32⟩) main_call0.cst main_call0.v0 (fun x v => Host.reduceAdd x v reducesTo_S50000x512_S512_d0 h_S_),
    StableHlo.TRef.unary main_call0.v0 main_call0.v1 (broadcastInDim S1x512 ![1] bcast_S512_S1x512_1),
    StableHlo.TRef.nullary main_call0.cst_0 (constant S_ .f32 0x47435000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S50000x512 ![0, 1] bcast_S1x512_S50000x512_0_1),
    StableHlo.TRef.binary (.of main_arg0 : StableHlo.TRef sig ⟨S50000x512, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b) ]
theorem refA1_sub : (refA1 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem refA1_fresh : (refA1 : List (HloOp τ sig (Elt F))).Forall fun op => op.fresh = ∅ := by
  simp only [List.Forall]; repeat' constructor
/-- The buffers these operations write. -/
abbrev refA1_W : List (Ref sig .tc) := [(main_call0.cst).ref, (main_call0.v0).ref, (main_call0.v1).ref, (main_call0.cst_0).ref, (main_call0.v2).ref, (main_call0.v3).ref, (main_call0.v4).ref, (main_call0.v5).ref, (main_call0.v6).ref, (main_call0.v7).ref, (main_call0.cst_1).ref, (main_call0.v8).ref, (main_call0.cst_2).ref, (main_call0.v9).ref, (main_call0.v10).ref, (main_call0.v11).ref, (main_call0.cst_3).ref, (main_call0.v12).ref, (main_call0.cst_4).ref, (main_call0.call0.v0).ref, (main_call0.call0.v1).ref, (main_call0.call0.v2).ref]
theorem refA1_writes : (refA1 : List (HloOp τ sig (Elt F))).Forall fun op => op.writes ⊆ (refA1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refA1_keep (V : Valuation τ sig (Elt F)) (r : Ref sig .tc) (h : r ∉ refA1_W) :
    after refA1 V (Proc.devRef .tc r) = V (Proc.devRef .tc r) :=
  after_of_writes_sub refA1 V refA1_writes h

/-- 16 operations, in order. -/
abbrev refA2 : List (HloOp τ sig (Elt F)) :=
  [ StableHlo.unary main_v29 main_v31 (broadcastInDim S1x512 ![1] bcast_S512_S1x512_1 : (⟨S512, .f32⟩ : BufTy).Contents (Elt F) → (⟨S1x512, .f32⟩ : BufTy).Contents (Elt F)),
    StableHlo.unary main_v31 main_v32 (broadcastInDim S50000x512 ![0, 1] bcast_S1x512_S50000x512_0_1 : (⟨S1x512, .f32⟩ : BufTy).Contents (Elt F) → (⟨S50000x512, .f32⟩ : BufTy).Contents (Elt F)),
    StableHlo.binary main_arg0 main_v32 main_v33 (subf : (⟨S50000x512, .f32⟩ : BufTy).Contents (Elt F) → (⟨S50000x512, .f32⟩ : BufTy).Contents (Elt F) → (⟨S50000x512, .f32⟩ : BufTy).Contents (Elt F)),
    StableHlo.nullary main_cst_7 (constant S_ .f32 0x3727C5AC#32),
    StableHlo.unary main_cst_7 main_v34 (broadcastInDim S512 ![] bcast_S_S512 : (⟨S_, .f32⟩ : BufTy).Contents (Elt F) → (⟨S512, .f32⟩ : BufTy).Contents (Elt F)),
    StableHlo.binary main_v30 main_v34 main_v35 (addf : (⟨S512, .f32⟩ : BufTy).Contents (Elt F) → (⟨S512, .f32⟩ : BufTy).Contents (Elt F) → (⟨S512, .f32⟩ : BufTy).Contents (Elt F)),
    StableHlo.unary main_v35 main_v36 (Host.rsqrt : (⟨S512, .f32⟩ : BufTy).Contents (Elt F) → (⟨S512, .f32⟩ : BufTy).Contents (Elt F)),
    StableHlo.unary main_v36 main_v37 (broadcastInDim S1x512 ![1] bcast_S512_S1x512_1 : (⟨S512, .f32⟩ : BufTy).Contents (Elt F) → (⟨S1x512, .f32⟩ : BufTy).Contents (Elt F)),
    StableHlo.unary main_v37 main_v38 (broadcastInDim S50000x512 ![0, 1] bcast_S1x512_S50000x512_0_1 : (⟨S1x512, .f32⟩ : BufTy).Contents (Elt F) → (⟨S50000x512, .f32⟩ : BufTy).Contents (Elt F)),
    StableHlo.binary main_v33 main_v38 main_v39 (mulf : (⟨S50000x512, .f32⟩ : BufTy).Contents (Elt F) → (⟨S50000x512, .f32⟩ : BufTy).Contents (Elt F) → (⟨S50000x512, .f32⟩ : BufTy).Contents (Elt F)),
    StableHlo.unary main_arg2 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S50000x512 ![0, 1] bcast_S1x512_S50000x512_0_1 : (⟨S1x512, .f32⟩ : BufTy).Contents (Elt F) → (⟨S50000x512, .f32⟩ : BufTy).Contents (Elt F)),
    StableHlo.binary main_v39 main_v41 main_v42 (mulf : (⟨S50000x512, .f32⟩ : BufTy).Contents (Elt F) → (⟨S50000x512, .f32⟩ : BufTy).Contents (Elt F) → (⟨S50000x512, .f32⟩ : BufTy).Contents (Elt F)),
    StableHlo.unary main_arg3 main_v43 (broadcastInDim S1x512 ![1] bcast_S512_S1x512_1 : (⟨S512, .f32⟩ : BufTy).Contents (Elt F) → (⟨S1x512, .f32⟩ : BufTy).Contents (Elt F)),
    StableHlo.unary main_v43 main_v44 (broadcastInDim S50000x512 ![0, 1] bcast_S1x512_S50000x512_0_1 : (⟨S1x512, .f32⟩ : BufTy).Contents (Elt F) → (⟨S50000x512, .f32⟩ : BufTy).Contents (Elt F)),
    StableHlo.binary main_v42 main_v44 main_v45 (addf : (⟨S50000x512, .f32⟩ : BufTy).Contents (Elt F) → (⟨S50000x512, .f32⟩ : BufTy).Contents (Elt F) → (⟨S50000x512, .f32⟩ : BufTy).Contents (Elt F)) ]
theorem refA2_sub : (refA2 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem refA2_fresh : (refA2 : List (HloOp τ sig (Elt F))).Forall fun op => op.fresh = ∅ := by
  simp only [List.Forall]; repeat' constructor
/-- The buffers these operations write. -/
abbrev refA2_W : List (Ref sig .tc) := [main_v31, main_v32, main_v33, main_cst_7, main_v34, main_v35, main_v36, main_v37, main_v38, main_v39, main_v40, main_v41, main_v42, main_v43, main_v44, main_v45]
theorem refA2_writes : (refA2 : List (HloOp τ sig (Elt F))).Forall fun op => op.writes ⊆ (refA2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refA2_keep (V : Valuation τ sig (Elt F)) (r : Ref sig .tc) (h : r ∉ refA2_W) :
    after refA2 V (Proc.devRef .tc r) = V (Proc.devRef .tc r) :=
  after_of_writes_sub refA2 V refA2_writes h

/-- 1 operations, in order. -/
abbrev refD0 : List (HloOp τ sig (Elt F)) :=
  [ StableHlo.binary main_v45 main_arg4 main_v46 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)) ]
theorem refD0_sub : (refD0 : List (HloOp τ sig (Elt F))).Forall fun op => op.bufs ⊆ tcRefs τ sig :=
  (StableHlo.binary_bufs_sub ..)
theorem refD0_fresh : (refD0 : List (HloOp τ sig (Elt F))).Forall fun op => op.fresh = ∅ := by
  simp only [List.Forall]; repeat' constructor
/-- The buffers these operations write. -/
abbrev refD0_W : List (Ref sig .tc) := [main_v46]
theorem refD0_writes : (refD0 : List (HloOp τ sig (Elt F))).Forall fun op => op.writes ⊆ (refD0_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
/-- A buffer these operations do not write keeps its contents through them. -/
theorem refD0_keep (V : Valuation τ sig (Elt F)) (r : Ref sig .tc) (h : r ∉ refD0_W) :
    after refD0 V (Proc.devRef .tc r) = V (Proc.devRef .tc r) :=
  after_of_writes_sub refD0 V refD0_writes h

/-- 3 operations, in order. -/
abbrev refB0 : List (HloOp τ sig (Elt F)) :=
  [ StableHlo.nullary main_c_8 (constantI S_ 32 0#32),
    StableHlo.unary main_c_8 main_v47 (broadcastInDim S850000 ![] bcast_S_S850000 : (⟨S_, .i32⟩ : BufTy).Contents (Elt F) → (⟨S850000, .i32⟩ : BufTy).Contents (Elt F)),
    StableHlo.binary main_v3 main_v47 main_v48 (cmpi .slt : (⟨S850000, .i32⟩ : BufTy).Contents (Elt F) → (⟨S850000, .i32⟩ : BufTy).Contents (Elt F) → (⟨S850000, .i1⟩ : BufTy).Contents (Elt F)) ]
theorem refB0_sub : (refB0 : List (HloOp τ sig (Elt F))).Forall fun op => op.bufs ⊆ tcRefs τ sig :=
  ⟨StableHlo.nullary_bufs_sub .., StableHlo.unary_bufs_sub .., StableHlo.binary_bufs_sub ..⟩
theorem refB0_fresh : (refB0 : List (HloOp τ sig (Elt F))).Forall fun op => op.fresh = ∅ := by
  simp only [List.Forall]; repeat' constructor
/-- The buffers these operations write. -/
abbrev refB0_W : List (Ref sig .tc) := [main_c_8, main_v47, main_v48]
theorem refB0_writes : (refB0 : List (HloOp τ sig (Elt F))).Forall fun op => op.writes ⊆ (refB0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refB0_keep (V : Valuation τ sig (Elt F)) (r : Ref sig .tc) (h : r ∉ refB0_W) :
    after refB0 V (Proc.devRef .tc r) = V (Proc.devRef .tc r) :=
  after_of_writes_sub refB0 V refB0_writes h

/-- 16 operations, in order. -/
abbrev refB1 : List (HloOp τ sig (Elt F)) :=
  [ StableHlo.nullary main_c_9 (constantI S_ 32 50000#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (addi : (⟨S850000, .i32⟩ : BufTy).Contents (Elt F) → (⟨S850000, .i32⟩ : BufTy).Contents (Elt F) → (⟨S850000, .i32⟩ : BufTy).Contents (Elt F)),
    StableHlo.ternary main_v48 main_v50 main_v3 main_v51 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v51 main_v52 (broadcastInDim S850000x1 ![0] bcast_S850000_S850000x1_0 : (⟨S850000, .i32⟩ : BufTy).Contents (Elt F) → (⟨S850000x1, .i32⟩ : BufTy).Contents (Elt F)),
    StableHlo.binary main_v46 main_v52 main_v53 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v26 main_v54 (broadcastInDim S850000x1 ![0] bcast_S850000_S850000x1_0 : (⟨S850000, .f32⟩ : BufTy).Contents (Elt F) → (⟨S850000x1, .f32⟩ : BufTy).Contents (Elt F)),
    StableHlo.unary main_v54 main_v55 (broadcastInDim S850000x256 ![0, 1] bcast_S850000x1_S850000x256_0_1 : (⟨S850000x1, .f32⟩ : BufTy).Contents (Elt F) → (⟨S850000x256, .f32⟩ : BufTy).Contents (Elt F)),
    StableHlo.binary main_v53 main_v55 main_v56 (mulf : (⟨S850000x256, .f32⟩ : BufTy).Contents (Elt F) → (⟨S850000x256, .f32⟩ : BufTy).Contents (Elt F) → (⟨S850000x256, .f32⟩ : BufTy).Contents (Elt F)),
    StableHlo.nullary main_cst_10 (constant S_ .f32 0x00000000#32),
    StableHlo.unary main_cst_10 main_v57 (broadcastInDim S50000x256 ![] bcast_S_S50000x256 : (⟨S_, .f32⟩ : BufTy).Contents (Elt F) → (⟨S50000x256, .f32⟩ : BufTy).Contents (Elt F)),
    StableHlo.unary main_v6 main_v58 (broadcastInDim S850000x1 ![0] bcast_S850000_S850000x1_0 : (⟨S850000, .i32⟩ : BufTy).Contents (Elt F) → (⟨S850000x1, .i32⟩ : BufTy).Contents (Elt F)),
    StableHlo.ternary main_v57 main_v58 main_v56 main_v59 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg5 main_v60 (broadcastInDim S1x256 ![1] bcast_S256_S1x256_1 : (⟨S256, .f32⟩ : BufTy).Contents (Elt F) → (⟨S1x256, .f32⟩ : BufTy).Contents (Elt F)),
    StableHlo.unary main_v60 main_v61 (broadcastInDim S50000x256 ![0, 1] bcast_S1x256_S50000x256_0_1 : (⟨S1x256, .f32⟩ : BufTy).Contents (Elt F) → (⟨S50000x256, .f32⟩ : BufTy).Contents (Elt F)),
    StableHlo.binary main_v59 main_v61 main_v62 (addf : (⟨S50000x256, .f32⟩ : BufTy).Contents (Elt F) → (⟨S50000x256, .f32⟩ : BufTy).Contents (Elt F) → (⟨S50000x256, .f32⟩ : BufTy).Contents (Elt F)) ]
theorem refB1_sub : (refB1 : List (HloOp τ sig (Elt F))).Forall fun op => op.bufs ⊆ tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem refB1_fresh : (refB1 : List (HloOp τ sig (Elt F))).Forall fun op => op.fresh = ∅ := by
  simp only [List.Forall]; repeat' constructor
/-- The buffers these operations write. -/
abbrev refB1_W : List (Ref sig .tc) := [main_c_9, main_v49, main_v50, main_v51, main_v52, main_v53, main_v54, main_v55, main_v56, main_cst_10, main_v57, main_v58, main_v59, main_v60, main_v61, main_v62]
theorem refB1_writes : (refB1 : List (HloOp τ sig (Elt F))).Forall fun op => op.writes ⊆ (refB1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refB1_keep (V : Valuation τ sig (Elt F)) (r : Ref sig .tc) (h : r ∉ refB1_W) :
    after refB1 V (Proc.devRef .tc r) = V (Proc.devRef .tc r) :=
  after_of_writes_sub refB1 V refB1_writes h

/-- 1 operations, in order. -/
abbrev refD1 : List (HloOp τ sig (Elt F)) :=
  [ StableHlo.binary main_v62 main_arg6 main_v63 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]
theorem refD1_sub : (refD1 : List (HloOp τ sig (Elt F))).Forall fun op => op.bufs ⊆ tcRefs τ sig :=
  (StableHlo.binary_bufs_sub ..)
theorem refD1_fresh : (refD1 : List (HloOp τ sig (Elt F))).Forall fun op => op.fresh = ∅ := by
  simp only [List.Forall]; repeat' constructor
/-- The buffers these operations write. -/
abbrev refD1_W : List (Ref sig .tc) := [main_v63]
theorem refD1_writes : (refD1 : List (HloOp τ sig (Elt F))).Forall fun op => op.writes ⊆ (refD1_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
/-- A buffer these operations do not write keeps its contents through them. -/
theorem refD1_keep (V : Valuation τ sig (Elt F)) (r : Ref sig .tc) (h : r ∉ refD1_W) :
    after refD1 V (Proc.devRef .tc r) = V (Proc.devRef .tc r) :=
  after_of_writes_sub refD1 V refD1_writes h

/-- 19 operations, in order. -/
abbrev refC : List (HloOp τ sig (Elt F)) :=
  [ StableHlo.nullary main_c_11 (constantI S_ 32 0#32),
    StableHlo.unary main_c_11 main_v64 (broadcastInDim S850000 ![] bcast_S_S850000 : (⟨S_, .i32⟩ : BufTy).Contents (Elt F) → (⟨S850000, .i32⟩ : BufTy).Contents (Elt F)),
    StableHlo.binary main_v3 main_v64 main_v65 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v66 (broadcastInDim S850000 ![] bcast_S_S850000 : (⟨S_, .i32⟩ : BufTy).Contents (Elt F) → (⟨S850000, .i32⟩ : BufTy).Contents (Elt F)),
    StableHlo.binary main_v3 main_v66 main_v67 (addi : (⟨S850000, .i32⟩ : BufTy).Contents (Elt F) → (⟨S850000, .i32⟩ : BufTy).Contents (Elt F) → (⟨S850000, .i32⟩ : BufTy).Contents (Elt F)),
    StableHlo.ternary main_v65 main_v67 main_v3 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v68 main_v69 (broadcastInDim S850000x1 ![0] bcast_S850000_S850000x1_0 : (⟨S850000, .i32⟩ : BufTy).Contents (Elt F) → (⟨S850000x1, .i32⟩ : BufTy).Contents (Elt F)),
    StableHlo.binary main_v63 main_v69 main_v70 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v26 main_v71 (broadcastInDim S850000x1 ![0] bcast_S850000_S850000x1_0 : (⟨S850000, .f32⟩ : BufTy).Contents (Elt F) → (⟨S850000x1, .f32⟩ : BufTy).Contents (Elt F)),
    StableHlo.unary main_v71 main_v72 (broadcastInDim S850000x256 ![0, 1] bcast_S850000x1_S850000x256_0_1 : (⟨S850000x1, .f32⟩ : BufTy).Contents (Elt F) → (⟨S850000x256, .f32⟩ : BufTy).Contents (Elt F)),
    StableHlo.binary main_v70 main_v72 main_v73 (mulf : (⟨S850000x256, .f32⟩ : BufTy).Contents (Elt F) → (⟨S850000x256, .f32⟩ : BufTy).Contents (Elt F) → (⟨S850000x256, .f32⟩ : BufTy).Contents (Elt F)),
    StableHlo.nullary main_cst_13 (constant S_ .f32 0x00000000#32),
    StableHlo.unary main_cst_13 main_v74 (broadcastInDim S50000x256 ![] bcast_S_S50000x256 : (⟨S_, .f32⟩ : BufTy).Contents (Elt F) → (⟨S50000x256, .f32⟩ : BufTy).Contents (Elt F)),
    StableHlo.unary main_v6 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S50000x256 ![0, 1] bcast_S1x256_S50000x256_0_1 : (⟨S1x256, .f32⟩ : BufTy).Contents (Elt F) → (⟨S50000x256, .f32⟩ : BufTy).Contents (Elt F)),
    StableHlo.binary main_v76 main_v78 main_v79 (addf : (⟨S50000x256, .f32⟩ : BufTy).Contents (Elt F) → (⟨S50000x256, .f32⟩ : BufTy).Contents (Elt F) → (⟨S50000x256, .f32⟩ : BufTy).Contents (Elt F)) ]
theorem refC_sub : (refC : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem refC_fresh : (refC : List (HloOp τ sig (Elt F))).Forall fun op => op.fresh = ∅ := by
  simp only [List.Forall]; repeat' constructor
/-- The buffers these operations write. -/
abbrev refC_W : List (Ref sig .tc) := [main_c_11, main_v64, main_v65, main_c_12, main_v66, main_v67, main_v68, main_v69, main_v70, main_v71, main_v72, main_v73, main_cst_13, main_v74, main_v75, main_v76, main_v77, main_v78, main_v79]
theorem refC_writes : (refC : List (HloOp τ sig (Elt F))).Forall fun op => op.writes ⊆ (refC_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refC_keep (V : Valuation τ sig (Elt F)) (r : Ref sig .tc) (h : r ∉ refC_W) :
    after refC V (Proc.devRef .tc r) = V (Proc.devRef .tc r) :=
  after_of_writes_sub refC V refC_writes h

/-- 1 operations, in order. -/
abbrev refD2 : List (HloOp τ sig (Elt F)) :=
  [ StableHlo.binary main_v79 main_arg8 main_v80 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]
theorem refD2_sub : (refD2 : List (HloOp τ sig (Elt F))).Forall fun op => op.bufs ⊆ tcRefs τ sig :=
  (StableHlo.binary_bufs_sub ..)
theorem refD2_fresh : (refD2 : List (HloOp τ sig (Elt F))).Forall fun op => op.fresh = ∅ := by
  simp only [List.Forall]; repeat' constructor
/-- The buffers these operations write. -/
abbrev refD2_W : List (Ref sig .tc) := [main_v80]
theorem refD2_writes : (refD2 : List (HloOp τ sig (Elt F))).Forall fun op => op.writes ⊆ (refD2_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
/-- A buffer these operations do not write keeps its contents through them. -/
theorem refD2_keep (V : Valuation τ sig (Elt F)) (r : Ref sig .tc) (h : r ∉ refD2_W) :
    after refD2 V (Proc.devRef .tc r) = V (Proc.devRef .tc r) :=
  after_of_writes_sub refD2 V refD2_writes h

/-- 19 operations, in order. -/
abbrev refE : List (HloOp τ sig (Elt F)) :=
  [ StableHlo.nullary main_c_14 (constantI S_ 32 0#32),
    StableHlo.unary main_c_14 main_v81 (broadcastInDim S850000 ![] bcast_S_S850000 : (⟨S_, .i32⟩ : BufTy).Contents (Elt F) → (⟨S850000, .i32⟩ : BufTy).Contents (Elt F)),
    StableHlo.binary main_v3 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v83 (broadcastInDim S850000 ![] bcast_S_S850000 : (⟨S_, .i32⟩ : BufTy).Contents (Elt F) → (⟨S850000, .i32⟩ : BufTy).Contents (Elt F)),
    StableHlo.binary main_v3 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v3 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v80 main_v86 main_v87 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v26 main_v88 (broadcastInDim S850000x1 ![0] bcast_S850000_S850000x1_0 : (⟨S850000, .f32⟩ : BufTy).Contents (Elt F) → (⟨S850000x1, .f32⟩ : BufTy).Contents (Elt F)),
    StableHlo.unary main_v88 main_v89 (broadcastInDim S850000x256 ![0, 1] bcast_S850000x1_S850000x256_0_1 : (⟨S850000x1, .f32⟩ : BufTy).Contents (Elt F) → (⟨S850000x256, .f32⟩ : BufTy).Contents (Elt F)),
    StableHlo.binary main_v87 main_v89 main_v90 (mulf : (⟨S850000x256, .f32⟩ : BufTy).Contents (Elt F) → (⟨S850000x256, .f32⟩ : BufTy).Contents (Elt F) → (⟨S850000x256, .f32⟩ : BufTy).Contents (Elt F)),
    StableHlo.nullary main_cst_16 (constant S_ .f32 0x00000000#32),
    StableHlo.unary main_cst_16 main_v91 (broadcastInDim S50000x256 ![] bcast_S_S50000x256 : (⟨S_, .f32⟩ : BufTy).Contents (Elt F) → (⟨S50000x256, .f32⟩ : BufTy).Contents (Elt F)),
    StableHlo.unary main_v6 main_v92 (broadcastInDim S850000x1 ![0] bcast_S850000_S850000x1_0 : (⟨S850000, .i32⟩ : BufTy).Contents (Elt F) → (⟨S850000x1, .i32⟩ : BufTy).Contents (Elt F)),
    StableHlo.ternary main_v91 main_v92 main_v90 main_v93 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg9 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v93 main_v95 main_v96 (addf : (⟨S50000x256, .f32⟩ : BufTy).Contents (Elt F) → (⟨S50000x256, .f32⟩ : BufTy).Contents (Elt F) → (⟨S50000x256, .f32⟩ : BufTy).Contents (Elt F)) ]
theorem refE_sub : (refE : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem refE_fresh : (refE : List (HloOp τ sig (Elt F))).Forall fun op => op.fresh = ∅ := by
  simp only [List.Forall]; repeat' constructor
/-- The buffers these operations write. -/
abbrev refE_W : List (Ref sig .tc) := [main_c_14, main_v81, main_v82, main_c_15, main_v83, main_v84, main_v85, main_v86, main_v87, main_v88, main_v89, main_v90, main_cst_16, main_v91, main_v92, main_v93, main_v94, main_v95, main_v96]
theorem refE_writes : (refE : List (HloOp τ sig (Elt F))).Forall fun op => op.writes ⊆ (refE_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refE_keep (V : Valuation τ sig (Elt F)) (r : Ref sig .tc) (h : r ∉ refE_W) :
    after refE V (Proc.devRef .tc r) = V (Proc.devRef .tc r) :=
  after_of_writes_sub refE V refE_writes h

/-- 1 operations, in order. -/
abbrev refD3 : List (HloOp τ sig (Elt F)) :=
  [ StableHlo.binary main_v96 main_arg10 main_v97 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]
theorem refD3_sub : (refD3 : List (HloOp τ sig (Elt F))).Forall fun op => op.bufs ⊆ tcRefs τ sig :=
  (StableHlo.binary_bufs_sub ..)
theorem refD3_fresh : (refD3 : List (HloOp τ sig (Elt F))).Forall fun op => op.fresh = ∅ := by
  simp only [List.Forall]; repeat' constructor
/-- The buffers these operations write. -/
abbrev refD3_W : List (Ref sig .tc) := [main_v97]
theorem refD3_writes : (refD3 : List (HloOp τ sig (Elt F))).Forall fun op => op.writes ⊆ (refD3_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
/-- A buffer these operations do not write keeps its contents through them. -/
theorem refD3_keep (V : Valuation τ sig (Elt F)) (r : Ref sig .tc) (h : r ∉ refD3_W) :
    after refD3 V (Proc.devRef .tc r) = V (Proc.devRef .tc r) :=
  after_of_writes_sub refD3 V refD3_writes h

/-- 3 operations, in order. -/
abbrev refG0 : List (HloOp τ sig (Elt F)) :=
  [ StableHlo.nullary main_c_17 (constantI S_ 32 0#32),
    StableHlo.unary main_c_17 main_v98 (broadcastInDim S850000 ![] bcast_S_S850000 : (⟨S_, .i32⟩ : BufTy).Contents (Elt F) → (⟨S850000, .i32⟩ : BufTy).Contents (Elt F)),
    StableHlo.binary main_v3 main_v98 main_v99 (cmpi .slt : (⟨S850000, .i32⟩ : BufTy).Contents (Elt F) → (⟨S850000, .i32⟩ : BufTy).Contents (Elt F) → (⟨S850000, .i1⟩ : BufTy).Contents (Elt F)) ]
theorem refG0_sub : (refG0 : List (HloOp τ sig (Elt F))).Forall fun op => op.bufs ⊆ tcRefs τ sig :=
  ⟨StableHlo.nullary_bufs_sub .., StableHlo.unary_bufs_sub .., StableHlo.binary_bufs_sub ..⟩
theorem refG0_fresh : (refG0 : List (HloOp τ sig (Elt F))).Forall fun op => op.fresh = ∅ := by
  simp only [List.Forall]; repeat' constructor
/-- The buffers these operations write. -/
abbrev refG0_W : List (Ref sig .tc) := [main_c_17, main_v98, main_v99]
theorem refG0_writes : (refG0 : List (HloOp τ sig (Elt F))).Forall fun op => op.writes ⊆ (refG0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refG0_keep (V : Valuation τ sig (Elt F)) (r : Ref sig .tc) (h : r ∉ refG0_W) :
    after refG0 V (Proc.devRef .tc r) = V (Proc.devRef .tc r) :=
  after_of_writes_sub refG0 V refG0_writes h

/-- 22 operations, in order. -/
abbrev refG1 : List (HloOp τ sig (Elt F)) :=
  [ StableHlo.nullary main_c_18 (constantI S_ 32 50000#32),
    StableHlo.unary main_c_18 main_v100 (broadcastInDim S850000 ![] bcast_S_S850000 : (⟨S_, .i32⟩ : BufTy).Contents (Elt F) → (⟨S850000, .i32⟩ : BufTy).Contents (Elt F)),
    StableHlo.binary main_v3 main_v100 main_v101 (addi : (⟨S850000, .i32⟩ : BufTy).Contents (Elt F) → (⟨S850000, .i32⟩ : BufTy).Contents (Elt F) → (⟨S850000, .i32⟩ : BufTy).Contents (Elt F)),
    StableHlo.ternary main_v99 main_v101 main_v3 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v102 main_v103 (broadcastInDim S850000x1 ![0] bcast_S850000_S850000x1_0 : (⟨S850000, .i32⟩ : BufTy).Contents (Elt F) → (⟨S850000x1, .i32⟩ : BufTy).Contents (Elt F)),
    StableHlo.binary main_v97 main_v103 main_v104 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v26 main_v105 (broadcastInDim S850000x1 ![0] bcast_S850000_S850000x1_0 : (⟨S850000, .f32⟩ : BufTy).Contents (Elt F) → (⟨S850000x1, .f32⟩ : BufTy).Contents (Elt F)),
    StableHlo.unary main_v105 main_v106 (broadcastInDim S850000x256 ![0, 1] bcast_S850000x1_S850000x256_0_1 : (⟨S850000x1, .f32⟩ : BufTy).Contents (Elt F) → (⟨S850000x256, .f32⟩ : BufTy).Contents (Elt F)),
    StableHlo.binary main_v104 main_v106 main_v107 (mulf : (⟨S850000x256, .f32⟩ : BufTy).Contents (Elt F) → (⟨S850000x256, .f32⟩ : BufTy).Contents (Elt F) → (⟨S850000x256, .f32⟩ : BufTy).Contents (Elt F)),
    StableHlo.nullary main_cst_19 (constant S_ .f32 0x00000000#32),
    StableHlo.unary main_cst_19 main_v108 (broadcastInDim S50000x256 ![] bcast_S_S50000x256 : (⟨S_, .f32⟩ : BufTy).Contents (Elt F) → (⟨S50000x256, .f32⟩ : BufTy).Contents (Elt F)),
    StableHlo.unary main_v6 main_v109 (broadcastInDim S850000x1 ![0] bcast_S850000_S850000x1_0 : (⟨S850000, .i32⟩ : BufTy).Contents (Elt F) → (⟨S850000x1, .i32⟩ : BufTy).Contents (Elt F)),
    StableHlo.ternary main_v108 main_v109 main_v107 main_v110 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg11 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S50000x256 ![0, 1] bcast_S1x256_S50000x256_0_1 : (⟨S1x256, .f32⟩ : BufTy).Contents (Elt F) → (⟨S50000x256, .f32⟩ : BufTy).Contents (Elt F)),
    StableHlo.binary main_v110 main_v112 main_v113 (addf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x00000000#32),
    StableHlo.binary main_v113 main_cst_20 main_v114 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_21 (constant S_ .f32 0x47435000#32),
    StableHlo.unary main_cst_21 main_v115 (broadcastInDim S256 ![] bcast_S_S256 : (⟨S_, .f32⟩ : BufTy).Contents (Elt F) → (⟨S256, .f32⟩ : BufTy).Contents (Elt F)),
    StableHlo.binary main_v114 main_v115 main_v116 (Host.divf : (⟨S256, .f32⟩ : BufTy).Contents (Elt F) → (⟨S256, .f32⟩ : BufTy).Contents (Elt F) → (⟨S256, .f32⟩ : BufTy).Contents (Elt F)),
    StableHlo.nullary main_c_22 (constantI S_ 32 0#32) ]
theorem refG1_sub : (refG1 : List (HloOp τ sig (Elt F))).Forall fun op => op.bufs ⊆ tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem refG1_fresh : (refG1 : List (HloOp τ sig (Elt F))).Forall fun op => op.fresh = ∅ := by
  simp only [List.Forall]; repeat' constructor
/-- The buffers these operations write. -/
abbrev refG1_W : List (Ref sig .tc) := [main_c_18, main_v100, main_v101, main_v102, main_v103, main_v104, main_v105, main_v106, main_v107, main_cst_19, main_v108, main_v109, main_v110, main_v111, main_v112, main_v113, main_cst_20, main_v114, main_cst_21, main_v115, main_v116, main_c_22]
theorem refG1_writes : (refG1 : List (HloOp τ sig (Elt F))).Forall fun op => op.writes ⊆ (refG1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refG1_keep (V : Valuation τ sig (Elt F)) (r : Ref sig .tc) (h : r ∉ refG1_W) :
    after refG1 V (Proc.devRef .tc r) = V (Proc.devRef .tc r) :=
  after_of_writes_sub refG1 V refG1_writes h

/-- 22 operations, in order. -/
abbrev refG2 : List (HloOp τ sig (Elt F)) :=
  [ StableHlo.TRef.nullary main_call1.cst (constant S_ .f32 0x00000000#32),
    StableHlo.TRef.binary (.of main_v113 : StableHlo.TRef sig ⟨S50000x256, .f32⟩) main_call1.cst main_call1.v0 (fun x v => Host.reduceAdd x v reducesTo_S50000x256_S256_d0 h_S_),
    StableHlo.TRef.unary main_call1.v0 main_call1.v1 (broadcastInDim S1x256 ![1] bcast_S256_S1x256_1),
    StableHlo.TRef.nullary main_call1.cst_0 (constant S_ .f32 0x47435000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S50000x256 ![0, 1] bcast_S1x256_S50000x256_0_1),
    StableHlo.TRef.binary (.of main_v113 : StableHlo.TRef sig ⟨S50000x256, .f32⟩) main_call1.v4 main_call1.v5 subf,
    StableHlo.TRef.binary main_call1.v5 main_call1.v5 main_call1.v6 mulf,
    StableHlo.TRef.unary (.of main_c_22 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b) ]
theorem refG2_sub : (refG2 : List (HloOp τ sig (Elt F))).Forall fun op => op.bufs ⊆ tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem refG2_fresh : (refG2 : List (HloOp τ sig (Elt F))).Forall fun op => op.fresh = ∅ := by
  simp only [List.Forall]; repeat' constructor
/-- The buffers these operations write. -/
abbrev refG2_W : List (Ref sig .tc) := [(main_call1.cst).ref, (main_call1.v0).ref, (main_call1.v1).ref, (main_call1.cst_0).ref, (main_call1.v2).ref, (main_call1.v3).ref, (main_call1.v4).ref, (main_call1.v5).ref, (main_call1.v6).ref, (main_call1.v7).ref, (main_call1.cst_1).ref, (main_call1.v8).ref, (main_call1.cst_2).ref, (main_call1.v9).ref, (main_call1.v10).ref, (main_call1.v11).ref, (main_call1.cst_3).ref, (main_call1.v12).ref, (main_call1.cst_4).ref, (main_call1.call0.v0).ref, (main_call1.call0.v1).ref, (main_call1.call0.v2).ref]
theorem refG2_writes : (refG2 : List (HloOp τ sig (Elt F))).Forall fun op => op.writes ⊆ (refG2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refG2_keep (V : Valuation τ sig (Elt F)) (r : Ref sig .tc) (h : r ∉ refG2_W) :
    after refG2 V (Proc.devRef .tc r) = V (Proc.devRef .tc r) :=
  after_of_writes_sub refG2 V refG2_writes h

/-- 16 operations, in order. -/
abbrev refG3 : List (HloOp τ sig (Elt F)) :=
  [ StableHlo.unary main_v116 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S50000x256 ![0, 1] bcast_S1x256_S50000x256_0_1 : (⟨S1x256, .f32⟩ : BufTy).Contents (Elt F) → (⟨S50000x256, .f32⟩ : BufTy).Contents (Elt F)),
    StableHlo.binary main_v113 main_v119 main_v120 (subf : (⟨S50000x256, .f32⟩ : BufTy).Contents (Elt F) → (⟨S50000x256, .f32⟩ : BufTy).Contents (Elt F) → (⟨S50000x256, .f32⟩ : BufTy).Contents (Elt F)),
    StableHlo.nullary main_cst_23 (constant S_ .f32 0x3727C5AC#32),
    StableHlo.unary main_cst_23 main_v121 (broadcastInDim S256 ![] bcast_S_S256 : (⟨S_, .f32⟩ : BufTy).Contents (Elt F) → (⟨S256, .f32⟩ : BufTy).Contents (Elt F)),
    StableHlo.binary main_v117 main_v121 main_v122 (addf : (⟨S256, .f32⟩ : BufTy).Contents (Elt F) → (⟨S256, .f32⟩ : BufTy).Contents (Elt F) → (⟨S256, .f32⟩ : BufTy).Contents (Elt F)),
    StableHlo.unary main_v122 main_v123 (Host.rsqrt : (⟨S256, .f32⟩ : BufTy).Contents (Elt F) → (⟨S256, .f32⟩ : BufTy).Contents (Elt F)),
    StableHlo.unary main_v123 main_v124 (broadcastInDim S1x256 ![1] bcast_S256_S1x256_1 : (⟨S256, .f32⟩ : BufTy).Contents (Elt F) → (⟨S1x256, .f32⟩ : BufTy).Contents (Elt F)),
    StableHlo.unary main_v124 main_v125 (broadcastInDim S50000x256 ![0, 1] bcast_S1x256_S50000x256_0_1 : (⟨S1x256, .f32⟩ : BufTy).Contents (Elt F) → (⟨S50000x256, .f32⟩ : BufTy).Contents (Elt F)),
    StableHlo.binary main_v120 main_v125 main_v126 (mulf : (⟨S50000x256, .f32⟩ : BufTy).Contents (Elt F) → (⟨S50000x256, .f32⟩ : BufTy).Contents (Elt F) → (⟨S50000x256, .f32⟩ : BufTy).Contents (Elt F)),
    StableHlo.unary main_arg12 main_v127 (broadcastInDim S1x256 ![1] bcast_S256_S1x256_1 : (⟨S256, .f32⟩ : BufTy).Contents (Elt F) → (⟨S1x256, .f32⟩ : BufTy).Contents (Elt F)),
    StableHlo.unary main_v127 main_v128 (broadcastInDim S50000x256 ![0, 1] bcast_S1x256_S50000x256_0_1 : (⟨S1x256, .f32⟩ : BufTy).Contents (Elt F) → (⟨S50000x256, .f32⟩ : BufTy).Contents (Elt F)),
    StableHlo.binary main_v126 main_v128 main_v129 (mulf : (⟨S50000x256, .f32⟩ : BufTy).Contents (Elt F) → (⟨S50000x256, .f32⟩ : BufTy).Contents (Elt F) → (⟨S50000x256, .f32⟩ : BufTy).Contents (Elt F)),
    StableHlo.unary main_arg13 main_v130 (broadcastInDim S1x256 ![1] bcast_S256_S1x256_1 : (⟨S256, .f32⟩ : BufTy).Contents (Elt F) → (⟨S1x256, .f32⟩ : BufTy).Contents (Elt F)),
    StableHlo.unary main_v130 main_v131 (broadcastInDim S50000x256 ![0, 1] bcast_S1x256_S50000x256_0_1 : (⟨S1x256, .f32⟩ : BufTy).Contents (Elt F) → (⟨S50000x256, .f32⟩ : BufTy).Contents (Elt F)),
    StableHlo.binary main_v129 main_v131 main_v132 (addf : (⟨S50000x256, .f32⟩ : BufTy).Contents (Elt F) → (⟨S50000x256, .f32⟩ : BufTy).Contents (Elt F) → (⟨S50000x256, .f32⟩ : BufTy).Contents (Elt F)) ]
theorem refG3_sub : (refG3 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem refG3_fresh : (refG3 : List (HloOp τ sig (Elt F))).Forall fun op => op.fresh = ∅ := by
  simp only [List.Forall]; repeat' constructor
/-- The buffers these operations write. -/
abbrev refG3_W : List (Ref sig .tc) := [main_v118, main_v119, main_v120, main_cst_23, main_v121, main_v122, main_v123, main_v124, main_v125, main_v126, main_v127, main_v128, main_v129, main_v130, main_v131, main_v132]
theorem refG3_writes : (refG3 : List (HloOp τ sig (Elt F))).Forall fun op => op.writes ⊆ (refG3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refG3_keep (V : Valuation τ sig (Elt F)) (r : Ref sig .tc) (h : r ∉ refG3_W) :
    after refG3 V (Proc.devRef .tc r) = V (Proc.devRef .tc r) :=
  after_of_writes_sub refG3 V refG3_writes h

/-- 1 operations, in order. -/
abbrev refD4 : List (HloOp τ sig (Elt F)) :=
  [ StableHlo.binary main_v132 main_arg14 main_v133 ((fun l r => Host.dotGeneral dot_S50000x256_S256x5_S50000x5_1_0_0_1_n_n none l r) : (⟨S50000x256, .f32⟩ : BufTy).Contents (Elt F) → (⟨S256x5, .f32⟩ : BufTy).Contents (Elt F) → (⟨S50000x5, .f32⟩ : BufTy).Contents (Elt F)) ]
theorem refD4_sub : (refD4 : List (HloOp τ sig (Elt F))).Forall fun op => op.bufs ⊆ tcRefs τ sig :=
  (StableHlo.binary_bufs_sub ..)
theorem refD4_fresh : (refD4 : List (HloOp τ sig (Elt F))).Forall fun op => op.fresh = ∅ := by
  simp only [List.Forall]; repeat' constructor
/-- The buffers these operations write. -/
abbrev refD4_W : List (Ref sig .tc) := [main_v133]
theorem refD4_writes : (refD4 : List (HloOp τ sig (Elt F))).Forall fun op => op.writes ⊆ (refD4_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
/-- A buffer these operations do not write keeps its contents through them. -/
theorem refD4_keep (V : Valuation τ sig (Elt F)) (r : Ref sig .tc) (h : r ∉ refD4_W) :
    after refD4 V (Proc.devRef .tc r) = V (Proc.devRef .tc r) :=
  after_of_writes_sub refD4 V refD4_writes h

/-- 11 operations, in order. -/
abbrev refT : List (HloOp τ sig (Elt F)) :=
  [ StableHlo.unary main_arg15 main_v134 (broadcastInDim S1x5 ![1] bcast_S5_S1x5_1 : (⟨S5, .f32⟩ : BufTy).Contents (Elt F) → (⟨S1x5, .f32⟩ : BufTy).Contents (Elt F)),
    StableHlo.unary main_v134 main_v135 (broadcastInDim S50000x5 ![0, 1] bcast_S1x5_S50000x5_0_1 : (⟨S1x5, .f32⟩ : BufTy).Contents (Elt F) → (⟨S50000x5, .f32⟩ : BufTy).Contents (Elt F)),
    StableHlo.binary main_v133 main_v135 main_v136 (addf : (⟨S50000x5, .f32⟩ : BufTy).Contents (Elt F) → (⟨S50000x5, .f32⟩ : BufTy).Contents (Elt F) → (⟨S50000x5, .f32⟩ : BufTy).Contents (Elt F)),
    StableHlo.unary main_v136 main_v137 (Host.negf : (⟨S50000x5, .f32⟩ : BufTy).Contents (Elt F) → (⟨S50000x5, .f32⟩ : BufTy).Contents (Elt F)),
    StableHlo.unary main_v137 main_v138 (Host.exp : (⟨S50000x5, .f32⟩ : BufTy).Contents (Elt F) → (⟨S50000x5, .f32⟩ : BufTy).Contents (Elt F)),
    StableHlo.nullary main_cst_24 (constant S_ .f32 0x3F800000#32),
    StableHlo.unary main_cst_24 main_v139 (broadcastInDim S50000x5 ![] bcast_S_S50000x5 : (⟨S_, .f32⟩ : BufTy).Contents (Elt F) → (⟨S50000x5, .f32⟩ : BufTy).Contents (Elt F)),
    StableHlo.binary main_v139 main_v138 main_v140 (addf : (⟨S50000x5, .f32⟩ : BufTy).Contents (Elt F) → (⟨S50000x5, .f32⟩ : BufTy).Contents (Elt F) → (⟨S50000x5, .f32⟩ : BufTy).Contents (Elt F)),
    StableHlo.nullary main_cst_25 (constant S_ .f32 0x3F800000#32),
    StableHlo.unary main_cst_25 main_v141 (broadcastInDim S50000x5 ![] bcast_S_S50000x5 : (⟨S_, .f32⟩ : BufTy).Contents (Elt F) → (⟨S50000x5, .f32⟩ : BufTy).Contents (Elt F)),
    StableHlo.binary main_v141 main_v140 main_v142 (Host.divf : (⟨S50000x5, .f32⟩ : BufTy).Contents (Elt F) → (⟨S50000x5, .f32⟩ : BufTy).Contents (Elt F) → (⟨S50000x5, .f32⟩ : BufTy).Contents (Elt F)) ]
theorem refT_sub : (refT : List (HloOp τ sig (Elt F))).Forall fun op => op.bufs ⊆ tcRefs τ sig :=
  ⟨StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
theorem refT_fresh : (refT : List (HloOp τ sig (Elt F))).Forall fun op => op.fresh = ∅ := by
  simp only [List.Forall]; repeat' constructor
/-- The buffers these operations write. -/
abbrev refT_W : List (Ref sig .tc) := [main_v134, main_v135, main_v136, main_v137, main_v138, main_cst_24, main_v139, main_v140, main_cst_25, main_v141, main_v142]
theorem refT_writes : (refT : List (HloOp τ sig (Elt F))).Forall fun op => op.writes ⊆ (refT_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem refT_keep (V : Valuation τ sig (Elt F)) (r : Ref sig .tc) (h : r ∉ refT_W) :
    after refT V (Proc.devRef .tc r) = V (Proc.devRef .tc r) :=
  after_of_writes_sub refT V refT_writes h

end Cert.ReferenceIdeal.Ops

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefRun.lean ====
/-
  The reference program's run, read back.

  The reference is one straight line of host operations (two module-local functions, the variance, are run at their
  call sites).  Listed in order, its buffers after the run are the fold of the operations' results over the launch
  contents; so every weakly fair execution terminates with every buffer at that fold.  The line is kept in the
  pieces of the operation table — the stretches between the matrix products, and each matrix product by itself —
  so that the fold can be read one stretch at a time.
-/
import proofs.«182173_j27023934226530_1_alg».proof.Proof.RefOps
import proofs.«182173_j27023934226530_1_alg».proof.Proof.LibAfterAppend

noncomputable section

namespace Cert.ReferenceIdeal.RefRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The first window of @main: everything up to the first matrix product, the product, and three more lines. -/
abbrev win0 : List (HloOp τ sig (Elt F)) := refA0 ++ (refA1 ++ (refA2 ++ (refD0 ++ refB0)))
/-- The second window: the rest of layer 1's aggregation, layers 2 and 3, and three lines of layer 4. -/
abbrev win1 : List (HloOp τ sig (Elt F)) := refB1 ++ (refD1 ++ (refC ++ (refD2 ++ (refE ++ (refD3 ++ refG0)))))
/-- The third window: layer 4's aggregation, the second normalisation, the decoder. -/
abbrev win2 : List (HloOp τ sig (Elt F)) := refG1 ++ (refG2 ++ (refG3 ++ (refD4 ++ refT)))
/-- @main's operations, in order. -/
abbrev ops : List (HloOp τ sig (Elt F)) := win0 ++ (win1 ++ win2)

set_option maxRecDepth 8192 in
set_option maxHeartbeats 4000000 in
theorem main_part0_eq (c : Dev nD) : main_part0 (F := F) c = seq win0 := by
  simp only [main_part0, fn_var.body, fn_where.body, seq, bind_assoc, pure_bind]
  rfl

set_option maxRecDepth 8192 in
set_option maxHeartbeats 4000000 in
theorem main_part1_eq (c : Dev nD) : main_part1 (F := F) c = seq win1 := by
  simp only [main_part1, seq, bind_assoc, pure_bind]
  rfl

set_option maxRecDepth 8192 in
set_option maxHeartbeats 4000000 in
theorem main_part2_eq (c : Dev nD) : main_part2 (F := F) c = seq win2 := by
  simp only [main_part2, fn_var_0.body, fn_where_1.body, seq, bind_assoc, pure_bind]
  rfl

/-- @main is that straight line: its three windows one after the other. -/
theorem main_eq (c : Dev nD) : main (F := F) c = seq ops := by
  simp only [ops, seq_append (win0 (F := F)), seq_append (win1 (F := F)), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

private theorem forall_append {P : HloOp τ sig (Elt F) → Prop} {l₁ l₂ : List (HloOp τ sig (Elt F))}
    (h₁ : l₁.Forall P) (h₂ : l₂.Forall P) : (l₁ ++ l₂).Forall P :=
  List.forall_iff_forall_mem.mpr fun op h => by
    rcases List.mem_append.mp h with h | h
    · exact List.forall_iff_forall_mem.mp h₁ op h
    · exact List.forall_iff_forall_mem.mp h₂ op h

theorem ops_sub : (ops : List (HloOp τ sig (Elt F))).Forall fun op => op.bufs ⊆ tcRefs τ sig :=
  forall_append
    (forall_append refA0_sub (forall_append refA1_sub (forall_append refA2_sub (forall_append refD0_sub refB0_sub))))
    (forall_append
      (forall_append refB1_sub (forall_append refD1_sub (forall_append refC_sub (forall_append refD2_sub
        (forall_append refE_sub (forall_append refD3_sub refG0_sub))))))
      (forall_append refG1_sub (forall_append refG2_sub (forall_append refG3_sub (forall_append refD4_sub refT_sub)))))

theorem ops_fresh : (ops : List (HloOp τ sig (Elt F))).Forall fun op => op.fresh = ∅ :=
  forall_append
    (forall_append refA0_fresh (forall_append refA1_fresh (forall_append refA2_fresh (forall_append refD0_fresh refB0_fresh))))
    (forall_append
      (forall_append refB1_fresh (forall_append refD1_fresh (forall_append refC_fresh (forall_append refD2_fresh
        (forall_append refE_fresh (forall_append refD3_fresh refG0_fresh))))))
      (forall_append refG1_fresh (forall_append refG2_fresh (forall_append refG3_fresh (forall_append refD4_fresh refT_fresh)))))

/-- A buffer that neither of two stretches writes keeps its contents through one run after the other. -/
theorem keep_append {l₁ l₂ : List (HloOp τ sig (Elt F))} {W₁ W₂ : List (Ref sig .tc)}
    (h₁ : ∀ (V : Valuation τ sig (Elt F)) (r : Ref sig .tc), r ∉ W₁ → after l₁ V (Proc.devRef .tc r) = V (Proc.devRef .tc r))
    (h₂ : ∀ (V : Valuation τ sig (Elt F)) (r : Ref sig .tc), r ∉ W₂ → after l₂ V (Proc.devRef .tc r) = V (Proc.devRef .tc r))
    (V : Valuation τ sig (Elt F)) (r : Ref sig .tc) (hr : r ∉ W₁ ++ W₂) :
    after (l₁ ++ l₂) V (Proc.devRef .tc r) = V (Proc.devRef .tc r) := by
  rw [Cert.LibAfterAppend.after_append, h₂ _ r (fun h => hr (List.mem_append_right _ h)),
    h₁ V r (fun h => hr (List.mem_append_left _ h))]

/-- Every buffer the line writes, piece by piece in the line's order. -/
abbrev opsW : List (Ref sig .tc) :=
  (refA0_W ++ (refA1_W ++ (refA2_W ++ (refD0_W ++ refB0_W))))
    ++ ((refB1_W ++ (refD1_W ++ (refC_W ++ (refD2_W ++ (refE_W ++ (refD3_W ++ refG0_W))))))
      ++ (refG1_W ++ (refG2_W ++ (refG3_W ++ (refD4_W ++ refT_W)))))

/-- A buffer the line never writes — an argument — holds its launch contents after the whole line. -/
theorem ops_keep (V : Valuation τ sig (Elt F)) (r : Ref sig .tc) (hr : r ∉ opsW) :
    after (ops (F := F)) V (Proc.devRef .tc r) = V (Proc.devRef .tc r) :=
  keep_append
    (keep_append refA0_keep (keep_append refA1_keep (keep_append refA2_keep (keep_append refD0_keep refB0_keep))))
    (keep_append
      (keep_append refB1_keep (keep_append refD1_keep (keep_append refC_keep (keep_append refD2_keep
        (keep_append refE_keep (keep_append refD3_keep refG0_keep))))))
      (keep_append refG1_keep (keep_append refG2_keep (keep_append refG3_keep (keep_append refD4_keep refT_keep)))))
    V r hr

/-- The contents after the whole line, read stretch by stretch. -/
theorem after_ops (V : Valuation τ sig (Elt F)) :
    after (ops (F := F)) V
      = after refT (after refD4 (after refG3 (after refG2 (after refG1 (after refG0 (after refD3 (after refE (after refD2
          (after refC (after refD1 (after refB1 (after refB0 (after refD0 (after refA2 (after refA1 (after refA0 V)))))))))))))))) := by
  simp only [ops, win0, win1, win2, Cert.LibAfterAppend.after_append]

/-- On every device, from any memory with zero counters: every weakly fair execution of the reference's @main
    terminates, and every final state has each buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.KOps.lean ====
/- For each stretch of host operations of the kernel program (the lists of the generated launch module): the buffers
   it writes, so that any other buffer keeps its contents through the stretch.  A table read off the lists. -/
import proofs.«182173_j27023934226530_1_alg».proof.Proof.Gen.KernelIdeal.Launch
import Idealize.ShloMosaic.Lib.StableHlo.Run

noncomputable section

namespace Cert.KernelIdeal.Keep

open Cert.KernelIdeal Cert.KernelIdeal.Gen Idealize.ShloMosaic Idealize.ShloMosaic.TcCoe Idealize.ShloMosaic.StableHlo

variable {F : FTy → Type} [FloatOps F]

/-- The buffers these operations write. -/
abbrev hostOps0_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_cst_4, main_v27, main_cst_5, main_v28, main_v29, main_c_6]
theorem hostOps0_writes : (hostOps0 : List (HloOp τ sig (Elt F))).Forall fun op => op.writes ⊆ (hostOps0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem hostOps0_keep (V : Valuation τ sig (Elt F)) (r : Ref sig .tc) (h : r ∉ hostOps0_W) :
    after hostOps0 V (Proc.devRef .tc r) = V (Proc.devRef .tc r) :=
  after_of_writes_sub hostOps0 V hostOps0_writes h

/-- The buffers these operations write. -/
abbrev hostOps0_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v30]
theorem hostOps0_1_writes : (hostOps0_1 : List (HloOp τ sig (Elt F))).Forall fun op => op.writes ⊆ (hostOps0_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem hostOps0_1_keep (V : Valuation τ sig (Elt F)) (r : Ref sig .tc) (h : r ∉ hostOps0_1_W) :
    after hostOps0_1 V (Proc.devRef .tc r) = V (Proc.devRef .tc r) :=
  after_of_writes_sub hostOps0_1 V hostOps0_1_writes h

/-- The buffers these operations write. -/
abbrev hostOps0_2_W : List (Ref sig .tc) := [main_v31, main_v32, main_v33, main_cst_7, main_v34, main_v35, main_v36, main_v37, main_v38, main_v39, main_v40, main_v41, main_v42, main_v43, main_v44, main_v45]
theorem hostOps0_2_writes : (hostOps0_2 : List (HloOp τ sig (Elt F))).Forall fun op => op.writes ⊆ (hostOps0_2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem hostOps0_2_keep (V : Valuation τ sig (Elt F)) (r : Ref sig .tc) (h : r ∉ hostOps0_2_W) :
    after hostOps0_2 V (Proc.devRef .tc r) = V (Proc.devRef .tc r) :=
  after_of_writes_sub hostOps0_2 V hostOps0_2_writes h

/-- The buffers these operations write. -/
abbrev hostOps1_W : List (Ref sig .tc) := [main_c_8, main_v47, main_v48, main_c_9, main_v49, main_v50, main_v51, main_v52, main_v53, main_v54, main_v55, main_v56, main_cst_10, main_v57, main_v58, main_v59, main_v60, main_v61, main_v62]
theorem hostOps1_writes : (hostOps1 : List (HloOp τ sig (Elt F))).Forall fun op => op.writes ⊆ (hostOps1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem hostOps1_keep (V : Valuation τ sig (Elt F)) (r : Ref sig .tc) (h : r ∉ hostOps1_W) :
    after hostOps1 V (Proc.devRef .tc r) = V (Proc.devRef .tc r) :=
  after_of_writes_sub hostOps1 V hostOps1_writes h

/-- The buffers these operations write. -/
abbrev hostOps2_W : List (Ref sig .tc) := [main_c_11, main_v64, main_v65, main_c_12, main_v66, main_v67, main_v68, main_v69, main_v70, main_v71, main_v72, main_v73, main_cst_13, main_v74, main_v75, main_v76, main_v77, main_v78, main_v79]
theorem hostOps2_writes : (hostOps2 : List (HloOp τ sig (Elt F))).Forall fun op => op.writes ⊆ (hostOps2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem hostOps2_keep (V : Valuation τ sig (Elt F)) (r : Ref sig .tc) (h : r ∉ hostOps2_W) :
    after hostOps2 V (Proc.devRef .tc r) = V (Proc.devRef .tc r) :=
  after_of_writes_sub hostOps2 V hostOps2_writes h

/-- The buffers these operations write. -/
abbrev hostOps3_W : List (Ref sig .tc) := [main_c_14, main_v81, main_v82, main_c_15, main_v83, main_v84, main_v85, main_v86, main_v87, main_v88, main_v89, main_v90, main_cst_16, main_v91, main_v92, main_v93, main_v94, main_v95, main_v96]
theorem hostOps3_writes : (hostOps3 : List (HloOp τ sig (Elt F))).Forall fun op => op.writes ⊆ (hostOps3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem hostOps3_keep (V : Valuation τ sig (Elt F)) (r : Ref sig .tc) (h : r ∉ hostOps3_W) :
    after hostOps3 V (Proc.devRef .tc r) = V (Proc.devRef .tc r) :=
  after_of_writes_sub hostOps3 V hostOps3_writes h

/-- The buffers these operations write. -/
abbrev hostOps4_W : List (Ref sig .tc) := [main_c_17, main_v98, main_v99, main_c_18, main_v100, main_v101, main_v102, main_v103, main_v104, main_v105, main_v106, main_v107, main_cst_19, main_v108, main_v109, main_v110, main_v111, main_v112, main_v113, main_cst_20, main_v114, main_cst_21, main_v115, main_v116, main_c_22]
theorem hostOps4_writes : (hostOps4 : List (HloOp τ sig (Elt F))).Forall fun op => op.writes ⊆ (hostOps4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem hostOps4_keep (V : Valuation τ sig (Elt F)) (r : Ref sig .tc) (h : r ∉ hostOps4_W) :
    after hostOps4 V (Proc.devRef .tc r) = V (Proc.devRef .tc r) :=
  after_of_writes_sub hostOps4 V hostOps4_writes h

/-- The buffers these operations write. -/
abbrev hostOps4_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v117]
theorem hostOps4_1_writes : (hostOps4_1 : List (HloOp τ sig (Elt F))).Forall fun op => op.writes ⊆ (hostOps4_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem hostOps4_1_keep (V : Valuation τ sig (Elt F)) (r : Ref sig .tc) (h : r ∉ hostOps4_1_W) :
    after hostOps4_1 V (Proc.devRef .tc r) = V (Proc.devRef .tc r) :=
  after_of_writes_sub hostOps4_1 V hostOps4_1_writes h

/-- The buffers these operations write. -/
abbrev hostOps4_2_W : List (Ref sig .tc) := [main_v118, main_v119, main_v120, main_cst_23, main_v121, main_v122, main_v123, main_v124, main_v125, main_v126, main_v127, main_v128, main_v129, main_v130, main_v131, main_v132, main_v133]
theorem hostOps4_2_writes : (hostOps4_2 : List (HloOp τ sig (Elt F))).Forall fun op => op.writes ⊆ (hostOps4_2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩
/-- A buffer these operations do not write keeps its contents through them. -/
theorem hostOps4_2_keep (V : Valuation τ sig (Elt F)) (r : Ref sig .tc) (h : r ∉ hostOps4_2_W) :
    after hostOps4_2 V (Proc.devRef .tc r) = V (Proc.devRef .tc r) :=
  after_of_writes_sub hostOps4_2 V hostOps4_2_writes h

end Cert.KernelIdeal.Keep

end
-- ==== Proof.S0v3.lean ====
/-
  The host operations before the first matrix product, the same in both programs: the source index vector.

  Both programs start with the same host operations on their arguments — the edge list cut into source and destination
  index vectors with the self loops appended, the degrees counted by a scatter of ones, their inverse square roots
  gathered at the two ends of each edge and multiplied, and the first batch normalisation of the features (the column
  means, the variance by the outlined function, the scale and the shift).  From launch contents that agree on the
  arguments these operations read, the two programs leave the same array in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.S0v3

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (h1 : WK (Proc.devRef .tc Cert.KernelIdeal.main_arg1) = WR (Proc.devRef .tc Cert.ReferenceIdeal.main_arg1)) :
    after (Cert.KernelIdeal.Gen.hostOps0_2 (F := Ideal)) (after (Cert.KernelIdeal.Gen.hostOps0_1 (F := Ideal)) (after (Cert.KernelIdeal.Gen.hostOps0 (F := Ideal)) WK)) (Proc.devRef .tc Cert.KernelIdeal.main_v3)
      = after (Cert.ReferenceIdeal.Ops.refA2 (F := Ideal)) (after (Cert.ReferenceIdeal.Ops.refA1 (F := Ideal)) (after (Cert.ReferenceIdeal.Ops.refA0 (F := Ideal)) WR)) (Proc.devRef .tc Cert.ReferenceIdeal.main_v3) := by
  generalize hR : after (Cert.ReferenceIdeal.Ops.refA2 (F := Ideal)) (after (Cert.ReferenceIdeal.Ops.refA1 (F := Ideal)) (after (Cert.ReferenceIdeal.Ops.refA0 (F := Ideal)) WR)) (Proc.devRef .tc Cert.ReferenceIdeal.main_v3) = rhs
  dsimp only [Cert.KernelIdeal.Gen.hostOps0, Cert.KernelIdeal.Gen.hostOps0_1, Cert.KernelIdeal.Gen.hostOps0_2]
  after_results
  rw [h1]
  subst hR
  symm
  dsimp only [Cert.ReferenceIdeal.Ops.refA0, Cert.ReferenceIdeal.Ops.refA1, Cert.ReferenceIdeal.Ops.refA2]
  after_results
  rfl

end Cert.Bridge.S0v3

end
-- ==== Proof.S0v6.lean ====
/-
  The host operations before the first matrix product, the same in both programs: the destination index vector.

  Both programs start with the same host operations on their arguments — the edge list cut into source and destination
  index vectors with the self loops appended, the degrees counted by a scatter of ones, their inverse square roots
  gathered at the two ends of each edge and multiplied, and the first batch normalisation of the features (the column
  means, the variance by the outlined function, the scale and the shift).  From launch contents that agree on the
  arguments these operations read, the two programs leave the same array in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.S0v6

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (h1 : WK (Proc.devRef .tc Cert.KernelIdeal.main_arg1) = WR (Proc.devRef .tc Cert.ReferenceIdeal.main_arg1)) :
    after (Cert.KernelIdeal.Gen.hostOps0_2 (F := Ideal)) (after (Cert.KernelIdeal.Gen.hostOps0_1 (F := Ideal)) (after (Cert.KernelIdeal.Gen.hostOps0 (F := Ideal)) WK)) (Proc.devRef .tc Cert.KernelIdeal.main_v6)
      = after (Cert.ReferenceIdeal.Ops.refA2 (F := Ideal)) (after (Cert.ReferenceIdeal.Ops.refA1 (F := Ideal)) (after (Cert.ReferenceIdeal.Ops.refA0 (F := Ideal)) WR)) (Proc.devRef .tc Cert.ReferenceIdeal.main_v6) := by
  generalize hR : after (Cert.ReferenceIdeal.Ops.refA2 (F := Ideal)) (after (Cert.ReferenceIdeal.Ops.refA1 (F := Ideal)) (after (Cert.ReferenceIdeal.Ops.refA0 (F := Ideal)) WR)) (Proc.devRef .tc Cert.ReferenceIdeal.main_v6) = rhs
  dsimp only [Cert.KernelIdeal.Gen.hostOps0, Cert.KernelIdeal.Gen.hostOps0_1, Cert.KernelIdeal.Gen.hostOps0_2]
  after_results
  rw [h1]
  subst hR
  symm
  dsimp only [Cert.ReferenceIdeal.Ops.refA0, Cert.ReferenceIdeal.Ops.refA1, Cert.ReferenceIdeal.Ops.refA2]
  after_results
  rfl

end Cert.Bridge.S0v6

end
-- ==== Proof.S0v26.lean ====
/-
  The host operations before the first matrix product, the same in both programs: the edge weights.

  Both programs start with the same host operations on their arguments — the edge list cut into source and destination
  index vectors with the self loops appended, the degrees counted by a scatter of ones, their inverse square roots
  gathered at the two ends of each edge and multiplied, and the first batch normalisation of the features (the column
  means, the variance by the outlined function, the scale and the shift).  From launch contents that agree on the
  arguments these operations read, the two programs leave the same array in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.S0v26

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (h1 : WK (Proc.devRef .tc Cert.KernelIdeal.main_arg1) = WR (Proc.devRef .tc Cert.ReferenceIdeal.main_arg1)) :
    after (Cert.KernelIdeal.Gen.hostOps0_2 (F := Ideal)) (after (Cert.KernelIdeal.Gen.hostOps0_1 (F := Ideal)) (after (Cert.KernelIdeal.Gen.hostOps0 (F := Ideal)) WK)) (Proc.devRef .tc Cert.KernelIdeal.main_v26)
      = after (Cert.ReferenceIdeal.Ops.refA2 (F := Ideal)) (after (Cert.ReferenceIdeal.Ops.refA1 (F := Ideal)) (after (Cert.ReferenceIdeal.Ops.refA0 (F := Ideal)) WR)) (Proc.devRef .tc Cert.ReferenceIdeal.main_v26) := by
  generalize hR : after (Cert.ReferenceIdeal.Ops.refA2 (F := Ideal)) (after (Cert.ReferenceIdeal.Ops.refA1 (F := Ideal)) (after (Cert.ReferenceIdeal.Ops.refA0 (F := Ideal)) WR)) (Proc.devRef .tc Cert.ReferenceIdeal.main_v26) = rhs
  dsimp only [Cert.KernelIdeal.Gen.hostOps0, Cert.KernelIdeal.Gen.hostOps0_1, Cert.KernelIdeal.Gen.hostOps0_2]
  after_results
  rw [h1]
  subst hR
  symm
  dsimp only [Cert.ReferenceIdeal.Ops.refA0, Cert.ReferenceIdeal.Ops.refA1, Cert.ReferenceIdeal.Ops.refA2]
  after_results
  rfl

end Cert.Bridge.S0v26

end
-- ==== Proof.P0v29.lean ====
/-
  The host operations before the variance call, the same in both programs: the column means of the features.

  Both programs start with the same host operations on their arguments.  From launch contents that agree on the
  arguments these operations read, the two programs leave the same contents in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.P0v29

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (h0 : WK (Proc.devRef .tc Cert.KernelIdeal.main_arg0) = WR (Proc.devRef .tc Cert.ReferenceIdeal.main_arg0)) :
    after (Cert.KernelIdeal.Gen.hostOps0 (F := Ideal)) WK (Proc.devRef .tc Cert.KernelIdeal.main_v29)
      = after (Cert.ReferenceIdeal.Ops.refA0 (F := Ideal)) WR (Proc.devRef .tc Cert.ReferenceIdeal.main_v29) := by
  generalize hR : after (Cert.ReferenceIdeal.Ops.refA0 (F := Ideal)) WR (Proc.devRef .tc Cert.ReferenceIdeal.main_v29) = rhs
  dsimp only [Cert.KernelIdeal.Gen.hostOps0]
  after_results
  rw [h0]
  subst hR
  symm
  dsimp only [Cert.ReferenceIdeal.Ops.refA0]
  after_results

end Cert.Bridge.P0v29

end
-- ==== Proof.P0c6.lean ====
/-
  The host operations before the variance call, the same in both programs: the integer zero the variance is called with.

  Both programs start with the same host operations on their arguments.  From launch contents that agree on the
  arguments these operations read, the two programs leave the same contents in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.P0c6

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
 :
    after (Cert.KernelIdeal.Gen.hostOps0 (F := Ideal)) WK (Proc.devRef .tc Cert.KernelIdeal.main_c_6)
      = after (Cert.ReferenceIdeal.Ops.refA0 (F := Ideal)) WR (Proc.devRef .tc Cert.ReferenceIdeal.main_c_6) := by
  generalize hR : after (Cert.ReferenceIdeal.Ops.refA0 (F := Ideal)) WR (Proc.devRef .tc Cert.ReferenceIdeal.main_c_6) = rhs
  dsimp only [Cert.KernelIdeal.Gen.hostOps0]
  after_results
  subst hR
  symm
  dsimp only [Cert.ReferenceIdeal.Ops.refA0]
  after_results

end Cert.Bridge.P0c6

end
-- ==== Proof.P0v45.lean ====
/-
  A stretch of host operations that is the same in both programs: the first batch normalisation's scale and shift, from the features, their column means and variances and the two parameter vectors.

  From buffer contents that agree on what these operations read, the two programs leave the same array in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.P0v45

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (h0 : WK (Proc.devRef .tc Cert.KernelIdeal.main_arg0) = WR (Proc.devRef .tc Cert.ReferenceIdeal.main_arg0))
    (hm : WK (Proc.devRef .tc Cert.KernelIdeal.main_v29) = WR (Proc.devRef .tc Cert.ReferenceIdeal.main_v29))
    (hv : WK (Proc.devRef .tc Cert.KernelIdeal.main_v30) = WR (Proc.devRef .tc Cert.ReferenceIdeal.main_v30))
    (h2 : WK (Proc.devRef .tc Cert.KernelIdeal.main_arg2) = WR (Proc.devRef .tc Cert.ReferenceIdeal.main_arg2))
    (h3 : WK (Proc.devRef .tc Cert.KernelIdeal.main_arg3) = WR (Proc.devRef .tc Cert.ReferenceIdeal.main_arg3)) :
    after (Cert.KernelIdeal.Gen.hostOps0_2 (F := Ideal)) WK (Proc.devRef .tc Cert.KernelIdeal.main_v45)
      = after (Cert.ReferenceIdeal.Ops.refA2 (F := Ideal)) WR (Proc.devRef .tc Cert.ReferenceIdeal.main_v45) := by
  generalize hR : after (Cert.ReferenceIdeal.Ops.refA2 (F := Ideal)) WR (Proc.devRef .tc Cert.ReferenceIdeal.main_v45) = rhs
  dsimp only [Cert.KernelIdeal.Gen.hostOps0_2]
  after_results
  rw [h0, hm, hv, h2, h3]
  subst hR
  symm
  dsimp only [Cert.ReferenceIdeal.Ops.refA2]
  after_results

end Cert.Bridge.P0v45

end
-- ==== Proof.VarFn.lean ====
/- The biased variance down the rows, as the two programs compute it.

  Both programs call the same outlined function twice, on a 50000 × 512 and on a 50000 × 256 array x, with an integer
  ddof (zero at both calls): the column means, the squared deviations from them summed down the rows, divided by
  50000 − ddof, and, were that divisor not positive, a not-a-number in its place.  Here it is as a plain function of x and
  ddof, operation by operation as printed.
-/
import proofs.«182173_j27023934226530_1_alg».proof.Proof.Gen.ReferenceIdeal
import Idealize.ShloMosaic.PureOps.Ideal

noncomputable section

namespace Cert.Bridge.VarFn

open Cert.ReferenceIdeal Cert.ReferenceIdeal.Gen Idealize.ShloMosaic

variable {F : FTy → Type} [FloatOps F]

/-- The variance of each of the 512 columns of x. -/
def var512 (x : (⟨S50000x512, .f32⟩ : BufTy).Contents (Elt F)) (ddof : (⟨S_, .i32⟩ : BufTy).Contents (Elt F)) :
    (⟨S512, .f32⟩ : BufTy).Contents (Elt F) :=
  let cst : (⟨S_, .f32⟩ : BufTy).Contents (Elt F) := (constant S_ .f32 0x00000000#32)
  let v0 : (⟨S512, .f32⟩ : BufTy).Contents (Elt F) := ((fun x v => Host.reduceAdd x v reducesTo_S50000x512_S512_d0 h_S_)) x cst
  let v1 : (⟨S1x512, .f32⟩ : BufTy).Contents (Elt F) := ((broadcastInDim S1x512 ![1] bcast_S512_S1x512_1)) v0
  let cst_0 : (⟨S_, .f32⟩ : BufTy).Contents (Elt F) := (constant S_ .f32 0x47435000#32)
  let v2 : (⟨S1x512, .f32⟩ : BufTy).Contents (Elt F) := ((broadcastInDim S1x512 ![] bcast_S_S1x512)) cst_0
  let v3 : (⟨S1x512, .f32⟩ : BufTy).Contents (Elt F) := (Host.divf) v1 v2
  let v4 : (⟨S50000x512, .f32⟩ : BufTy).Contents (Elt F) := ((broadcastInDim S50000x512 ![0, 1] bcast_S1x512_S50000x512_0_1)) v3
  let v5 : (⟨S50000x512, .f32⟩ : BufTy).Contents (Elt F) := (subf) x v4
  let v6 : (⟨S50000x512, .f32⟩ : BufTy).Contents (Elt F) := (mulf) v5 v5
  let v7 : (⟨S_, .f32⟩ : BufTy).Contents (Elt F) := ((sitofp .f32)) ddof
  let cst_1 : (⟨S_, .f32⟩ : BufTy).Contents (Elt F) := (constant S_ .f32 0x47435000#32)
  let v8 : (⟨S_, .f32⟩ : BufTy).Contents (Elt F) := (subf) cst_1 v7
  let cst_2 : (⟨S_, .f32⟩ : BufTy).Contents (Elt F) := (constant S_ .f32 0x00000000#32)
  let v9 : (⟨S512, .f32⟩ : BufTy).Contents (Elt F) := ((fun x v => Host.reduceAdd x v reducesTo_S50000x512_S512_d0 h_S_)) v6 cst_2
  let v10 : (⟨S512, .f32⟩ : BufTy).Contents (Elt F) := ((broadcastInDim S512 ![] bcast_S_S512)) v8
  let v11 : (⟨S512, .f32⟩ : BufTy).Contents (Elt F) := (Host.divf) v9 v10
  let cst_3 : (⟨S_, .f32⟩ : BufTy).Contents (Elt F) := (constant S_ .f32 0x00000000#32)
  let v12 : (⟨S_, .i1⟩ : BufTy).Contents (Elt F) := ((cmpf .ogt)) v8 cst_3
  let cst_4 : (⟨S_, .f32⟩ : BufTy).Contents (Elt F) := (constant S_ .f32 0x7FC00000#32)
  let w_v0 : (⟨S_, .f32⟩ : BufTy).Contents (Elt F) := (id) cst_4
  let w_v1 : (⟨S512, .f32⟩ : BufTy).Contents (Elt F) := ((broadcastInDim S512 ![] bcast_S_S512)) w_v0
  let w_v2 : (⟨S512, .f32⟩ : BufTy).Contents (Elt F) := ((fun p a b => select (broadcastInDim S512 ![] bcast_S_S512 p) a b)) v12 v11 w_v1
  w_v2

/-- The variance of each of the 256 columns of x. -/
def var256 (x : (⟨S50000x256, .f32⟩ : BufTy).Contents (Elt F)) (ddof : (⟨S_, .i32⟩ : BufTy).Contents (Elt F)) :
    (⟨S256, .f32⟩ : BufTy).Contents (Elt F) :=
  let cst : (⟨S_, .f32⟩ : BufTy).Contents (Elt F) := (constant S_ .f32 0x00000000#32)
  let v0 : (⟨S256, .f32⟩ : BufTy).Contents (Elt F) := ((fun x v => Host.reduceAdd x v reducesTo_S50000x256_S256_d0 h_S_)) x cst
  let v1 : (⟨S1x256, .f32⟩ : BufTy).Contents (Elt F) := ((broadcastInDim S1x256 ![1] bcast_S256_S1x256_1)) v0
  let cst_0 : (⟨S_, .f32⟩ : BufTy).Contents (Elt F) := (constant S_ .f32 0x47435000#32)
  let v2 : (⟨S1x256, .f32⟩ : BufTy).Contents (Elt F) := ((broadcastInDim S1x256 ![] bcast_S_S1x256)) cst_0
  let v3 : (⟨S1x256, .f32⟩ : BufTy).Contents (Elt F) := (Host.divf) v1 v2
  let v4 : (⟨S50000x256, .f32⟩ : BufTy).Contents (Elt F) := ((broadcastInDim S50000x256 ![0, 1] bcast_S1x256_S50000x256_0_1)) v3
  let v5 : (⟨S50000x256, .f32⟩ : BufTy).Contents (Elt F) := (subf) x v4
  let v6 : (⟨S50000x256, .f32⟩ : BufTy).Contents (Elt F) := (mulf) v5 v5
  let v7 : (⟨S_, .f32⟩ : BufTy).Contents (Elt F) := ((sitofp .f32)) ddof
  let cst_1 : (⟨S_, .f32⟩ : BufTy).Contents (Elt F) := (constant S_ .f32 0x47435000#32)
  let v8 : (⟨S_, .f32⟩ : BufTy).Contents (Elt F) := (subf) cst_1 v7
  let cst_2 : (⟨S_, .f32⟩ : BufTy).Contents (Elt F) := (constant S_ .f32 0x00000000#32)
  let v9 : (⟨S256, .f32⟩ : BufTy).Contents (Elt F) := ((fun x v => Host.reduceAdd x v reducesTo_S50000x256_S256_d0 h_S_)) v6 cst_2
  let v10 : (⟨S256, .f32⟩ : BufTy).Contents (Elt F) := ((broadcastInDim S256 ![] bcast_S_S256)) v8
  let v11 : (⟨S256, .f32⟩ : BufTy).Contents (Elt F) := (Host.divf) v9 v10
  let cst_3 : (⟨S_, .f32⟩ : BufTy).Contents (Elt F) := (constant S_ .f32 0x00000000#32)
  let v12 : (⟨S_, .i1⟩ : BufTy).Contents (Elt F) := ((cmpf .ogt)) v8 cst_3
  let cst_4 : (⟨S_, .f32⟩ : BufTy).Contents (Elt F) := (constant S_ .f32 0x7FC00000#32)
  let w_v0 : (⟨S_, .f32⟩ : BufTy).Contents (Elt F) := (id) cst_4
  let w_v1 : (⟨S256, .f32⟩ : BufTy).Contents (Elt F) := ((broadcastInDim S256 ![] bcast_S_S256)) w_v0
  let w_v2 : (⟨S256, .f32⟩ : BufTy).Contents (Elt F) := ((fun p a b => select (broadcastInDim S256 ![] bcast_S_S256 p) a b)) v12 v11 w_v1
  w_v2

end Cert.Bridge.VarFn

end
-- ==== Proof.VarK.lean ====
/-
  The outlined variance function in the kernel program: each of its two calls is the plain function of the array and the integer it is
  called on.

  A call's operations are stated over references that carry their value's type; read back, the moves between a buffer's
  own type and the value's type are identities, and what is left is the function operation by operation.
-/
import proofs.«182173_j27023934226530_1_alg».proof.Proof.Gen.KernelIdeal.Launch
import proofs.«182173_j27023934226530_1_alg».proof.Proof.VarFn
import Idealize.ShloMosaic.Lib.StableHlo.Run
import Idealize.ShloMosaic.PureOps.Ideal

set_option maxRecDepth 16384

noncomputable section

namespace Cert.Bridge.VarK

open Idealize.ShloMosaic Idealize.ShloMosaic.TcCoe Idealize.ShloMosaic.StableHlo

variable (WK : Valuation Cert.KernelIdeal.τ Cert.KernelIdeal.sig (Elt Ideal))

set_option maxHeartbeats 2000000 in
/-- The first call: the variance of the 512 feature columns. -/
theorem v30_eq : after (Cert.KernelIdeal.Gen.hostOps0_1 (F := Ideal)) WK (Proc.devRef .tc Cert.KernelIdeal.main_v30)
    = Cert.Bridge.VarFn.var512 (F := Ideal) (WK (Proc.devRef .tc Cert.KernelIdeal.main_arg0)) (WK (Proc.devRef .tc Cert.KernelIdeal.main_c_6)) := by
  dsimp only [Cert.KernelIdeal.Gen.hostOps0_1]
  after_results
  rfl

set_option maxHeartbeats 2000000 in
/-- The second call: the variance of the 256 hidden columns. -/
theorem v117_eq : after (Cert.KernelIdeal.Gen.hostOps4_1 (F := Ideal)) WK (Proc.devRef .tc Cert.KernelIdeal.main_v117)
    = Cert.Bridge.VarFn.var256 (F := Ideal) (WK (Proc.devRef .tc Cert.KernelIdeal.main_v113)) (WK (Proc.devRef .tc Cert.KernelIdeal.main_c_22)) := by
  dsimp only [Cert.KernelIdeal.Gen.hostOps4_1]
  after_results
  rfl

end Cert.Bridge.VarK

end
-- ==== Proof.VarR.lean ====
/-
  The outlined variance function in the reference: each of its two calls is the plain function of the array and the integer it is
  called on.

  A call's operations are stated over references that carry their value's type; read back, the moves between a buffer's
  own type and the value's type are identities, and what is left is the function operation by operation.
-/
import proofs.«182173_j27023934226530_1_alg».proof.Proof.RefOps
import proofs.«182173_j27023934226530_1_alg».proof.Proof.VarFn
import Idealize.ShloMosaic.Lib.StableHlo.Run
import Idealize.ShloMosaic.PureOps.Ideal

set_option maxRecDepth 16384

noncomputable section

namespace Cert.Bridge.VarR

open Idealize.ShloMosaic Idealize.ShloMosaic.TcCoe Idealize.ShloMosaic.StableHlo

variable (WR : Valuation Cert.ReferenceIdeal.τ Cert.ReferenceIdeal.sig (Elt Ideal))

set_option maxHeartbeats 2000000 in
/-- The first call: the variance of the 512 feature columns. -/
theorem v30_eq : after (Cert.ReferenceIdeal.Ops.refA1 (F := Ideal)) WR (Proc.devRef .tc Cert.ReferenceIdeal.main_v30)
    = Cert.Bridge.VarFn.var512 (F := Ideal) (WR (Proc.devRef .tc Cert.ReferenceIdeal.main_arg0)) (WR (Proc.devRef .tc Cert.ReferenceIdeal.main_c_6)) := by
  dsimp only [Cert.ReferenceIdeal.Ops.refA1]
  after_results
  rfl

set_option maxHeartbeats 2000000 in
/-- The second call: the variance of the 256 hidden columns. -/
theorem v117_eq : after (Cert.ReferenceIdeal.Ops.refG2 (F := Ideal)) WR (Proc.devRef .tc Cert.ReferenceIdeal.main_v117)
    = Cert.Bridge.VarFn.var256 (F := Ideal) (WR (Proc.devRef .tc Cert.ReferenceIdeal.main_v113)) (WR (Proc.devRef .tc Cert.ReferenceIdeal.main_c_22)) := by
  dsimp only [Cert.ReferenceIdeal.Ops.refG2]
  after_results
  rfl

end Cert.Bridge.VarR

end
-- ==== Proof.Bridge0.lean ====
/-
  The two programs' buffers agree, boundary by boundary.

  The kernel program is the reference with each of its five matrix products handed to the matrix unit (the last one
  together with the decoder's bias and logistic function); every other line of the two programs is the same host
  operation on buffers of the same names.  Cut both programs at the products (and around the two calls of the outlined
  variance).  At the launch the argument buffers agree.  A stretch of host operations keeps every buffer it does not write,
  and writes the same array in both programs when the buffers it reads agree; a kernel region keeps every buffer but its
  result, and its result is the plain product of the arrays it found — what the reference's one operation writes.  So the
  buffers that are read later agree at every boundary.

  This module: the reference's boundaries, the launch, and the boundaries up to the first product.
-/
import proofs.«182173_j27023934226530_1_alg».proof.Proof.KRun
import proofs.«182173_j27023934226530_1_alg».proof.Proof.RefRun
import proofs.«182173_j27023934226530_1_alg».proof.Proof.KOps
import proofs.«182173_j27023934226530_1_alg».proof.Proof.S0v3
import proofs.«182173_j27023934226530_1_alg».proof.Proof.S0v6
import proofs.«182173_j27023934226530_1_alg».proof.Proof.S0v26
import proofs.«182173_j27023934226530_1_alg».proof.Proof.P0v29
import proofs.«182173_j27023934226530_1_alg».proof.Proof.P0c6
import proofs.«182173_j27023934226530_1_alg».proof.Proof.P0v45
import proofs.«182173_j27023934226530_1_alg».proof.Proof.VarK
import proofs.«182173_j27023934226530_1_alg».proof.Proof.VarR

set_option maxRecDepth 16384

noncomputable section

namespace Cert.Bridge.Final

open Idealize.ShloMosaic Idealize.ShloMosaic.TcCoe Idealize.ShloMosaic.StableHlo Idealize.SL.Sem
open Cert.KernelIdeal.Gen (W0 W1 W2 W3 W4 W5 W6 W7 W8 W9 W10 W11 W12 W13 W14 V3 V5 V7 V9 V13)
open Cert.ReferenceIdeal.Ops

abbrev VR := Valuation Cert.ReferenceIdeal.τ Cert.ReferenceIdeal.sig (Elt Ideal)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-! ## The reference's buffer contents at its boundaries -/

abbrev U0 : VR := launchContents m' c
abbrev U0a : VR := after refA0 (U0 m' c)
abbrev U0b : VR := after refA1 (U0a m' c)
abbrev U1 : VR := after refA2 (U0b m' c)
abbrev U2 : VR := after refD0 (U1 m' c)
abbrev U3 : VR := after refB1 (after refB0 (U2 m' c))
abbrev U4 : VR := after refD1 (U3 m' c)
abbrev U5 : VR := after refC (U4 m' c)
abbrev U6 : VR := after refD2 (U5 m' c)
abbrev U7 : VR := after refE (U6 m' c)
abbrev U8 : VR := after refD3 (U7 m' c)
abbrev U8a : VR := after refG1 (after refG0 (U8 m' c))
abbrev U8b : VR := after refG2 (U8a m' c)
abbrev U9 : VR := after refG3 (U8b m' c)
abbrev U10 : VR := after refT (after refD4 (U9 m' c))

/-- The hypothesis of the claim: the two launch memories agree on the sixteen arguments. -/
def ArgsAgree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

variable (hargs : ArgsAgree m m' c)

include hargs in
/-- At the launch the argument buffers agree. -/
theorem b0 :
    (W0 m ρ c (Idealize.ShloMosaic.Proc.devRef .tc Cert.KernelIdeal.main_arg0) = U0 m' c (Idealize.ShloMosaic.Proc.devRef .tc Cert.ReferenceIdeal.main_arg0))
    ∧ (W0 m ρ c (Idealize.ShloMosaic.Proc.devRef .tc Cert.KernelIdeal.main_arg1) = U0 m' c (Idealize.ShloMosaic.Proc.devRef .tc Cert.ReferenceIdeal.main_arg1))
    ∧ (W0 m ρ c (Idealize.ShloMosaic.Proc.devRef .tc Cert.KernelIdeal.main_arg2) = U0 m' c (Idealize.ShloMosaic.Proc.devRef .tc Cert.ReferenceIdeal.main_arg2))
    ∧ (W0 m ρ c (Idealize.ShloMosaic.Proc.devRef .tc Cert.KernelIdeal.main_arg3) = U0 m' c (Idealize.ShloMosaic.Proc.devRef .tc Cert.ReferenceIdeal.main_arg3))
    ∧ (W0 m ρ c (Idealize.ShloMosaic.Proc.devRef .tc Cert.KernelIdeal.main_arg4) = U0 m' c (Idealize.ShloMosaic.Proc.devRef .tc Cert.ReferenceIdeal.main_arg4))
    ∧ (W0 m ρ c (Idealize.ShloMosaic.Proc.devRef .tc Cert.KernelIdeal.main_arg5) = U0 m' c (Idealize.ShloMosaic.Proc.devRef .tc Cert.ReferenceIdeal.main_arg5))
    ∧ (W0 m ρ c (Idealize.ShloMosaic.Proc.devRef .tc Cert.KernelIdeal.main_arg6) = U0 m' c (Idealize.ShloMosaic.Proc.devRef .tc Cert.ReferenceIdeal.main_arg6))
    ∧ (W0 m ρ c (Idealize.ShloMosaic.Proc.devRef .tc Cert.KernelIdeal.main_arg7) = U0 m' c (Idealize.ShloMosaic.Proc.devRef .tc Cert.ReferenceIdeal.main_arg7))
    ∧ (W0 m ρ c (Idealize.ShloMosaic.Proc.devRef .tc Cert.KernelIdeal.main_arg8) = U0 m' c (Idealize.ShloMosaic.Proc.devRef .tc Cert.ReferenceIdeal.main_arg8))
    ∧ (W0 m ρ c (Idealize.ShloMosaic.Proc.devRef .tc Cert.KernelIdeal.main_arg9) = U0 m' c (Idealize.ShloMosaic.Proc.devRef .tc Cert.ReferenceIdeal.main_arg9))
    ∧ (W0 m ρ c (Idealize.ShloMosaic.Proc.devRef .tc Cert.KernelIdeal.main_arg10) = U0 m' c (Idealize.ShloMosaic.Proc.devRef .tc Cert.ReferenceIdeal.main_arg10))
    ∧ (W0 m ρ c (Idealize.ShloMosaic.Proc.devRef .tc Cert.KernelIdeal.main_arg11) = U0 m' c (Idealize.ShloMosaic.Proc.devRef .tc Cert.ReferenceIdeal.main_arg11))
    ∧ (W0 m ρ c (Idealize.ShloMosaic.Proc.devRef .tc Cert.KernelIdeal.main_arg12) = U0 m' c (Idealize.ShloMosaic.Proc.devRef .tc Cert.ReferenceIdeal.main_arg12))
    ∧ (W0 m ρ c (Idealize.ShloMosaic.Proc.devRef .tc Cert.KernelIdeal.main_arg13) = U0 m' c (Idealize.ShloMosaic.Proc.devRef .tc Cert.ReferenceIdeal.main_arg13))
    ∧ (W0 m ρ c (Idealize.ShloMosaic.Proc.devRef .tc Cert.KernelIdeal.main_arg14) = U0 m' c (Idealize.ShloMosaic.Proc.devRef .tc Cert.ReferenceIdeal.main_arg14))
    ∧ (W0 m ρ c (Idealize.ShloMosaic.Proc.devRef .tc Cert.KernelIdeal.main_arg15) = U0 m' c (Idealize.ShloMosaic.Proc.devRef .tc Cert.ReferenceIdeal.main_arg15)) := by
  obtain ⟨e0, e1, e2, e3, e4, e5, e6, e7, e8, e9, e10, e11, e12, e13, e14, e15⟩ := hargs
  exact ⟨e0.symm, e1.symm, e2.symm, e3.symm, e4.symm, e5.symm, e6.symm, e7.symm, e8.symm, e9.symm, e10.symm, e11.symm, e12.symm, e13.symm, e14.symm, e15.symm⟩

include hargs in
/-- The buffers read later agree at boundary 1. -/
theorem b1 :
    (W1 m ρ c (Idealize.ShloMosaic.Proc.devRef .tc Cert.KernelIdeal.main_c_6) = U0a m' c (Idealize.ShloMosaic.Proc.devRef .tc Cert.ReferenceIdeal.main_c_6))
    ∧ (W1 m ρ c (Idealize.ShloMosaic.Proc.devRef .tc Cert.KernelIdeal.main_v29) = U0a m' c (Idealize.ShloMosaic.Proc.devRef .tc Cert.ReferenceIdeal.main_v29))
    ∧ (W1 m ρ c (Idealize.ShloMosaic.Proc.devRef .tc Cert.KernelIdeal.main_arg0) = U0a m' c (Idealize.ShloMosaic.Proc.devRef .tc Cert.ReferenceIdeal.main_arg0))
    ∧ (W1 m ρ c (Idealize.ShloMosaic.Proc.devRef .tc Cert.KernelIdeal.main_arg2) = U0a m' c (Idealize.ShloMosaic.Proc.devRef .tc Cert.ReferenceIdeal.main_arg2))
    ∧ (W1 m ρ c (Idealize.ShloMosaic.Proc.devRef .tc Cert.KernelIdeal.main_arg3) = U0a m' c (Idealize.ShloMosaic.Proc.devRef .tc Cert.ReferenceIdeal.main_arg3))
    ∧ (W1 m ρ c (Idealize.ShloMosaic.Proc.devRef .tc Cert.KernelIdeal.main_arg4) = U0a m' c (Idealize.ShloMosaic.Proc.devRef .tc Cert.ReferenceIdeal.main_arg4))
    ∧ (W1 m ρ c (Idealize.ShloMosaic.Proc.devRef .tc Cert.KernelIdeal.main_arg5) = U0a m' c (Idealize.ShloMosaic.Proc.devRef .tc Cert.ReferenceIdeal.main_arg5))
    ∧ (W1 m ρ c (Idealize.ShloMosaic.Proc.devRef .tc Cert.KernelIdeal.main_arg6) = U0a m' c (Idealize.ShloMosaic.Proc.devRef .tc Cert.ReferenceIdeal.main_arg6))
    ∧ (W1 m ρ c (Idealize.ShloMosaic.Proc.devRef .tc Cert.KernelIdeal.main_arg7) = U0a m' c (Idealize.ShloMosaic.Proc.devRef .tc Cert.ReferenceIdeal.main_arg7))
    ∧ (W1 m ρ c (Idealize.ShloMosaic.Proc.devRef .tc Cert.KernelIdeal.main_arg8) = U0a m' c (Idealize.ShloMosaic.Proc.devRef .tc Cert.ReferenceIdeal.main_arg8))
    ∧ (W1 m ρ c (Idealize.ShloMosaic.Proc.devRef .tc Cert.KernelIdeal.main_arg9) = U0a m' c (Idealize.ShloMosaic.Proc.devRef .tc Cert.ReferenceIdeal.main_arg9))
    ∧ (W1 m ρ c (Idealize.ShloMosaic.Proc.devRef .tc Cert.KernelIdeal.main_arg10) = U0a m' c (Idealize.ShloMosaic.Proc.devRef .tc Cert.ReferenceIdeal.main_arg10))
    ∧ (W1 m ρ c (Idealize.ShloMosaic.Proc.devRef .tc Cert.KernelIdeal.main_arg11) = U0a m' c (Idealize.ShloMosaic.Proc.devRef .tc Cert.ReferenceIdeal.main_arg11))
    ∧ (W1 m ρ c (Idealize.ShloMosaic.Proc.devRef .tc Cert.KernelIdeal.main_arg12) = U0a m' c (Idealize.ShloMosaic.Proc.devRef .tc Cert.ReferenceIdeal.main_arg12))
    ∧ (W1 m ρ c (Idealize.ShloMosaic.Proc.devRef .tc Cert.KernelIdeal.main_arg13) = U0a m' c (Idealize.ShloMosaic.Proc.devRef .tc Cert.ReferenceIdeal.main_arg13))
    ∧ (W1 m ρ c (Idealize.ShloMosaic.Proc.devRef .tc Cert.KernelIdeal.main_arg14) = U0a m' c (Idealize.ShloMosaic.Proc.devRef .tc Cert.ReferenceIdeal.main_arg14))
    ∧ (W1 m ρ c (Idealize.ShloMosaic.Proc.devRef .tc Cert.KernelIdeal.main_arg15) = U0a m' c (Idealize.ShloMosaic.Proc.devRef .tc Cert.ReferenceIdeal.main_arg15)) := by
  obtain ⟨e_arg0, e_arg1, e_arg2, e_arg3, e_arg4, e_arg5, e_arg6, e_arg7, e_arg8, e_arg9, e_arg10, e_arg11, e_arg12, e_arg13, e_arg14, e_arg15⟩ := b0 m ρ m' c hargs
  exact ⟨Cert.Bridge.P0c6.out_eq (W0 m ρ c) (U0 m' c),
    Cert.Bridge.P0v29.out_eq (W0 m ρ c) (U0 m' c) e_arg0,
    (Cert.KernelIdeal.Keep.hostOps0_keep (W0 m ρ c) Cert.KernelIdeal.main_arg0 (by decide)).trans ((e_arg0).trans (refA0_keep (U0 m' c) Cert.ReferenceIdeal.main_arg0 (by decide)).symm),
    (Cert.KernelIdeal.Keep.hostOps0_keep (W0 m ρ c) Cert.KernelIdeal.main_arg2 (by decide)).trans ((e_arg2).trans (refA0_keep (U0 m' c) Cert.ReferenceIdeal.main_arg2 (by decide)).symm),
    (Cert.KernelIdeal.Keep.hostOps0_keep (W0 m ρ c) Cert.KernelIdeal.main_arg3 (by decide)).trans ((e_arg3).trans (refA0_keep (U0 m' c) Cert.ReferenceIdeal.main_arg3 (by decide)).symm),
    (Cert.KernelIdeal.Keep.hostOps0_keep (W0 m ρ c) Cert.KernelIdeal.main_arg4 (by decide)).trans ((e_arg4).trans (refA0_keep (U0 m' c) Cert.ReferenceIdeal.main_arg4 (by decide)).symm),
    (Cert.KernelIdeal.Keep.hostOps0_keep (W0 m ρ c) Cert.KernelIdeal.main_arg5 (by decide)).trans ((e_arg5).trans (refA0_keep (U0 m' c) Cert.ReferenceIdeal.main_arg5 (by decide)).symm),
    (Cert.KernelIdeal.Keep.hostOps0_keep (W0 m ρ c) Cert.KernelIdeal.main_arg6 (by decide)).trans ((e_arg6).trans (refA0_keep (U0 m' c) Cert.ReferenceIdeal.main_arg6 (by decide)).symm),
    (Cert.KernelIdeal.Keep.hostOps0_keep (W0 m ρ c) Cert.KernelIdeal.main_arg7 (by decide)).trans ((e_arg7).trans (refA0_keep (U0 m' c) Cert.ReferenceIdeal.main_arg7 (by decide)).symm),
    (Cert.KernelIdeal.Keep.hostOps0_keep (W0 m ρ c) Cert.KernelIdeal.main_arg8 (by decide)).trans ((e_arg8).trans (refA0_keep (U0 m' c) Cert.ReferenceIdeal.main_arg8 (by decide)).symm),
    (Cert.KernelIdeal.Keep.hostOps0_keep (W0 m ρ c) Cert.KernelIdeal.main_arg9 (by decide)).trans ((e_arg9).trans (refA0_keep (U0 m' c) Cert.ReferenceIdeal.main_arg9 (by decide)).symm),
    (Cert.KernelIdeal.Keep.hostOps0_keep (W0 m ρ c) Cert.KernelIdeal.main_arg10 (by decide)).trans ((e_arg10).trans (refA0_keep (U0 m' c) Cert.ReferenceIdeal.main_arg10 (by decide)).symm),
    (Cert.KernelIdeal.Keep.hostOps0_keep (W0 m ρ c) Cert.KernelIdeal.main_arg11 (by decide)).trans ((e_arg11).trans (refA0_keep (U0 m' c) Cert.ReferenceIdeal.main_arg11 (by decide)).symm),
    (Cert.KernelIdeal.Keep.hostOps0_keep (W0 m ρ c) Cert.KernelIdeal.main_arg12 (by decide)).trans ((e_arg12).trans (refA0_keep (U0 m' c) Cert.ReferenceIdeal.main_arg12 (by decide)).symm),
    (Cert.KernelIdeal.Keep.hostOps0_keep (W0 m ρ c) Cert.KernelIdeal.main_arg13 (by decide)).trans ((e_arg13).trans (refA0_keep (U0 m' c) Cert.ReferenceIdeal.main_arg13 (by decide)).symm),
    (Cert.KernelIdeal.Keep.hostOps0_keep (W0 m ρ c) Cert.KernelIdeal.main_arg14 (by decide)).trans ((e_arg14).trans (refA0_keep (U0 m' c) Cert.ReferenceIdeal.main_arg14 (by decide)).symm),
    (Cert.KernelIdeal.Keep.hostOps0_keep (W0 m ρ c) Cert.KernelIdeal.main_arg15 (by decide)).trans ((e_arg15).trans (refA0_keep (U0 m' c) Cert.ReferenceIdeal.main_arg15 (by decide)).symm)⟩

include hargs in
/-- The buffers read later agree at boundary 2. -/
theorem b2 :
    (W2 m ρ c (Idealize.ShloMosaic.Proc.devRef .tc Cert.KernelIdeal.main_v30) = U0b m' c (Idealize.ShloMosaic.Proc.devRef .tc Cert.ReferenceIdeal.main_v30))
    ∧ (W2 m ρ c (Idealize.ShloMosaic.Proc.devRef .tc Cert.KernelIdeal.main_v29) = U0b m' c (Idealize.ShloMosaic.Proc.devRef .tc Cert.ReferenceIdeal.main_v29))
    ∧ (W2 m ρ c (Idealize.ShloMosaic.Proc.devRef .tc Cert.KernelIdeal.main_arg0) = U0b m' c (Idealize.ShloMosaic.Proc.devRef .tc Cert.ReferenceIdeal.main_arg0))
    ∧ (W2 m ρ c (Idealize.ShloMosaic.Proc.devRef .tc Cert.KernelIdeal.main_arg2) = U0b m' c (Idealize.ShloMosaic.Proc.devRef .tc Cert.ReferenceIdeal.main_arg2))
    ∧ (W2 m ρ c (Idealize.ShloMosaic.Proc.devRef .tc Cert.KernelIdeal.main_arg3) = U0b m' c (Idealize.ShloMosaic.Proc.devRef .tc Cert.ReferenceIdeal.main_arg3))
    ∧ (W2 m ρ c (Idealize.ShloMosaic.Proc.devRef .tc Cert.KernelIdeal.main_arg4) = U0b m' c (Idealize.ShloMosaic.Proc.devRef .tc Cert.ReferenceIdeal.main_arg4))
    ∧ (W2 m ρ c (Idealize.ShloMosaic.Proc.devRef .tc Cert.KernelIdeal.main_arg5) = U0b m' c (Idealize.ShloMosaic.Proc.devRef .tc Cert.ReferenceIdeal.main_arg5))
    ∧ (W2 m ρ c (Idealize.ShloMosaic.Proc.devRef .tc Cert.KernelIdeal.main_arg6) = U0b m' c (Idealize.ShloMosaic.Proc.devRef .tc Cert.ReferenceIdeal.main_arg6))
    ∧ (W2 m ρ c (Idealize.ShloMosaic.Proc.devRef .tc Cert.KernelIdeal.main_arg7) = U0b m' c (Idealize.ShloMosaic.Proc.devRef .tc Cert.ReferenceIdeal.main_arg7))
    ∧ (W2 m ρ c (Idealize.ShloMosaic.Proc.devRef .tc Cert.KernelIdeal.main_arg8) = U0b m' c (Idealize.ShloMosaic.Proc.devRef .tc Cert.ReferenceIdeal.main_arg8))
    ∧ (W2 m ρ c (Idealize.ShloMosaic.Proc.devRef .tc Cert.KernelIdeal.main_arg9) = U0b m' c (Idealize.ShloMosaic.Proc.devRef .tc Cert.ReferenceIdeal.main_arg9))
    ∧ (W2 m ρ c (Idealize.ShloMosaic.Proc.devRef .tc Cert.KernelIdeal.main_arg10) = U0b m' c (Idealize.ShloMosaic.Proc.devRef .tc Cert.ReferenceIdeal.main_arg10))
    ∧ (W2 m ρ c (Idealize.ShloMosaic.Proc.devRef .tc Cert.KernelIdeal.main_arg11) = U0b m' c (Idealize.ShloMosaic.Proc.devRef .tc Cert.ReferenceIdeal.main_arg11))
    ∧ (W2 m ρ c (Idealize.ShloMosaic.Proc.devRef .tc Cert.KernelIdeal.main_arg12) = U0b m' c (Idealize.ShloMosaic.Proc.devRef .tc Cert.ReferenceIdeal.main_arg12))
    ∧ (W2 m ρ c (Idealize.ShloMosaic.Proc.devRef .tc Cert.KernelIdeal.main_arg13) = U0b m' c (Idealize.ShloMosaic.Proc.devRef .tc Cert.ReferenceIdeal.main_arg13))
    ∧ (W2 m ρ c (Idealize.ShloMosaic.Proc.devRef .tc Cert.KernelIdeal.main_arg14) = U0b m' c (Idealize.ShloMosaic.Proc.devRef .tc Cert.ReferenceIdeal.main_arg14))
    ∧ (W2 m ρ c (Idealize.ShloMosaic.Proc.devRef .tc Cert.KernelIdeal.main_arg15) = U0b m' c (Idealize.ShloMosaic.Proc.devRef .tc Cert.ReferenceIdeal.main_arg15)) := by
  obtain ⟨e_c_6, e_v29, e_arg0, e_arg2, e_arg3, e_arg4, e_arg5, e_arg6, e_arg7, e_arg8, e_arg9, e_arg10, e_arg11, e_arg12, e_arg13, e_arg14, e_arg15⟩ := b1 m ρ m' c hargs
  exact ⟨by
      refine (Cert.Bridge.VarK.v30_eq (W1 m ρ c)).trans (Eq.trans ?_ (Cert.Bridge.VarR.v30_eq (U0a m' c)).symm)
      rw [e_arg0, e_c_6],
    (Cert.KernelIdeal.Keep.hostOps0_1_keep (W1 m ρ c) Cert.KernelIdeal.main_v29 (by decide)).trans ((e_v29).trans (refA1_keep (U0a m' c) Cert.ReferenceIdeal.main_v29 (by decide)).symm),
    (Cert.KernelIdeal.Keep.hostOps0_1_keep (W1 m ρ c) Cert.KernelIdeal.main_arg0 (by decide)).trans ((e_arg0).trans (refA1_keep (U0a m' c) Cert.ReferenceIdeal.main_arg0 (by decide)).symm),
    (Cert.KernelIdeal.Keep.hostOps0_1_keep (W1 m ρ c) Cert.KernelIdeal.main_arg2 (by decide)).trans ((e_arg2).trans (refA1_keep (U0a m' c) Cert.ReferenceIdeal.main_arg2 (by decide)).symm),
    (Cert.KernelIdeal.Keep.hostOps0_1_keep (W1 m ρ c) Cert.KernelIdeal.main_arg3 (by decide)).trans ((e_arg3).trans (refA1_keep (U0a m' c) Cert.ReferenceIdeal.main_arg3 (by decide)).symm),
    (Cert.KernelIdeal.Keep.hostOps0_1_keep (W1 m ρ c) Cert.KernelIdeal.main_arg4 (by decide)).trans ((e_arg4).trans (refA1_keep (U0a m' c) Cert.ReferenceIdeal.main_arg4 (by decide)).symm),
    (Cert.KernelIdeal.Keep.hostOps0_1_keep (W1 m ρ c) Cert.KernelIdeal.main_arg5 (by decide)).trans ((e_arg5).trans (refA1_keep (U0a m' c) Cert.ReferenceIdeal.main_arg5 (by decide)).symm),
    (Cert.KernelIdeal.Keep.hostOps0_1_keep (W1 m ρ c) Cert.KernelIdeal.main_arg6 (by decide)).trans ((e_arg6).trans (refA1_keep (U0a m' c) Cert.ReferenceIdeal.main_arg6 (by decide)).symm),
    (Cert.KernelIdeal.Keep.hostOps0_1_keep (W1 m ρ c) Cert.KernelIdeal.main_arg7 (by decide)).trans ((e_arg7).trans (refA1_keep (U0a m' c) Cert.ReferenceIdeal.main_arg7 (by decide)).symm),
    (Cert.KernelIdeal.Keep.hostOps0_1_keep (W1 m ρ c) Cert.KernelIdeal.main_arg8 (by decide)).trans ((e_arg8).trans (refA1_keep (U0a m' c) Cert.ReferenceIdeal.main_arg8 (by decide)).symm),
    (Cert.KernelIdeal.Keep.hostOps0_1_keep (W1 m ρ c) Cert.KernelIdeal.main_arg9 (by decide)).trans ((e_arg9).trans (refA1_keep (U0a m' c) Cert.ReferenceIdeal.main_arg9 (by decide)).symm),
    (Cert.KernelIdeal.Keep.hostOps0_1_keep (W1 m ρ c) Cert.KernelIdeal.main_arg10 (by decide)).trans ((e_arg10).trans (refA1_keep (U0a m' c) Cert.ReferenceIdeal.main_arg10 (by decide)).symm),
    (Cert.KernelIdeal.Keep.hostOps0_1_keep (W1 m ρ c) Cert.KernelIdeal.main_arg11 (by decide)).trans ((e_arg11).trans (refA1_keep (U0a m' c) Cert.ReferenceIdeal.main_arg11 (by decide)).symm),
    (Cert.KernelIdeal.Keep.hostOps0_1_keep (W1 m ρ c) Cert.KernelIdeal.main_arg12 (by decide)).trans ((e_arg12).trans (refA1_keep (U0a m' c) Cert.ReferenceIdeal.main_arg12 (by decide)).symm),
    (Cert.KernelIdeal.Keep.hostOps0_1_keep (W1 m ρ c) Cert.KernelIdeal.main_arg13 (by decide)).trans ((e_arg13).trans (refA1_keep (U0a m' c) Cert.ReferenceIdeal.main_arg13 (by decide)).symm),
    (Cert.KernelIdeal.Keep.hostOps0_1_keep (W1 m ρ c) Cert.KernelIdeal.main_arg14 (by decide)).trans ((e_arg14).trans (refA1_keep (U0a m' c) Cert.ReferenceIdeal.main_arg14 (by decide)).symm),
    (Cert.KernelIdeal.Keep.hostOps0_1_keep (W1 m ρ c) Cert.KernelIdeal.main_arg15 (by decide)).trans ((e_arg15).trans (refA1_keep (U0a m' c) Cert.ReferenceIdeal.main_arg15 (by decide)).symm)⟩

include hargs in
/-- The buffers read later agree at boundary 3. -/
theorem b3 :
    (W3 m ρ c (Idealize.ShloMosaic.Proc.devRef .tc Cert.KernelIdeal.main_v45) = U1 m' c (Idealize.ShloMosaic.Proc.devRef .tc Cert.ReferenceIdeal.main_v45))
    ∧ (W3 m ρ c (Idealize.ShloMosaic.Proc.devRef .tc Cert.KernelIdeal.main_v26) = U1 m' c (Idealize.ShloMosaic.Proc.devRef .tc Cert.ReferenceIdeal.main_v26))
    ∧ (W3 m ρ c (Idealize.ShloMosaic.Proc.devRef .tc Cert.KernelIdeal.main_v6) = U1 m' c (Idealize.ShloMosaic.Proc.devRef .tc Cert.ReferenceIdeal.main_v6))
    ∧ (W3 m ρ c (Idealize.ShloMosaic.Proc.devRef .tc Cert.KernelIdeal.main_v3) = U1 m' c (Idealize.ShloMosaic.Proc.devRef .tc Cert.ReferenceIdeal.main_v3))
    ∧ (W3 m ρ c (Idealize.ShloMosaic.Proc.devRef .tc Cert.KernelIdeal.main_arg4) = U1 m' c (Idealize.ShloMosaic.Proc.devRef .tc Cert.ReferenceIdeal.main_arg4))
    ∧ (W3 m ρ c (Idealize.ShloMosaic.Proc.devRef .tc Cert.KernelIdeal.main_arg5) = U1 m' c (Idealize.ShloMosaic.Proc.devRef .tc Cert.ReferenceIdeal.main_arg5))
    ∧ (W3 m ρ c (Idealize.ShloMosaic.Proc.devRef .tc Cert.KernelIdeal.main_arg6) = U1 m' c (Idealize.ShloMosaic.Proc.devRef .tc Cert.ReferenceIdeal.main_arg6))
    ∧ (W3 m ρ c (Idealize.ShloMosaic.Proc.devRef .tc Cert.KernelIdeal.main_arg7) = U1 m' c (Idealize.ShloMosaic.Proc.devRef .tc Cert.ReferenceIdeal.main_arg7))
    ∧ (W3 m ρ c (Idealize.ShloMosaic.Proc.devRef .tc Cert.KernelIdeal.main_arg8) = U1 m' c (Idealize.ShloMosaic.Proc.devRef .tc Cert.ReferenceIdeal.main_arg8))
    ∧ (W3 m ρ c (Idealize.ShloMosaic.Proc.devRef .tc Cert.KernelIdeal.main_arg9) = U1 m' c (Idealize.ShloMosaic.Proc.devRef .tc Cert.ReferenceIdeal.main_arg9))
    ∧ (W3 m ρ c (Idealize.ShloMosaic.Proc.devRef .tc Cert.KernelIdeal.main_arg10) = U1 m' c (Idealize.ShloMosaic.Proc.devRef .tc Cert.ReferenceIdeal.main_arg10))
    ∧ (W3 m ρ c (Idealize.ShloMosaic.Proc.devRef .tc Cert.KernelIdeal.main_arg11) = U1 m' c (Idealize.ShloMosaic.Proc.devRef .tc Cert.ReferenceIdeal.main_arg11))
    ∧ (W3 m ρ c (Idealize.ShloMosaic.Proc.devRef .tc Cert.KernelIdeal.main_arg12) = U1 m' c (Idealize.ShloMosaic.Proc.devRef .tc Cert.ReferenceIdeal.main_arg12))
    ∧ (W3 m ρ c (Idealize.ShloMosaic.Proc.devRef .tc Cert.KernelIdeal.main_arg13) = U1 m' c (Idealize.ShloMosaic.Proc.devRef .tc Cert.ReferenceIdeal.main_arg13))
    ∧ (W3 m ρ c (Idealize.ShloMosaic.Proc.devRef .tc Cert.KernelIdeal.main_arg14) = U1 m' c (Idealize.ShloMosaic.Proc.devRef .tc Cert.ReferenceIdeal.main_arg14))
    ∧ (W3 m ρ c (Idealize.ShloMosaic.Proc.devRef .tc Cert.KernelIdeal.main_arg15) = U1 m' c (Idealize.ShloMosaic.Proc.devRef .tc Cert.ReferenceIdeal.main_arg15)) := by
  obtain ⟨e_v30, e_v29, e_arg0, e_arg2, e_arg3, e_arg4, e_arg5, e_arg6, e_arg7, e_arg8, e_arg9, e_arg10, e_arg11, e_arg12, e_arg13, e_arg14, e_arg15⟩ := b2 m ρ m' c hargs
  obtain ⟨z_arg0, z_arg1, z_arg2, z_arg3, z_arg4, z_arg5, z_arg6, z_arg7, z_arg8, z_arg9, z_arg10, z_arg11, z_arg12, z_arg13, z_arg14, z_arg15⟩ := b0 m ρ m' c hargs
  exact ⟨Cert.Bridge.P0v45.out_eq (W2 m ρ c) (U0b m' c) e_arg0 e_v29 e_v30 e_arg2 e_arg3,
    Cert.Bridge.S0v26.out_eq (W0 m ρ c) (U0 m' c) z_arg1,
    Cert.Bridge.S0v6.out_eq (W0 m ρ c) (U0 m' c) z_arg1,
    Cert.Bridge.S0v3.out_eq (W0 m ρ c) (U0 m' c) z_arg1,
    (Cert.KernelIdeal.Keep.hostOps0_2_keep (W2 m ρ c) Cert.KernelIdeal.main_arg4 (by decide)).trans ((e_arg4).trans (refA2_keep (U0b m' c) Cert.ReferenceIdeal.main_arg4 (by decide)).symm),
    (Cert.KernelIdeal.Keep.hostOps0_2_keep (W2 m ρ c) Cert.KernelIdeal.main_arg5 (by decide)).trans ((e_arg5).trans (refA2_keep (U0b m' c) Cert.ReferenceIdeal.main_arg5 (by decide)).symm),
    (Cert.KernelIdeal.Keep.hostOps0_2_keep (W2 m ρ c) Cert.KernelIdeal.main_arg6 (by decide)).trans ((e_arg6).trans (refA2_keep (U0b m' c) Cert.ReferenceIdeal.main_arg6 (by decide)).symm),
    (Cert.KernelIdeal.Keep.hostOps0_2_keep (W2 m ρ c) Cert.KernelIdeal.main_arg7 (by decide)).trans ((e_arg7).trans (refA2_keep (U0b m' c) Cert.ReferenceIdeal.main_arg7 (by decide)).symm),
    (Cert.KernelIdeal.Keep.hostOps0_2_keep (W2 m ρ c) Cert.KernelIdeal.main_arg8 (by decide)).trans ((e_arg8).trans (refA2_keep (U0b m' c) Cert.ReferenceIdeal.main_arg8 (by decide)).symm),
    (Cert.KernelIdeal.Keep.hostOps0_2_keep (W2 m ρ c) Cert.KernelIdeal.main_arg9 (by decide)).trans ((e_arg9).trans (refA2_keep (U0b m' c) Cert.ReferenceIdeal.main_arg9 (by decide)).symm),
    (Cert.KernelIdeal.Keep.hostOps0_2_keep (W2 m ρ c) Cert.KernelIdeal.main_arg10 (by decide)).trans ((e_arg10).trans (refA2_keep (U0b m' c) Cert.ReferenceIdeal.main_arg10 (by decide)).symm),
    (Cert.KernelIdeal.Keep.hostOps0_2_keep (W2 m ρ c) Cert.KernelIdeal.main_arg11 (by decide)).trans ((e_arg11).trans (refA2_keep (U0b m' c) Cert.ReferenceIdeal.main_arg11 (by decide)).symm),
    (Cert.KernelIdeal.Keep.hostOps0_2_keep (W2 m ρ c) Cert.KernelIdeal.main_arg12 (by decide)).trans ((e_arg12).trans (refA2_keep (U0b m' c) Cert.ReferenceIdeal.main_arg12 (by decide)).symm),
    (Cert.KernelIdeal.Keep.hostOps0_2_keep (W2 m ρ c) Cert.KernelIdeal.main_arg13 (by decide)).trans ((e_arg13).trans (refA2_keep (U0b m' c) Cert.ReferenceIdeal.main_arg13 (by decide)).symm),
    (Cert.KernelIdeal.Keep.hostOps0_2_keep (W2 m ρ c) Cert.KernelIdeal.main_arg14 (by decide)).trans ((e_arg14).trans (refA2_keep (U0b m' c) Cert.ReferenceIdeal.main_arg14 (by decide)).symm),
    (Cert.KernelIdeal.Keep.hostOps0_2_keep (W2 m ρ c) Cert.KernelIdeal.main_arg15 (by decide)).trans ((e_arg15).trans (refA2_keep (U0b m' c) Cert.ReferenceIdeal.main_arg15 (by decide)).symm)⟩

end Cert.Bridge.Final

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«182173_j27023934226530_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibMatmulRows.lean ====
/-
  Two matrix-unit bodies on a block of rows, read at a block-local index, for any extents.

  At the ideal values — floats extended reals, every operation exact, a change of float format the identity — a body
  that narrows a block of B rows of a matrix x and the whole weight matrix w and multiplies them into the zero
  accumulator leaves, at the local index (p, c), the whole product's entry at (r, c), where r is the row of x that the
  block's row p is: both are the plain sum over the contraction index.  A body that then adds a row of biases and
  applies the logistic function leaves the logistic function of that entry plus the bias of column c.  No finiteness is
  used: the two sides are the same expression of the same entries.
-/
import proofs.«182173_j27023934226530_1_alg».proof.Proof.LibRowBlocks
import Idealize.ShloMosaic.Lib.ValueIdx
import Idealize.ShloMosaic.Lib.ValueLayout
import Idealize.ShloMosaic.Lib.Pipeline.Value
import Idealize.ShloMosaic.PureOps.Ideal.Laws

noncomputable section

namespace Cert.Lib.MatmulRows

open Idealize.ShloMosaic Idealize.ShloMosaic.ValueIdx

variable {M K N B : Nat}

/-- A block of B rows of x, recast to its own shape and narrowed, times the narrowed weights, into the zero accumulator:
    at the local index (p, c) it is the host's whole product x · w at (r, c), when the block's row p is row r of x and
    the block's weights are w. -/
theorem linear_rows_apply {ψ₁ ψ₂ : FTy} (x : FVec Ideal ⟨2, ![M, K]⟩ .f32) (w : FVec Ideal ⟨2, ![K, N]⟩ .f32)
    (xb : FVec Ideal ⟨2, ![B, K]⟩ .f32) (wb : FVec Ideal ⟨2, ![K, N]⟩ .f32)
    (hs : (⟨2, ![B, K]⟩ : Shape).ShapeCasts ⟨2, ![B, K]⟩) (g₁ : ψ₁.bits < FTy.f32.bits) (g₂ : ψ₂.bits < FTy.f32.bits)
    (prec prec' : Option ContractPrecision) (p : Fin B) (r : Fin M) (c : Fin N)
    (hx : ∀ k : Fin K, xb (ix2 p k) = x (ix2 r k)) (hw : ∀ k : Fin K, wb (ix2 k c) = w (ix2 k c)) :
    matmul (DotDims.plain B K N) prec (truncf ψ₁ (shapeCast ⟨2, ![B, K]⟩ xb hs) g₁) (truncf ψ₂ wb g₂)
        (constant (F := Ideal) ⟨2, ![B, N]⟩ .f32 0x00000000#32) (ix2 p c)
      = Host.dotGeneral (DotDims.plain M K N) prec' x w (ix2 r c) := by
  refine Cert.Lib.RowBlocks.matmul_rows_eq_dotGeneral prec prec' x w _ _ p r c (fun k => ?_) (fun k => ?_)
  · show shapeCast ⟨2, ![B, K]⟩ xb hs (ix2 p k) = x (ix2 r k)
    rw [shapeCast_self]; exact hx k
  · exact hw k

/-- The same product with a row of biases added and the logistic function applied: at (p, c) it is the logistic
    function of the whole product's entry at (r, c) plus the bias of column c. -/
theorem logistic_rows_apply {ψ₁ ψ₂ : FTy} (x : FVec Ideal ⟨2, ![M, K]⟩ .f32) (w : FVec Ideal ⟨2, ![K, N]⟩ .f32)
    (b : FVec Ideal ⟨2, ![1, N]⟩ .f32)
    (xb : FVec Ideal ⟨2, ![B, K]⟩ .f32) (wb : FVec Ideal ⟨2, ![K, N]⟩ .f32) (bb : FVec Ideal ⟨2, ![1, N]⟩ .f32)
    (hs : (⟨2, ![B, K]⟩ : Shape).ShapeCasts ⟨2, ![B, K]⟩) (g₁ : ψ₁.bits < FTy.f32.bits) (g₂ : ψ₂.bits < FTy.f32.bits)
    (hs' : (⟨2, ![1, N]⟩ : Shape).ShapeCasts ⟨2, ![1, N]⟩) (hb' : (⟨2, ![1, N]⟩ : Shape).Broadcasts ⟨2, ![B, N]⟩)
    (prec prec' : Option ContractPrecision) (p : Fin B) (r : Fin M) (c : Fin N)
    (hx : ∀ k : Fin K, xb (ix2 p k) = x (ix2 r k)) (hw : ∀ k : Fin K, wb (ix2 k c) = w (ix2 k c))
    (hb : bb (ix2 (0 : Fin 1) c) = b (ix2 (0 : Fin 1) c)) :
    logistic (addf (matmul (DotDims.plain B K N) prec (truncf ψ₁ (shapeCast ⟨2, ![B, K]⟩ xb hs) g₁) (truncf ψ₂ wb g₂)
        (constant (F := Ideal) ⟨2, ![B, N]⟩ .f32 0x00000000#32))
        (broadcastTo ⟨2, ![B, N]⟩ (shapeCast ⟨2, ![1, N]⟩ bb hs') hb')) (ix2 p c)
      = Ideal.logistic (Host.dotGeneral (DotDims.plain M K N) prec' x w (ix2 r c) + b (ix2 (0 : Fin 1) c)) := by
  show Ideal.logistic (matmul (DotDims.plain B K N) prec (truncf ψ₁ (shapeCast ⟨2, ![B, K]⟩ xb hs) g₁) (truncf ψ₂ wb g₂)
        (constant (F := Ideal) ⟨2, ![B, N]⟩ .f32 0x00000000#32) (ix2 p c)
      + broadcastTo ⟨2, ![B, N]⟩ (shapeCast ⟨2, ![1, N]⟩ bb hs') hb' (ix2 p c)) = _
  rw [linear_rows_apply x w xb wb hs g₁ g₂ prec prec' p r c hx hw, broadcastTo_1b_ab_apply, shapeCast_self, hb]

end Cert.Lib.MatmulRows

end
-- ==== Proof.Region0.lean ====
/-
  Region 0: a row-tiled matrix product is the whole product.

  The region multiplies the 50000 × 512 array it finds in its first window by the 512 × 256 weights of its second, 2000
  rows at a time over 25 grid points: point t loads rows 2000 t … 2000 t + 1999 and the whole weights, narrows both
  (the identity at the ideal values), multiplies them into the zero accumulator and writes rows 2000 t … 2000 t + 1999 of the
  result back.  Entry (r, c) of the result array is therefore the sum over k of x (r, k) · w (k, c): the host's plain
  matrix product of the two arrays as the region finds them.  The 25 blocks tile the array, so after the region the
  array holds that product everywhere.
-/
import proofs.«182173_j27023934226530_1_alg».proof.Proof.Gen.KernelIdeal.Frame
import proofs.«182173_j27023934226530_1_alg».proof.Proof.LibMatmulRows

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays as the region finds them. -/
def prod (c : Dev nD) : S50000x256.Idx → EReal :=
  Host.dotGeneral (F := Ideal) (φ₁ := .f32) (φ₂ := .f32) (DotDims.plain 50000 512 256) none
    (V c main_v45 : FVec Ideal ⟨2, ![50000, 512]⟩ .f32) (V c main_arg4 : FVec Ideal ⟨2, ![512, 256]⟩ .f32)

/-- The body's value on a block of rows, at a block-local index: the whole product's entry at the block's row. -/
theorem pay_apply (x : FVec Ideal ⟨2, ![50000, 512]⟩ .f32) (w : FVec Ideal ⟨2, ![512, 256]⟩ .f32)
    (x0 : FVec Ideal ⟨2, ![2000, 512]⟩ .f32) (x1 : FVec Ideal ⟨2, ![512, 256]⟩ .f32)
    (p : Fin 2000) (q : Fin 256) (r : Fin 50000)
    (hx : ∀ k : Fin 512, x0 (ix2 p k) = x (ix2 r k)) (hw : ∀ k : Fin 512, x1 (ix2 k q) = w (ix2 k q)) :
    k0_pay1 (F := Ideal) x0 x1 (ix2 p q) = Host.dotGeneral (DotDims.plain 50000 512 256) none x w (ix2 r q) := by
  unfold k0_pay1
  exact Cert.Lib.MatmulRows.linear_rows_apply x w x0 x1 _ _ _ none none p r q hx hw

/-- The printed index maps over the grid: the row windows sit at block t, the weights at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product. -/
theorem flushed_eq (c : Dev nD) (t : Fin cfg0.N) :
    (dat0 (F := Ideal) V c).flushed 2 t = ((cfg0.win 2).blk t).view.read (Elt Ideal) (prod V c) := by
  show (cfg0.win 2).cut (grid0.coords t) ((dat0 (F := Ideal) V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  have hN : t.val < 25 := t.isLt
  funext j
  obtain ⟨p, q, rfl⟩ : ∃ (p : Fin 2000) (q : Fin 256), j = ix2 p q := ⟨j 0, j 1, eq_ix2 j⟩
  have hp : p.val < 2000 := p.isLt
  have hr : t.val * 2000 + p.val < 50000 := by omega
  show k0_pay1 (F := Ideal) (iblk0 V c 0 t) (iblk0 V c 1 t) (ix2 p q) = prod V c (((cfg0.win 2).blk t).view.emb (ix2 p q))
  refine (pay_apply (V c main_v45) (V c main_arg4) (iblk0 V c 0 t) (iblk0 V c 1 t) p q ⟨t.val * 2000 + p.val, hr⟩ (fun k => ?_) (fun k => ?_)).trans ?_
  · show V c main_v45 (((cfg0.win 0).blk t).view.emb (ix2 p k)) = V c main_v45 (ix2 (⟨t.val * 2000 + p.val, hr⟩ : Fin 50000) k)
    refine congrArg (V c main_v45) (funext fun a => Fin.ext ?_)
    match a with
    | ⟨0, _⟩ => show win0_0.index t (0 : Fin 2) * 2000 + 1 * p.val = t.val * 2000 + p.val; omega
    | ⟨1, _⟩ => show win0_0.index t (1 : Fin 2) * 512 + 1 * k.val = k.val; omega
  · show V c main_arg4 (((cfg0.win 1).blk t).view.emb (ix2 k q)) = V c main_arg4 (ix2 k q)
    refine congrArg (V c main_arg4) (funext fun a => Fin.ext ?_)
    match a with
    | ⟨0, _⟩ => show win0_1.index t (0 : Fin 2) * 512 + 1 * k.val = k.val; omega
    | ⟨1, _⟩ => show win0_1.index t (1 : Fin 2) * 256 + 1 * q.val = q.val; omega
  · show prod V c (ix2 (⟨t.val * 2000 + p.val, hr⟩ : Fin 50000) q) = prod V c (((cfg0.win 2).blk t).view.emb (ix2 p q))
    refine congrArg (prod V c) (funext fun a => Fin.ext ?_)
    match a with
    | ⟨0, _⟩ => show t.val * 2000 + p.val = win0_2.index t (0 : Fin 2) * 2000 + 1 * p.val; omega
    | ⟨1, _⟩ => show q.val = win0_2.index t (1 : Fin 2) * 256 + 1 * q.val; omega

/-- An index of the result array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v46).slice (win0_2.rect t)).set ↔ _
  rw [View.set_slice_whole, Rect.mem_set_unit]
  exact Iff.rfl

/-- Every row of the result is in the block of the point that its row number divided by 2000 names. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 2000 < 25 := by omega
  obtain ⟨e0, e1, e2, e3, e4, e5⟩ := idx_facts (⟨(i 0).val / 2000, ht⟩ : Fin cfg0.N)
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e5]; omega

/-- After the region its result array holds the whole product of the two arrays it found. -/
theorem final (c : Dev nD) : (dat0 (F := Ideal) V c).arrAt 2 cfg0.N = prod V c :=
  (dat0 (F := Ideal) V c).arrAt_eq_of_cover 2 (prod V c) (fun t _ => flushed_eq V c t) cover

end Cert.KernelIdeal.Region0

end
-- ==== Proof.Region1.lean ====
/-
  Region 1: a row-tiled matrix product is the whole product.

  The region multiplies the 50000 × 256 array it finds in its first window by the 256 × 256 weights of its second, 2000
  rows at a time over 25 grid points: point t loads rows 2000 t … 2000 t + 1999 and the whole weights, narrows both
  (the identity at the ideal values), multiplies them into the zero accumulator and writes rows 2000 t … 2000 t + 1999 of the
  result back.  Entry (r, c) of the result array is therefore the sum over k of x (r, k) · w (k, c): the host's plain
  matrix product of the two arrays as the region finds them.  The 25 blocks tile the array, so after the region the
  array holds that product everywhere.
-/
import proofs.«182173_j27023934226530_1_alg».proof.Proof.Gen.KernelIdeal.Frame
import proofs.«182173_j27023934226530_1_alg».proof.Proof.LibMatmulRows

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays as the region finds them. -/
def prod (c : Dev nD) : S50000x256.Idx → EReal :=
  Host.dotGeneral (F := Ideal) (φ₁ := .f32) (φ₂ := .f32) (DotDims.plain 50000 256 256) none
    (V c main_v62 : FVec Ideal ⟨2, ![50000, 256]⟩ .f32) (V c main_arg6 : FVec Ideal ⟨2, ![256, 256]⟩ .f32)

/-- The body's value on a block of rows, at a block-local index: the whole product's entry at the block's row. -/
theorem pay_apply (x : FVec Ideal ⟨2, ![50000, 256]⟩ .f32) (w : FVec Ideal ⟨2, ![256, 256]⟩ .f32)
    (x0 : FVec Ideal ⟨2, ![2000, 256]⟩ .f32) (x1 : FVec Ideal ⟨2, ![256, 256]⟩ .f32)
    (p : Fin 2000) (q : Fin 256) (r : Fin 50000)
    (hx : ∀ k : Fin 256, x0 (ix2 p k) = x (ix2 r k)) (hw : ∀ k : Fin 256, x1 (ix2 k q) = w (ix2 k q)) :
    k1_pay1 (F := Ideal) x0 x1 (ix2 p q) = Host.dotGeneral (DotDims.plain 50000 256 256) none x w (ix2 r q) := by
  unfold k1_pay1
  exact Cert.Lib.MatmulRows.linear_rows_apply x w x0 x1 _ _ _ none none p r q hx hw

/-- The printed index maps over the grid: the row windows sit at block t, the weights at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole product. -/
theorem flushed_eq (c : Dev nD) (t : Fin cfg1.N) :
    (dat1 (F := Ideal) V c).flushed 2 t = ((cfg1.win 2).blk t).view.read (Elt Ideal) (prod V c) := by
  show (cfg1.win 2).cut (grid1.coords t) ((dat1 (F := Ideal) V c).after 2 t) = _
  rw [after1_2]
  unfold out1_2
  rw [View.canon_unit_zero hz]
  simp only [View.ld_unit_zero (S := S2000x256) hz, View.ld_unit_zero (S := S256x256) hz]
  obtain ⟨e0, e1, e2, e3, e4, e5⟩ := idx_facts t
  have hN : t.val < 25 := t.isLt
  funext j
  obtain ⟨p, q, rfl⟩ : ∃ (p : Fin 2000) (q : Fin 256), j = ix2 p q := ⟨j 0, j 1, eq_ix2 j⟩
  have hp : p.val < 2000 := p.isLt
  have hr : t.val * 2000 + p.val < 50000 := by omega
  show k1_pay1 (F := Ideal) (iblk1 V c 0 t) (iblk1 V c 1 t) (ix2 p q) = prod V c (((cfg1.win 2).blk t).view.emb (ix2 p q))
  refine (pay_apply (V c main_v62) (V c main_arg6) (iblk1 V c 0 t) (iblk1 V c 1 t) p q ⟨t.val * 2000 + p.val, hr⟩ (fun k => ?_) (fun k => ?_)).trans ?_
  · show V c main_v62 (((cfg1.win 0).blk t).view.emb (ix2 p k)) = V c main_v62 (ix2 (⟨t.val * 2000 + p.val, hr⟩ : Fin 50000) k)
    refine congrArg (V c main_v62) (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  · show V c main_arg6 (((cfg1.win 1).blk t).view.emb (ix2 k q)) = V c main_arg6 (ix2 k q)
    refine congrArg (V c main_arg6) (funext fun a => Fin.ext ?_)
    match a with
    | ⟨0, _⟩ => show win1_1.index t (0 : Fin 2) * 256 + 1 * k.val = k.val; omega
    | ⟨1, _⟩ => show win1_1.index t (1 : Fin 2) * 256 + 1 * q.val = q.val; omega
  · show prod V c (ix2 (⟨t.val * 2000 + p.val, hr⟩ : Fin 50000) q) = prod V c (((cfg1.win 2).blk t).view.emb (ix2 p q))
    refine congrArg (prod V c) (funext fun a => Fin.ext ?_)
    match a with
    | ⟨0, _⟩ => show t.val * 2000 + p.val = win1_2.index t (0 : Fin 2) * 2000 + 1 * p.val; omega
    | ⟨1, _⟩ => show q.val = win1_2.index t (1 : Fin 2) * 256 + 1 * q.val; omega

/-- An index of the result array is in point t's block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v63).slice (win1_2.rect t)).set ↔ _
  rw [View.set_slice_whole, Rect.mem_set_unit]
  exact Iff.rfl

/-- Every row of the result is in the block of the point that its row number divided by 2000 names. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have ht : (i 0).val / 2000 < 25 := by omega
  obtain ⟨e0, e1, e2, e3, e4, e5⟩ := idx_facts (⟨(i 0).val / 2000, ht⟩ : Fin cfg1.N)
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 256 ≤ (i 1).val ∧ (i 1).val < win1_2.index ⟨(i 0).val / 2000, ht⟩ (1 : Fin 2) * 256 + 256
    rw [e5]; omega

/-- After the region its result array holds the whole product of the two arrays it found. -/
theorem final (c : Dev nD) : (dat1 (F := Ideal) V c).arrAt 2 cfg1.N = prod V c :=
  (dat1 (F := Ideal) V c).arrAt_eq_of_cover 2 (prod V c) (fun t _ => flushed_eq V c t) cover

end Cert.KernelIdeal.Region1

end
-- ==== Proof.Region2.lean ====
/-
  Region 2: a row-tiled matrix product is the whole product.

  The region multiplies the 50000 × 256 array it finds in its first window by the 256 × 256 weights of its second, 2000
  rows at a time over 25 grid points: point t loads rows 2000 t … 2000 t + 1999 and the whole weights, narrows both
  (the identity at the ideal values), multiplies them into the zero accumulator and writes rows 2000 t … 2000 t + 1999 of the
  result back.  Entry (r, c) of the result array is therefore the sum over k of x (r, k) · w (k, c): the host's plain
  matrix product of the two arrays as the region finds them.  The 25 blocks tile the array, so after the region the
  array holds that product everywhere.
-/
import proofs.«182173_j27023934226530_1_alg».proof.Proof.Gen.KernelIdeal.Frame
import proofs.«182173_j27023934226530_1_alg».proof.Proof.LibMatmulRows

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays as the region finds them. -/
def prod (c : Dev nD) : S50000x256.Idx → EReal :=
  Host.dotGeneral (F := Ideal) (φ₁ := .f32) (φ₂ := .f32) (DotDims.plain 50000 256 256) none
    (V c main_v79 : FVec Ideal ⟨2, ![50000, 256]⟩ .f32) (V c main_arg8 : FVec Ideal ⟨2, ![256, 256]⟩ .f32)

/-- The body's value on a block of rows, at a block-local index: the whole product's entry at the block's row. -/
theorem pay_apply (x : FVec Ideal ⟨2, ![50000, 256]⟩ .f32) (w : FVec Ideal ⟨2, ![256, 256]⟩ .f32)
    (x0 : FVec Ideal ⟨2, ![2000, 256]⟩ .f32) (x1 : FVec Ideal ⟨2, ![256, 256]⟩ .f32)
    (p : Fin 2000) (q : Fin 256) (r : Fin 50000)
    (hx : ∀ k : Fin 256, x0 (ix2 p k) = x (ix2 r k)) (hw : ∀ k : Fin 256, x1 (ix2 k q) = w (ix2 k q)) :
    k2_pay1 (F := Ideal) x0 x1 (ix2 p q) = Host.dotGeneral (DotDims.plain 50000 256 256) none x w (ix2 r q) := by
  unfold k2_pay1
  exact Cert.Lib.MatmulRows.linear_rows_apply x w x0 x1 _ _ _ none none p r q hx hw

/-- The printed index maps over the grid: the row windows sit at block t, the weights at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the whole product. -/
theorem flushed_eq (c : Dev nD) (t : Fin cfg2.N) :
    (dat2 (F := Ideal) V c).flushed 2 t = ((cfg2.win 2).blk t).view.read (Elt Ideal) (prod V c) := by
  show (cfg2.win 2).cut (grid2.coords t) ((dat2 (F := Ideal) V c).after 2 t) = _
  rw [after2_2]
  unfold out2_2
  rw [View.canon_unit_zero hz]
  simp only [View.ld_unit_zero (S := S2000x256) hz, View.ld_unit_zero (S := S256x256) hz]
  obtain ⟨e0, e1, e2, e3, e4, e5⟩ := idx_facts t
  have hN : t.val < 25 := t.isLt
  funext j
  obtain ⟨p, q, rfl⟩ : ∃ (p : Fin 2000) (q : Fin 256), j = ix2 p q := ⟨j 0, j 1, eq_ix2 j⟩
  have hp : p.val < 2000 := p.isLt
  have hr : t.val * 2000 + p.val < 50000 := by omega
  show k2_pay1 (F := Ideal) (iblk2 V c 0 t) (iblk2 V c 1 t) (ix2 p q) = prod V c (((cfg2.win 2).blk t).view.emb (ix2 p q))
  refine (pay_apply (V c main_v79) (V c main_arg8) (iblk2 V c 0 t) (iblk2 V c 1 t) p q ⟨t.val * 2000 + p.val, hr⟩ (fun k => ?_) (fun k => ?_)).trans ?_
  · show V c main_v79 (((cfg2.win 0).blk t).view.emb (ix2 p k)) = V c main_v79 (ix2 (⟨t.val * 2000 + p.val, hr⟩ : Fin 50000) k)
    refine congrArg (V c main_v79) (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * k.val = k.val; omega
  · show V c main_arg8 (((cfg2.win 1).blk t).view.emb (ix2 k q)) = V c main_arg8 (ix2 k q)
    refine congrArg (V c main_arg8) (funext fun a => Fin.ext ?_)
    match a with
    | ⟨0, _⟩ => show win2_1.index t (0 : Fin 2) * 256 + 1 * k.val = k.val; omega
    | ⟨1, _⟩ => show win2_1.index t (1 : Fin 2) * 256 + 1 * q.val = q.val; omega
  · show prod V c (ix2 (⟨t.val * 2000 + p.val, hr⟩ : Fin 50000) q) = prod V c (((cfg2.win 2).blk t).view.emb (ix2 p q))
    refine congrArg (prod V c) (funext fun a => Fin.ext ?_)
    match a with
    | ⟨0, _⟩ => show t.val * 2000 + p.val = win2_2.index t (0 : Fin 2) * 2000 + 1 * p.val; omega
    | ⟨1, _⟩ => show q.val = win2_2.index t (1 : Fin 2) * 256 + 1 * q.val; omega

/-- An index of the result array is in point t's block iff each coordinate is in the block's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v80).slice (win2_2.rect t)).set ↔ _
  rw [View.set_slice_whole, Rect.mem_set_unit]
  exact Iff.rfl

/-- Every row of the result is in the block of the point that its row number divided by 2000 names. -/
theorem cover (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have ht : (i 0).val / 2000 < 25 := by omega
  obtain ⟨e0, e1, e2, e3, e4, e5⟩ := idx_facts (⟨(i 0).val / 2000, ht⟩ : Fin cfg2.N)
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 256 ≤ (i 1).val ∧ (i 1).val < win2_2.index ⟨(i 0).val / 2000, ht⟩ (1 : Fin 2) * 256 + 256
    rw [e5]; omega

/-- After the region its result array holds the whole product of the two arrays it found. -/
theorem final (c : Dev nD) : (dat2 (F := Ideal) V c).arrAt 2 cfg2.N = prod V c :=
  (dat2 (F := Ideal) V c).arrAt_eq_of_cover 2 (prod V c) (fun t _ => flushed_eq V c t) cover

end Cert.KernelIdeal.Region2

end
-- ==== Proof.Region3.lean ====
/-
  Region 3: a row-tiled matrix product is the whole product.

  The region multiplies the 50000 × 256 array it finds in its first window by the 256 × 256 weights of its second, 2000
  rows at a time over 25 grid points: point t loads rows 2000 t … 2000 t + 1999 and the whole weights, narrows both
  (the identity at the ideal values), multiplies them into the zero accumulator and writes rows 2000 t … 2000 t + 1999 of the
  result back.  Entry (r, c) of the result array is therefore the sum over k of x (r, k) · w (k, c): the host's plain
  matrix product of the two arrays as the region finds them.  The 25 blocks tile the array, so after the region the
  array holds that product everywhere.
-/
import proofs.«182173_j27023934226530_1_alg».proof.Proof.Gen.KernelIdeal.Frame
import proofs.«182173_j27023934226530_1_alg».proof.Proof.LibMatmulRows

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays as the region finds them. -/
def prod (c : Dev nD) : S50000x256.Idx → EReal :=
  Host.dotGeneral (F := Ideal) (φ₁ := .f32) (φ₂ := .f32) (DotDims.plain 50000 256 256) none
    (V c main_v96 : FVec Ideal ⟨2, ![50000, 256]⟩ .f32) (V c main_arg10 : FVec Ideal ⟨2, ![256, 256]⟩ .f32)

/-- The body's value on a block of rows, at a block-local index: the whole product's entry at the block's row. -/
theorem pay_apply (x : FVec Ideal ⟨2, ![50000, 256]⟩ .f32) (w : FVec Ideal ⟨2, ![256, 256]⟩ .f32)
    (x0 : FVec Ideal ⟨2, ![2000, 256]⟩ .f32) (x1 : FVec Ideal ⟨2, ![256, 256]⟩ .f32)
    (p : Fin 2000) (q : Fin 256) (r : Fin 50000)
    (hx : ∀ k : Fin 256, x0 (ix2 p k) = x (ix2 r k)) (hw : ∀ k : Fin 256, x1 (ix2 k q) = w (ix2 k q)) :
    k3_pay1 (F := Ideal) x0 x1 (ix2 p q) = Host.dotGeneral (DotDims.plain 50000 256 256) none x w (ix2 r q) := by
  unfold k3_pay1
  exact Cert.Lib.MatmulRows.linear_rows_apply x w x0 x1 _ _ _ none none p r q hx hw

/-- The printed index maps over the grid: the row windows sit at block t, the weights at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the whole product. -/
theorem flushed_eq (c : Dev nD) (t : Fin cfg3.N) :
    (dat3 (F := Ideal) V c).flushed 2 t = ((cfg3.win 2).blk t).view.read (Elt Ideal) (prod V c) := by
  show (cfg3.win 2).cut (grid3.coords t) ((dat3 (F := Ideal) V c).after 2 t) = _
  rw [after3_2]
  unfold out3_2
  rw [View.canon_unit_zero hz]
  simp only [View.ld_unit_zero (S := S2000x256) hz, View.ld_unit_zero (S := S256x256) hz]
  obtain ⟨e0, e1, e2, e3, e4, e5⟩ := idx_facts t
  have hN : t.val < 25 := t.isLt
  funext j
  obtain ⟨p, q, rfl⟩ : ∃ (p : Fin 2000) (q : Fin 256), j = ix2 p q := ⟨j 0, j 1, eq_ix2 j⟩
  have hp : p.val < 2000 := p.isLt
  have hr : t.val * 2000 + p.val < 50000 := by omega
  show k3_pay1 (F := Ideal) (iblk3 V c 0 t) (iblk3 V c 1 t) (ix2 p q) = prod V c (((cfg3.win 2).blk t).view.emb (ix2 p q))
  refine (pay_apply (V c main_v96) (V c main_arg10) (iblk3 V c 0 t) (iblk3 V c 1 t) p q ⟨t.val * 2000 + p.val, hr⟩ (fun k => ?_) (fun k => ?_)).trans ?_
  · show V c main_v96 (((cfg3.win 0).blk t).view.emb (ix2 p k)) = V c main_v96 (ix2 (⟨t.val * 2000 + p.val, hr⟩ : Fin 50000) k)
    refine congrArg (V c main_v96) (funext fun a => Fin.ext ?_)
    match a with
    | ⟨0, _⟩ => show win3_0.index t (0 : Fin 2) * 2000 + 1 * p.val = t.val * 2000 + p.val; omega
    | ⟨1, _⟩ => show win3_0.index t (1 : Fin 2) * 256 + 1 * k.val = k.val; omega
  · show V c main_arg10 (((cfg3.win 1).blk t).view.emb (ix2 k q)) = V c main_arg10 (ix2 k q)
    refine congrArg (V c main_arg10) (funext fun a => Fin.ext ?_)
    match a with
    | ⟨0, _⟩ => show win3_1.index t (0 : Fin 2) * 256 + 1 * k.val = k.val; omega
    | ⟨1, _⟩ => show win3_1.index t (1 : Fin 2) * 256 + 1 * q.val = q.val; omega
  · show prod V c (ix2 (⟨t.val * 2000 + p.val, hr⟩ : Fin 50000) q) = prod V c (((cfg3.win 2).blk t).view.emb (ix2 p q))
    refine congrArg (prod V c) (funext fun a => Fin.ext ?_)
    match a with
    | ⟨0, _⟩ => show t.val * 2000 + p.val = win3_2.index t (0 : Fin 2) * 2000 + 1 * p.val; omega
    | ⟨1, _⟩ => show q.val = win3_2.index t (1 : Fin 2) * 256 + 1 * q.val; omega

/-- An index of the result array is in point t's block iff each coordinate is in the block's range on its axis. -/
theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v97).slice (win3_2.rect t)).set ↔ _
  rw [View.set_slice_whole, Rect.mem_set_unit]
  exact Iff.rfl

/-- Every row of the result is in the block of the point that its row number divided by 2000 names. -/
theorem cover (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have ht : (i 0).val / 2000 < 25 := by omega
  obtain ⟨e0, e1, e2, e3, e4, e5⟩ := idx_facts (⟨(i 0).val / 2000, ht⟩ : Fin cfg3.N)
  refine ⟨⟨(i 0).val / 2000, ht⟩, flush3_2 _, ?_⟩
  rw [mem_blk]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ (1 : Fin 2) * 256 ≤ (i 1).val ∧ (i 1).val < win3_2.index ⟨(i 0).val / 2000, ht⟩ (1 : Fin 2) * 256 + 256
    rw [e5]; omega

/-- After the region its result array holds the whole product of the two arrays it found. -/
theorem final (c : Dev nD) : (dat3 (F := Ideal) V c).arrAt 2 cfg3.N = prod V c :=
  (dat3 (F := Ideal) V c).arrAt_eq_of_cover 2 (prod V c) (fun t _ => flushed_eq V c t) cover

end Cert.KernelIdeal.Region3

end
-- ==== Proof.Layer1.lean ====
/-
  One aggregation layer on the host, the same in both programs.

  Both programs follow a layer's matrix product by the same nineteen host operations: the source indices wrapped into
  range, the product's rows gathered at them and scaled by the edge weights, the scaled rows summed into their
  destination rows, the bias row added.  From buffer contents that agree on what these operations read — the product,
  the two index vectors, the edge weights, the bias — the two programs leave the same array.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.Layer1

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (hp : WK (Proc.devRef .tc Cert.KernelIdeal.main_v46) = WR (Proc.devRef .tc Cert.ReferenceIdeal.main_v46))
    (h3 : WK (Proc.devRef .tc Cert.KernelIdeal.main_v3) = WR (Proc.devRef .tc Cert.ReferenceIdeal.main_v3))
    (h6 : WK (Proc.devRef .tc Cert.KernelIdeal.main_v6) = WR (Proc.devRef .tc Cert.ReferenceIdeal.main_v6))
    (h26 : WK (Proc.devRef .tc Cert.KernelIdeal.main_v26) = WR (Proc.devRef .tc Cert.ReferenceIdeal.main_v26))
    (hb : WK (Proc.devRef .tc Cert.KernelIdeal.main_arg5) = WR (Proc.devRef .tc Cert.ReferenceIdeal.main_arg5)) :
    after (Cert.KernelIdeal.Gen.hostOps1 (F := Ideal)) WK (Proc.devRef .tc Cert.KernelIdeal.main_v62)
      = after (Cert.ReferenceIdeal.Ops.refB1 (F := Ideal)) (after (Cert.ReferenceIdeal.Ops.refB0 (F := Ideal)) WR) (Proc.devRef .tc Cert.ReferenceIdeal.main_v62) := by
  generalize hR : after (Cert.ReferenceIdeal.Ops.refB1 (F := Ideal)) (after (Cert.ReferenceIdeal.Ops.refB0 (F := Ideal)) WR) (Proc.devRef .tc Cert.ReferenceIdeal.main_v62) = rhs
  dsimp only [Cert.KernelIdeal.Gen.hostOps1]
  after_results
  rw [hp, h3, h6, h26, hb]
  subst hR
  symm
  dsimp only [Cert.ReferenceIdeal.Ops.refB0, Cert.ReferenceIdeal.Ops.refB1]
  after_results
  rfl

end Cert.Bridge.Layer1

end
-- ==== Proof.Layer2.lean ====
/-
  One aggregation layer on the host, the same in both programs.

  Both programs follow a layer's matrix product by the same nineteen host operations: the source indices wrapped into
  range, the product's rows gathered at them and scaled by the edge weights, the scaled rows summed into their
  destination rows, the bias row added.  From buffer contents that agree on what these operations read — the product,
  the two index vectors, the edge weights, the bias — the two programs leave the same array.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.Layer2

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (hp : WK (Proc.devRef .tc Cert.KernelIdeal.main_v63) = WR (Proc.devRef .tc Cert.ReferenceIdeal.main_v63))
    (h3 : WK (Proc.devRef .tc Cert.KernelIdeal.main_v3) = WR (Proc.devRef .tc Cert.ReferenceIdeal.main_v3))
    (h6 : WK (Proc.devRef .tc Cert.KernelIdeal.main_v6) = WR (Proc.devRef .tc Cert.ReferenceIdeal.main_v6))
    (h26 : WK (Proc.devRef .tc Cert.KernelIdeal.main_v26) = WR (Proc.devRef .tc Cert.ReferenceIdeal.main_v26))
    (hb : WK (Proc.devRef .tc Cert.KernelIdeal.main_arg7) = WR (Proc.devRef .tc Cert.ReferenceIdeal.main_arg7)) :
    after (Cert.KernelIdeal.Gen.hostOps2 (F := Ideal)) WK (Proc.devRef .tc Cert.KernelIdeal.main_v79)
      = after (Cert.ReferenceIdeal.Ops.refC (F := Ideal)) WR (Proc.devRef .tc Cert.ReferenceIdeal.main_v79) := by
  generalize hR : after (Cert.ReferenceIdeal.Ops.refC (F := Ideal)) WR (Proc.devRef .tc Cert.ReferenceIdeal.main_v79) = rhs
  dsimp only [Cert.KernelIdeal.Gen.hostOps2]
  after_results
  rw [hp, h3, h6, h26, hb]
  subst hR
  symm
  dsimp only [Cert.ReferenceIdeal.Ops.refC]
  after_results
  rfl

end Cert.Bridge.Layer2

end
-- ==== Proof.Layer3.lean ====
/-
  One aggregation layer on the host, the same in both programs.

  Both programs follow a layer's matrix product by the same nineteen host operations: the source indices wrapped into
  range, the product's rows gathered at them and scaled by the edge weights, the scaled rows summed into their
  destination rows, the bias row added.  From buffer contents that agree on what these operations read — the product,
  the two index vectors, the edge weights, the bias — the two programs leave the same array.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.Layer3

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (hp : WK (Proc.devRef .tc Cert.KernelIdeal.main_v80) = WR (Proc.devRef .tc Cert.ReferenceIdeal.main_v80))
    (h3 : WK (Proc.devRef .tc Cert.KernelIdeal.main_v3) = WR (Proc.devRef .tc Cert.ReferenceIdeal.main_v3))
    (h6 : WK (Proc.devRef .tc Cert.KernelIdeal.main_v6) = WR (Proc.devRef .tc Cert.ReferenceIdeal.main_v6))
    (h26 : WK (Proc.devRef .tc Cert.KernelIdeal.main_v26) = WR (Proc.devRef .tc Cert.ReferenceIdeal.main_v26))
    (hb : WK (Proc.devRef .tc Cert.KernelIdeal.main_arg9) = WR (Proc.devRef .tc Cert.ReferenceIdeal.main_arg9)) :
    after (Cert.KernelIdeal.Gen.hostOps3 (F := Ideal)) WK (Proc.devRef .tc Cert.KernelIdeal.main_v96)
      = after (Cert.ReferenceIdeal.Ops.refE (F := Ideal)) WR (Proc.devRef .tc Cert.ReferenceIdeal.main_v96) := by
  generalize hR : after (Cert.ReferenceIdeal.Ops.refE (F := Ideal)) WR (Proc.devRef .tc Cert.ReferenceIdeal.main_v96) = rhs
  dsimp only [Cert.KernelIdeal.Gen.hostOps3]
  after_results
  rw [hp, h3, h6, h26, hb]
  subst hR
  symm
  dsimp only [Cert.ReferenceIdeal.Ops.refE]
  after_results
  rfl

end Cert.Bridge.Layer3

end
-- ==== Proof.LibSigmoid.lean ====
/-
  The logistic function spelt with a division, on the extended reals.

  The single-precision word 0x3F800000 denotes the number one, so the quotient of that constant by
  the constant plus the exponential of the negated argument is the logistic function of the argument:
  1 / (1 + exp (-x)).
-/
import Idealize.ShloMosaic.PureOps.Ideal

namespace Cert.GruLib

open Idealize.ShloMosaic

/-- The single-precision word 0x3F800000 denotes the number one. -/
theorem ofBits_one : Ideal.ofBits .f32 0x3F800000#32 = 1 := by
  simp [Ideal.ofBits, Ideal.ieee, -EReal.coe_mul]; norm_num

/-- One over (one plus the exponential of minus x), with the ones given by their words, is the logistic function of x. -/
theorem div_one_add_exp_neg (x : EReal) :
    Ideal.div (Ideal.ofBits .f32 0x3F800000#32) (Ideal.ofBits .f32 0x3F800000#32 + Ideal.exp (-x)) = Ideal.logistic x := by
  rw [ofBits_one]; rfl

end Cert.GruLib
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.Dots.lean ====
/-
  The reference's matrix products and its decoder, read from the buffers they find.

  Each of the reference's five matrix products is one host operation: from any buffer contents its result is the plain
  product of the two arrays it reads.  After the last product the reference adds the decoder's bias to every row and
  applies the logistic function, spelt as one over one plus the exponential of the negated argument with the ones
  given by the single-precision word of the number one: entry (r, c) of its result is the logistic function of the
  product's entry plus the bias of column c.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal
import Idealize.ShloMosaic.Lib.ValueIdx
import Idealize.ShloMosaic.Lib.Pipeline.Value
import proofs.«182173_j27023934226530_1_alg».proof.Proof.LibSigmoid
import proofs.«182173_j27023934226530_1_alg».proof.Proof.LibRowBroadcast

set_option maxRecDepth 16384

noncomputable section

namespace Cert.Bridge.Dots

open Idealize.ShloMosaic Idealize.ShloMosaic.TcCoe Idealize.ShloMosaic.StableHlo Idealize.ShloMosaic.ValueIdx

variable (WR : Valuation Cert.ReferenceIdeal.τ Cert.ReferenceIdeal.sig (Elt Ideal))

/-- The product refD0 writes is the plain 50000 × 512 by 512 × 256 product of the two arrays it reads. -/
theorem d0 : after (Cert.ReferenceIdeal.Ops.refD0 (F := Ideal)) WR (Proc.devRef .tc Cert.ReferenceIdeal.main_v46)
    = Host.dotGeneral (F := Ideal) (φ₁ := .f32) (φ₂ := .f32) (DotDims.plain 50000 512 256) none (WR (Proc.devRef .tc Cert.ReferenceIdeal.main_v45)) (WR (Proc.devRef .tc Cert.ReferenceIdeal.main_arg4)) := by
  dsimp only [Cert.ReferenceIdeal.Ops.refD0]
  after_results
  rfl

/-- The product refD1 writes is the plain 50000 × 256 by 256 × 256 product of the two arrays it reads. -/
theorem d1 : after (Cert.ReferenceIdeal.Ops.refD1 (F := Ideal)) WR (Proc.devRef .tc Cert.ReferenceIdeal.main_v63)
    = Host.dotGeneral (F := Ideal) (φ₁ := .f32) (φ₂ := .f32) (DotDims.plain 50000 256 256) none (WR (Proc.devRef .tc Cert.ReferenceIdeal.main_v62)) (WR (Proc.devRef .tc Cert.ReferenceIdeal.main_arg6)) := by
  dsimp only [Cert.ReferenceIdeal.Ops.refD1]
  after_results
  rfl

/-- The product refD2 writes is the plain 50000 × 256 by 256 × 256 product of the two arrays it reads. -/
theorem d2 : after (Cert.ReferenceIdeal.Ops.refD2 (F := Ideal)) WR (Proc.devRef .tc Cert.ReferenceIdeal.main_v80)
    = Host.dotGeneral (F := Ideal) (φ₁ := .f32) (φ₂ := .f32) (DotDims.plain 50000 256 256) none (WR (Proc.devRef .tc Cert.ReferenceIdeal.main_v79)) (WR (Proc.devRef .tc Cert.ReferenceIdeal.main_arg8)) := by
  dsimp only [Cert.ReferenceIdeal.Ops.refD2]
  after_results
  rfl

/-- The product refD3 writes is the plain 50000 × 256 by 256 × 256 product of the two arrays it reads. -/
theorem d3 : after (Cert.ReferenceIdeal.Ops.refD3 (F := Ideal)) WR (Proc.devRef .tc Cert.ReferenceIdeal.main_v97)
    = Host.dotGeneral (F := Ideal) (φ₁ := .f32) (φ₂ := .f32) (DotDims.plain 50000 256 256) none (WR (Proc.devRef .tc Cert.ReferenceIdeal.main_v96)) (WR (Proc.devRef .tc Cert.ReferenceIdeal.main_arg10)) := by
  dsimp only [Cert.ReferenceIdeal.Ops.refD3]
  after_results
  rfl

/-- The decoder: the reference's result at (r, c) is the logistic function of the last product's entry plus the bias of
    column c. -/
theorem tail_apply (r : Fin 50000) (q : Fin 5) :
    after (Cert.ReferenceIdeal.Ops.refT (F := Ideal)) (after (Cert.ReferenceIdeal.Ops.refD4 (F := Ideal)) WR) (Proc.devRef .tc Cert.ReferenceIdeal.main_v142) (ix2 r q)
      = Ideal.logistic (Host.dotGeneral (F := Ideal) (φ₁ := .f32) (φ₂ := .f32) (DotDims.plain 50000 256 5) none
            (WR (Proc.devRef .tc Cert.ReferenceIdeal.main_v132)) (WR (Proc.devRef .tc Cert.ReferenceIdeal.main_arg14)) (ix2 r q)
          + WR (Proc.devRef .tc Cert.ReferenceIdeal.main_arg15) (ix1 q)) := by
  dsimp only [Cert.ReferenceIdeal.Ops.refT, Cert.ReferenceIdeal.Ops.refD4]
  after_results
  show Ideal.div (Ideal.ofBits .f32 0x3F800000#32) (Ideal.ofBits .f32 0x3F800000#32 + Ideal.exp (-(_ + _))) = _
  rw [Cert.GruLib.div_one_add_exp_neg]
  refine congrArg Ideal.logistic (congrArg₂ (fun a b : EReal => a + b) rfl ?_)
  refine (Cert.Lib.RowBroadcast.broadcastInDim_row_apply _ _ r q).trans ?_
  exact broadcastInDim_apply (![1] : Fin 1 → Fin 2) _ _ (ix2 (0 : Fin 1) q) (ix1 q) (fun a => by
    match a with
    | ⟨0, _⟩ => show q.val = if (5 : Nat) = 1 then 0 else q.val; rw [if_neg (by decide)])

end Cert.Bridge.Dots

end
-- ==== Proof.Bridge1.lean ====
/-
  The two programs' buffers agree, boundary by boundary.

  The kernel program is the reference with each of its five matrix products handed to the matrix unit (the last one
  together with the decoder's bias and logistic function); every other line of the two programs is the same host
  operation on buffers of the same names.  Cut both programs at the products (and around the two calls of the outlined
  variance).  At the launch the argument buffers agree.  A stretch of host operations keeps every buffer it does not write,
  and writes the same array in both programs when the buffers it reads agree; a kernel region keeps every buffer but its
  result, and its result is the plain product of the arrays it found — what the reference's one operation writes.  So the
  buffers that are read later agree at every boundary.

  This module: the boundaries from the first product to the fourth.
-/
import proofs.«182173_j27023934226530_1_alg».proof.Proof.Bridge0
import proofs.«182173_j27023934226530_1_alg».proof.Proof.Region0
import proofs.«182173_j27023934226530_1_alg».proof.Proof.Region1
import proofs.«182173_j27023934226530_1_alg».proof.Proof.Region2
import proofs.«182173_j27023934226530_1_alg».proof.Proof.Region3
import proofs.«182173_j27023934226530_1_alg».proof.Proof.Layer1
import proofs.«182173_j27023934226530_1_alg».proof.Proof.Layer2
import proofs.«182173_j27023934226530_1_alg».proof.Proof.Layer3
import proofs.«182173_j27023934226530_1_alg».proof.Proof.Dots

set_option maxRecDepth 16384

noncomputable section

namespace Cert.Bridge.Final

open Idealize.ShloMosaic Idealize.ShloMosaic.TcCoe Idealize.ShloMosaic.StableHlo Idealize.ShloMosaic.ValueIdx Idealize.SL.Sem
open Cert.KernelIdeal.Gen (W0 W1 W2 W3 W4 W5 W6 W7 W8 W9 W10 W11 W12 W13 W14 V3 V5 V7 V9 V13)
open Cert.ReferenceIdeal.Ops

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

variable (hargs : ArgsAgree m m' c)

include hargs in
/-- The buffers read later agree at boundary 4. -/
theorem b4 :
    (W4 m ρ c (Idealize.ShloMosaic.Proc.devRef .tc Cert.KernelIdeal.main_v46) = U2 m' c (Idealize.ShloMosaic.Proc.devRef .tc Cert.ReferenceIdeal.main_v46))
    ∧ (W4 m ρ c (Idealize.ShloMosaic.Proc.devRef .tc Cert.KernelIdeal.main_v26) = U2 m' c (Idealize.ShloMosaic.Proc.devRef .tc Cert.ReferenceIdeal.main_v26))
    ∧ (W4 m ρ c (Idealize.ShloMosaic.Proc.devRef .tc Cert.KernelIdeal.main_v6) = U2 m' c (Idealize.ShloMosaic.Proc.devRef .tc Cert.ReferenceIdeal.main_v6))
    ∧ (W4 m ρ c (Idealize.ShloMosaic.Proc.devRef .tc Cert.KernelIdeal.main_v3) = U2 m' c (Idealize.ShloMosaic.Proc.devRef .tc Cert.ReferenceIdeal.main_v3))
    ∧ (W4 m ρ c (Idealize.ShloMosaic.Proc.devRef .tc Cert.KernelIdeal.main_arg5) = U2 m' c (Idealize.ShloMosaic.Proc.devRef .tc Cert.ReferenceIdeal.main_arg5))
    ∧ (W4 m ρ c (Idealize.ShloMosaic.Proc.devRef .tc Cert.KernelIdeal.main_arg6) = U2 m' c (Idealize.ShloMosaic.Proc.devRef .tc Cert.ReferenceIdeal.main_arg6))
    ∧ (W4 m ρ c (Idealize.ShloMosaic.Proc.devRef .tc Cert.KernelIdeal.main_arg7) = U2 m' c (Idealize.ShloMosaic.Proc.devRef .tc Cert.ReferenceIdeal.main_arg7))
    ∧ (W4 m ρ c (Idealize.ShloMosaic.Proc.devRef .tc Cert.KernelIdeal.main_arg8) = U2 m' c (Idealize.ShloMosaic.Proc.devRef .tc Cert.ReferenceIdeal.main_arg8))
    ∧ (W4 m ρ c (Idealize.ShloMosaic.Proc.devRef .tc Cert.KernelIdeal.main_arg9) = U2 m' c (Idealize.ShloMosaic.Proc.devRef .tc Cert.ReferenceIdeal.main_arg9))
    ∧ (W4 m ρ c (Idealize.ShloMosaic.Proc.devRef .tc Cert.KernelIdeal.main_arg10) = U2 m' c (Idealize.ShloMosaic.Proc.devRef .tc Cert.ReferenceIdeal.main_arg10))
    ∧ (W4 m ρ c (Idealize.ShloMosaic.Proc.devRef .tc Cert.KernelIdeal.main_arg11) = U2 m' c (Idealize.ShloMosaic.Proc.devRef .tc Cert.ReferenceIdeal.main_arg11))
    ∧ (W4 m ρ c (Idealize.ShloMosaic.Proc.devRef .tc Cert.KernelIdeal.main_arg12) = U2 m' c (Idealize.ShloMosaic.Proc.devRef .tc Cert.ReferenceIdeal.main_arg12))
    ∧ (W4 m ρ c (Idealize.ShloMosaic.Proc.devRef .tc Cert.KernelIdeal.main_arg13) = U2 m' c (Idealize.ShloMosaic.Proc.devRef .tc Cert.ReferenceIdeal.main_arg13))
    ∧ (W4 m ρ c (Idealize.ShloMosaic.Proc.devRef .tc Cert.KernelIdeal.main_arg14) = U2 m' c (Idealize.ShloMosaic.Proc.devRef .tc Cert.ReferenceIdeal.main_arg14))
    ∧ (W4 m ρ c (Idealize.ShloMosaic.Proc.devRef .tc Cert.KernelIdeal.main_arg15) = U2 m' c (Idealize.ShloMosaic.Proc.devRef .tc Cert.ReferenceIdeal.main_arg15)) := by
  obtain ⟨e_v45, e_v26, e_v6, e_v3, e_arg4, e_arg5, e_arg6, e_arg7, e_arg8, e_arg9, e_arg10, e_arg11, e_arg12, e_arg13, e_arg14, e_arg15⟩ := b3 m ρ m' c hargs
  exact ⟨by
      refine ((Cert.KernelIdeal.Gen.W4_arr m ρ c 2).trans (Cert.KernelIdeal.Region0.final (Cert.KernelIdeal.Gen.V3 m ρ) c)).trans ?_
      refine Eq.trans ?_ (Cert.Bridge.Dots.d0 (U1 m' c)).symm
      show Host.dotGeneral (F := Ideal) (φ₁ := .f32) (φ₂ := .f32) (DotDims.plain 50000 512 256) none
          (W3 m ρ c (Idealize.ShloMosaic.Proc.devRef .tc Cert.KernelIdeal.main_v45)) (W3 m ρ c (Idealize.ShloMosaic.Proc.devRef .tc Cert.KernelIdeal.main_arg4))
        = Host.dotGeneral (F := Ideal) (φ₁ := .f32) (φ₂ := .f32) (DotDims.plain 50000 512 256) none
          (U1 m' c (Idealize.ShloMosaic.Proc.devRef .tc Cert.ReferenceIdeal.main_v45)) (U1 m' c (Idealize.ShloMosaic.Proc.devRef .tc Cert.ReferenceIdeal.main_arg4))
      rw [e_v45, e_arg4],
    (Cert.KernelIdeal.Gen.W4_of_ne m ρ c Cert.KernelIdeal.main_v26 (by decide)).trans ((e_v26).trans (refD0_keep (U1 m' c) Cert.ReferenceIdeal.main_v26 (by decide)).symm),
    (Cert.KernelIdeal.Gen.W4_of_ne m ρ c Cert.KernelIdeal.main_v6 (by decide)).trans ((e_v6).trans (refD0_keep (U1 m' c) Cert.ReferenceIdeal.main_v6 (by decide)).symm),
    (Cert.KernelIdeal.Gen.W4_of_ne m ρ c Cert.KernelIdeal.main_v3 (by decide)).trans ((e_v3).trans (refD0_keep (U1 m' c) Cert.ReferenceIdeal.main_v3 (by decide)).symm),
    (Cert.KernelIdeal.Gen.W4_of_ne m ρ c Cert.KernelIdeal.main_arg5 (by decide)).trans ((e_arg5).trans (refD0_keep (U1 m' c) Cert.ReferenceIdeal.main_arg5 (by decide)).symm),
    (Cert.KernelIdeal.Gen.W4_of_ne m ρ c Cert.KernelIdeal.main_arg6 (by decide)).trans ((e_arg6).trans (refD0_keep (U1 m' c) Cert.ReferenceIdeal.main_arg6 (by decide)).symm),
    (Cert.KernelIdeal.Gen.W4_of_ne m ρ c Cert.KernelIdeal.main_arg7 (by decide)).trans ((e_arg7).trans (refD0_keep (U1 m' c) Cert.ReferenceIdeal.main_arg7 (by decide)).symm),
    (Cert.KernelIdeal.Gen.W4_of_ne m ρ c Cert.KernelIdeal.main_arg8 (by decide)).trans ((e_arg8).trans (refD0_keep (U1 m' c) Cert.ReferenceIdeal.main_arg8 (by decide)).symm),
    (Cert.KernelIdeal.Gen.W4_of_ne m ρ c Cert.KernelIdeal.main_arg9 (by decide)).trans ((e_arg9).trans (refD0_keep (U1 m' c) Cert.ReferenceIdeal.main_arg9 (by decide)).symm),
    (Cert.KernelIdeal.Gen.W4_of_ne m ρ c Cert.KernelIdeal.main_arg10 (by decide)).trans ((e_arg10).trans (refD0_keep (U1 m' c) Cert.ReferenceIdeal.main_arg10 (by decide)).symm),
    (Cert.KernelIdeal.Gen.W4_of_ne m ρ c Cert.KernelIdeal.main_arg11 (by decide)).trans ((e_arg11).trans (refD0_keep (U1 m' c) Cert.ReferenceIdeal.main_arg11 (by decide)).symm),
    (Cert.KernelIdeal.Gen.W4_of_ne m ρ c Cert.KernelIdeal.main_arg12 (by decide)).trans ((e_arg12).trans (refD0_keep (U1 m' c) Cert.ReferenceIdeal.main_arg12 (by decide)).symm),
    (Cert.KernelIdeal.Gen.W4_of_ne m ρ c Cert.KernelIdeal.main_arg13 (by decide)).trans ((e_arg13).trans (refD0_keep (U1 m' c) Cert.ReferenceIdeal.main_arg13 (by decide)).symm),
    (Cert.KernelIdeal.Gen.W4_of_ne m ρ c Cert.KernelIdeal.main_arg14 (by decide)).trans ((e_arg14).trans (refD0_keep (U1 m' c) Cert.ReferenceIdeal.main_arg14 (by decide)).symm),
    (Cert.KernelIdeal.Gen.W4_of_ne m ρ c Cert.KernelIdeal.main_arg15 (by decide)).trans ((e_arg15).trans (refD0_keep (U1 m' c) Cert.ReferenceIdeal.main_arg15 (by decide)).symm)⟩

include hargs in
/-- The buffers read later agree at boundary 5. -/
theorem b5 :
    (W5 m ρ c (Idealize.ShloMosaic.Proc.devRef .tc Cert.KernelIdeal.main_v62) = U3 m' c (Idealize.ShloMosaic.Proc.devRef .tc Cert.ReferenceIdeal.main_v62))
    ∧ (W5 m ρ c (Idealize.ShloMosaic.Proc.devRef .tc Cert.KernelIdeal.main_v26) = U3 m' c (Idealize.ShloMosaic.Proc.devRef .tc Cert.ReferenceIdeal.main_v26))
    ∧ (W5 m ρ c (Idealize.ShloMosaic.Proc.devRef .tc Cert.KernelIdeal.main_v6) = U3 m' c (Idealize.ShloMosaic.Proc.devRef .tc Cert.ReferenceIdeal.main_v6))
    ∧ (W5 m ρ c (Idealize.ShloMosaic.Proc.devRef .tc Cert.KernelIdeal.main_v3) = U3 m' c (Idealize.ShloMosaic.Proc.devRef .tc Cert.ReferenceIdeal.main_v3))
    ∧ (W5 m ρ c (Idealize.ShloMosaic.Proc.devRef .tc Cert.KernelIdeal.main_arg6) = U3 m' c (Idealize.ShloMosaic.Proc.devRef .tc Cert.ReferenceIdeal.main_arg6))
    ∧ (W5 m ρ c (Idealize.ShloMosaic.Proc.devRef .tc Cert.KernelIdeal.main_arg7) = U3 m' c (Idealize.ShloMosaic.Proc.devRef .tc Cert.ReferenceIdeal.main_arg7))
    ∧ (W5 m ρ c (Idealize.ShloMosaic.Proc.devRef .tc Cert.KernelIdeal.main_arg8) = U3 m' c (Idealize.ShloMosaic.Proc.devRef .tc Cert.ReferenceIdeal.main_arg8))
    ∧ (W5 m ρ c (Idealize.ShloMosaic.Proc.devRef .tc Cert.KernelIdeal.main_arg9) = U3 m' c (Idealize.ShloMosaic.Proc.devRef .tc Cert.ReferenceIdeal.main_arg9))
    ∧ (W5 m ρ c (Idealize.ShloMosaic.Proc.devRef .tc Cert.KernelIdeal.main_arg10) = U3 m' c (Idealize.ShloMosaic.Proc.devRef .tc Cert.ReferenceIdeal.main_arg10))
    ∧ (W5 m ρ c (Idealize.ShloMosaic.Proc.devRef .tc Cert.KernelIdeal.main_arg11) = U3 m' c (Idealize.ShloMosaic.Proc.devRef .tc Cert.ReferenceIdeal.main_arg11))
    ∧ (W5 m ρ c (Idealize.ShloMosaic.Proc.devRef .tc Cert.KernelIdeal.main_arg12) = U3 m' c (Idealize.ShloMosaic.Proc.devRef .tc Cert.ReferenceIdeal.main_arg12))
    ∧ (W5 m ρ c (Idealize.ShloMosaic.Proc.devRef .tc Cert.KernelIdeal.main_arg13) = U3 m' c (Idealize.ShloMosaic.Proc.devRef .tc Cert.ReferenceIdeal.main_arg13))
    ∧ (W5 m ρ c (Idealize.ShloMosaic.Proc.devRef .tc Cert.KernelIdeal.main_arg14) = U3 m' c (Idealize.ShloMosaic.Proc.devRef .tc Cert.ReferenceIdeal.main_arg14))
    ∧ (W5 m ρ c (Idealize.ShloMosaic.Proc.devRef .tc Cert.KernelIdeal.main_arg15) = U3 m' c (Idealize.ShloMosaic.Proc.devRef .tc Cert.ReferenceIdeal.main_arg15)) := by
  obtain ⟨e_v46, e_v26, e_v6, e_v3, e_arg5, e_arg6, e_arg7, e_arg8, e_arg9, e_arg10, e_arg11, e_arg12, e_arg13, e_arg14, e_arg15⟩ := b4 m ρ m' c hargs
  exact ⟨Cert.Bridge.Layer1.out_eq (W4 m ρ c) (U2 m' c) e_v46 e_v3 e_v6 e_v26 e_arg5,
    (Cert.KernelIdeal.Keep.hostOps1_keep (W4 m ρ c) Cert.KernelIdeal.main_v26 (by decide)).trans ((e_v26).trans ((refB1_keep (after refB0 (U2 m' c)) Cert.ReferenceIdeal.main_v26 (by decide)).trans (refB0_keep (U2 m' c) Cert.ReferenceIdeal.main_v26 (by decide))).symm),
    (Cert.KernelIdeal.Keep.hostOps1_keep (W4 m ρ c) Cert.KernelIdeal.main_v6 (by decide)).trans ((e_v6).trans ((refB1_keep (after refB0 (U2 m' c)) Cert.ReferenceIdeal.main_v6 (by decide)).trans (refB0_keep (U2 m' c) Cert.ReferenceIdeal.main_v6 (by decide))).symm),
    (Cert.KernelIdeal.Keep.hostOps1_keep (W4 m ρ c) Cert.KernelIdeal.main_v3 (by decide)).trans ((e_v3).trans ((refB1_keep (after refB0 (U2 m' c)) Cert.ReferenceIdeal.main_v3 (by decide)).trans (refB0_keep (U2 m' c) Cert.ReferenceIdeal.main_v3 (by decide))).symm),
    (Cert.KernelIdeal.Keep.hostOps1_keep (W4 m ρ c) Cert.KernelIdeal.main_arg6 (by decide)).trans ((e_arg6).trans ((refB1_keep (after refB0 (U2 m' c)) Cert.ReferenceIdeal.main_arg6 (by decide)).trans (refB0_keep (U2 m' c) Cert.ReferenceIdeal.main_arg6 (by decide))).symm),
    (Cert.KernelIdeal.Keep.hostOps1_keep (W4 m ρ c) Cert.KernelIdeal.main_arg7 (by decide)).trans ((e_arg7).trans ((refB1_keep (after refB0 (U2 m' c)) Cert.ReferenceIdeal.main_arg7 (by decide)).trans (refB0_keep (U2 m' c) Cert.ReferenceIdeal.main_arg7 (by decide))).symm),
    (Cert.KernelIdeal.Keep.hostOps1_keep (W4 m ρ c) Cert.KernelIdeal.main_arg8 (by decide)).trans ((e_arg8).trans ((refB1_keep (after refB0 (U2 m' c)) Cert.ReferenceIdeal.main_arg8 (by decide)).trans (refB0_keep (U2 m' c) Cert.ReferenceIdeal.main_arg8 (by decide))).symm),
    (Cert.KernelIdeal.Keep.hostOps1_keep (W4 m ρ c) Cert.KernelIdeal.main_arg9 (by decide)).trans ((e_arg9).trans ((refB1_keep (after refB0 (U2 m' c)) Cert.ReferenceIdeal.main_arg9 (by decide)).trans (refB0_keep (U2 m' c) Cert.ReferenceIdeal.main_arg9 (by decide))).symm),
    (Cert.KernelIdeal.Keep.hostOps1_keep (W4 m ρ c) Cert.KernelIdeal.main_arg10 (by decide)).trans ((e_arg10).trans ((refB1_keep (after refB0 (U2 m' c)) Cert.ReferenceIdeal.main_arg10 (by decide)).trans (refB0_keep (U2 m' c) Cert.ReferenceIdeal.main_arg10 (by decide))).symm),
    (Cert.KernelIdeal.Keep.hostOps1_keep (W4 m ρ c) Cert.KernelIdeal.main_arg11 (by decide)).trans ((e_arg11).trans ((refB1_keep (after refB0 (U2 m' c)) Cert.ReferenceIdeal.main_arg11 (by decide)).trans (refB0_keep (U2 m' c) Cert.ReferenceIdeal.main_arg11 (by decide))).symm),
    (Cert.KernelIdeal.Keep.hostOps1_keep (W4 m ρ c) Cert.KernelIdeal.main_arg12 (by decide)).trans ((e_arg12).trans ((refB1_keep (after refB0 (U2 m' c)) Cert.ReferenceIdeal.main_arg12 (by decide)).trans (refB0_keep (U2 m' c) Cert.ReferenceIdeal.main_arg12 (by decide))).symm),
    (Cert.KernelIdeal.Keep.hostOps1_keep (W4 m ρ c) Cert.KernelIdeal.main_arg13 (by decide)).trans ((e_arg13).trans ((refB1_keep (after refB0 (U2 m' c)) Cert.ReferenceIdeal.main_arg13 (by decide)).trans (refB0_keep (U2 m' c) Cert.ReferenceIdeal.main_arg13 (by decide))).symm),
    (Cert.KernelIdeal.Keep.hostOps1_keep (W4 m ρ c) Cert.KernelIdeal.main_arg14 (by decide)).trans ((e_arg14).trans ((refB1_keep (after refB0 (U2 m' c)) Cert.ReferenceIdeal.main_arg14 (by decide)).trans (refB0_keep (U2 m' c) Cert.ReferenceIdeal.main_arg14 (by decide))).symm),
    (Cert.KernelIdeal.Keep.hostOps1_keep (W4 m ρ c) Cert.KernelIdeal.main_arg15 (by decide)).trans ((e_arg15).trans ((refB1_keep (after refB0 (U2 m' c)) Cert.ReferenceIdeal.main_arg15 (by decide)).trans (refB0_keep (U2 m' c) Cert.ReferenceIdeal.main_arg15 (by decide))).symm)⟩

include hargs in
/-- The buffers read later agree at boundary 6. -/
theorem b6 :
    (W6 m ρ c (Idealize.ShloMosaic.Proc.devRef .tc Cert.KernelIdeal.main_v63) = U4 m' c (Idealize.ShloMosaic.Proc.devRef .tc Cert.ReferenceIdeal.main_v63))
    ∧ (W6 m ρ c (Idealize.ShloMosaic.Proc.devRef .tc Cert.KernelIdeal.main_v26) = U4 m' c (Idealize.ShloMosaic.Proc.devRef .tc Cert.ReferenceIdeal.main_v26))
    ∧ (W6 m ρ c (Idealize.ShloMosaic.Proc.devRef .tc Cert.KernelIdeal.main_v6) = U4 m' c (Idealize.ShloMosaic.Proc.devRef .tc Cert.ReferenceIdeal.main_v6))
    ∧ (W6 m ρ c (Idealize.ShloMosaic.Proc.devRef .tc Cert.KernelIdeal.main_v3) = U4 m' c (Idealize.ShloMosaic.Proc.devRef .tc Cert.ReferenceIdeal.main_v3))
    ∧ (W6 m ρ c (Idealize.ShloMosaic.Proc.devRef .tc Cert.KernelIdeal.main_arg7) = U4 m' c (Idealize.ShloMosaic.Proc.devRef .tc Cert.ReferenceIdeal.main_arg7))
    ∧ (W6 m ρ c (Idealize.ShloMosaic.Proc.devRef .tc Cert.KernelIdeal.main_arg8) = U4 m' c (Idealize.ShloMosaic.Proc.devRef .tc Cert.ReferenceIdeal.main_arg8))
    ∧ (W6 m ρ c (Idealize.ShloMosaic.Proc.devRef .tc Cert.KernelIdeal.main_arg9) = U4 m' c (Idealize.ShloMosaic.Proc.devRef .tc Cert.ReferenceIdeal.main_arg9))
    ∧ (W6 m ρ c (Idealize.ShloMosaic.Proc.devRef .tc Cert.KernelIdeal.main_arg10) = U4 m' c (Idealize.ShloMosaic.Proc.devRef .tc Cert.ReferenceIdeal.main_arg10))
    ∧ (W6 m ρ c (Idealize.ShloMosaic.Proc.devRef .tc Cert.KernelIdeal.main_arg11) = U4 m' c (Idealize.ShloMosaic.Proc.devRef .tc Cert.ReferenceIdeal.main_arg11))
    ∧ (W6 m ρ c (Idealize.ShloMosaic.Proc.devRef .tc Cert.KernelIdeal.main_arg12) = U4 m' c (Idealize.ShloMosaic.Proc.devRef .tc Cert.ReferenceIdeal.main_arg12))
    ∧ (W6 m ρ c (Idealize.ShloMosaic.Proc.devRef .tc Cert.KernelIdeal.main_arg13) = U4 m' c (Idealize.ShloMosaic.Proc.devRef .tc Cert.ReferenceIdeal.main_arg13))
    ∧ (W6 m ρ c (Idealize.ShloMosaic.Proc.devRef .tc Cert.KernelIdeal.main_arg14) = U4 m' c (Idealize.ShloMosaic.Proc.devRef .tc Cert.ReferenceIdeal.main_arg14))
    ∧ (W6 m ρ c (Idealize.ShloMosaic.Proc.devRef .tc Cert.KernelIdeal.main_arg15) = U4 m' c (Idealize.ShloMosaic.Proc.devRef .tc Cert.ReferenceIdeal.main_arg15)) := by
  obtain ⟨e_v62, e_v26, e_v6, e_v3, e_arg6, e_arg7, e_arg8, e_arg9, e_arg10, e_arg11, e_arg12, e_arg13, e_arg14, e_arg15⟩ := b5 m ρ m' c hargs
  exact ⟨by
      refine ((Cert.KernelIdeal.Gen.W6_arr m ρ c 2).trans (Cert.KernelIdeal.Region1.final (Cert.KernelIdeal.Gen.V5 m ρ) c)).trans ?_
      refine Eq.trans ?_ (Cert.Bridge.Dots.d1 (U3 m' c)).symm
      show Host.dotGeneral (F := Ideal) (φ₁ := .f32) (φ₂ := .f32) (DotDims.plain 50000 256 256) none
          (W5 m ρ c (Idealize.ShloMosaic.Proc.devRef .tc Cert.KernelIdeal.main_v62)) (W5 m ρ c (Idealize.ShloMosaic.Proc.devRef .tc Cert.KernelIdeal.main_arg6))
        = Host.dotGeneral (F := Ideal) (φ₁ := .f32) (φ₂ := .f32) (DotDims.plain 50000 256 256) none
          (U3 m' c (Idealize.ShloMosaic.Proc.devRef .tc Cert.ReferenceIdeal.main_v62)) (U3 m' c (Idealize.ShloMosaic.Proc.devRef .tc Cert.ReferenceIdeal.main_arg6))
      rw [e_v62, e_arg6],
    (Cert.KernelIdeal.Gen.W6_of_ne m ρ c Cert.KernelIdeal.main_v26 (by decide)).trans ((e_v26).trans (refD1_keep (U3 m' c) Cert.ReferenceIdeal.main_v26 (by decide)).symm),
    (Cert.KernelIdeal.Gen.W6_of_ne m ρ c Cert.KernelIdeal.main_v6 (by decide)).trans ((e_v6).trans (refD1_keep (U3 m' c) Cert.ReferenceIdeal.main_v6 (by decide)).symm),
    (Cert.KernelIdeal.Gen.W6_of_ne m ρ c Cert.KernelIdeal.main_v3 (by decide)).trans ((e_v3).trans (refD1_keep (U3 m' c) Cert.ReferenceIdeal.main_v3 (by decide)).symm),
    (Cert.KernelIdeal.Gen.W6_of_ne m ρ c Cert.KernelIdeal.main_arg7 (by decide)).trans ((e_arg7).trans (refD1_keep (U3 m' c) Cert.ReferenceIdeal.main_arg7 (by decide)).symm),
    (Cert.KernelIdeal.Gen.W6_of_ne m ρ c Cert.KernelIdeal.main_arg8 (by decide)).trans ((e_arg8).trans (refD1_keep (U3 m' c) Cert.ReferenceIdeal.main_arg8 (by decide)).symm),
    (Cert.KernelIdeal.Gen.W6_of_ne m ρ c Cert.KernelIdeal.main_arg9 (by decide)).trans ((e_arg9).trans (refD1_keep (U3 m' c) Cert.ReferenceIdeal.main_arg9 (by decide)).symm),
    (Cert.KernelIdeal.Gen.W6_of_ne m ρ c Cert.KernelIdeal.main_arg10 (by decide)).trans ((e_arg10).trans (refD1_keep (U3 m' c) Cert.ReferenceIdeal.main_arg10 (by decide)).symm),
    (Cert.KernelIdeal.Gen.W6_of_ne m ρ c Cert.KernelIdeal.main_arg11 (by decide)).trans ((e_arg11).trans (refD1_keep (U3 m' c) Cert.ReferenceIdeal.main_arg11 (by decide)).symm),
    (Cert.KernelIdeal.Gen.W6_of_ne m ρ c Cert.KernelIdeal.main_arg12 (by decide)).trans ((e_arg12).trans (refD1_keep (U3 m' c) Cert.ReferenceIdeal.main_arg12 (by decide)).symm),
    (Cert.KernelIdeal.Gen.W6_of_ne m ρ c Cert.KernelIdeal.main_arg13 (by decide)).trans ((e_arg13).trans (refD1_keep (U3 m' c) Cert.ReferenceIdeal.main_arg13 (by decide)).symm),
    (Cert.KernelIdeal.Gen.W6_of_ne m ρ c Cert.KernelIdeal.main_arg14 (by decide)).trans ((e_arg14).trans (refD1_keep (U3 m' c) Cert.ReferenceIdeal.main_arg14 (by decide)).symm),
    (Cert.KernelIdeal.Gen.W6_of_ne m ρ c Cert.KernelIdeal.main_arg15 (by decide)).trans ((e_arg15).trans (refD1_keep (U3 m' c) Cert.ReferenceIdeal.main_arg15 (by decide)).symm)⟩

include hargs in
/-- The buffers read later agree at boundary 7. -/
theorem b7 :
    (W7 m ρ c (Idealize.ShloMosaic.Proc.devRef .tc Cert.KernelIdeal.main_v79) = U5 m' c (Idealize.ShloMosaic.Proc.devRef .tc Cert.ReferenceIdeal.main_v79))
    ∧ (W7 m ρ c (Idealize.ShloMosaic.Proc.devRef .tc Cert.KernelIdeal.main_v26) = U5 m' c (Idealize.ShloMosaic.Proc.devRef .tc Cert.ReferenceIdeal.main_v26))
    ∧ (W7 m ρ c (Idealize.ShloMosaic.Proc.devRef .tc Cert.KernelIdeal.main_v6) = U5 m' c (Idealize.ShloMosaic.Proc.devRef .tc Cert.ReferenceIdeal.main_v6))
    ∧ (W7 m ρ c (Idealize.ShloMosaic.Proc.devRef .tc Cert.KernelIdeal.main_v3) = U5 m' c (Idealize.ShloMosaic.Proc.devRef .tc Cert.ReferenceIdeal.main_v3))
    ∧ (W7 m ρ c (Idealize.ShloMosaic.Proc.devRef .tc Cert.KernelIdeal.main_arg8) = U5 m' c (Idealize.ShloMosaic.Proc.devRef .tc Cert.ReferenceIdeal.main_arg8))
    ∧ (W7 m ρ c (Idealize.ShloMosaic.Proc.devRef .tc Cert.KernelIdeal.main_arg9) = U5 m' c (Idealize.ShloMosaic.Proc.devRef .tc Cert.ReferenceIdeal.main_arg9))
    ∧ (W7 m ρ c (Idealize.ShloMosaic.Proc.devRef .tc Cert.KernelIdeal.main_arg10) = U5 m' c (Idealize.ShloMosaic.Proc.devRef .tc Cert.ReferenceIdeal.main_arg10))
    ∧ (W7 m ρ c (Idealize.ShloMosaic.Proc.devRef .tc Cert.KernelIdeal.main_arg11) = U5 m' c (Idealize.ShloMosaic.Proc.devRef .tc Cert.ReferenceIdeal.main_arg11))
    ∧ (W7 m ρ c (Idealize.ShloMosaic.Proc.devRef .tc Cert.KernelIdeal.main_arg12) = U5 m' c (Idealize.ShloMosaic.Proc.devRef .tc Cert.ReferenceIdeal.main_arg12))
    ∧ (W7 m ρ c (Idealize.ShloMosaic.Proc.devRef .tc Cert.KernelIdeal.main_arg13) = U5 m' c (Idealize.ShloMosaic.Proc.devRef .tc Cert.ReferenceIdeal.main_arg13))
    ∧ (W7 m ρ c (Idealize.ShloMosaic.Proc.devRef .tc Cert.KernelIdeal.main_arg14) = U5 m' c (Idealize.ShloMosaic.Proc.devRef .tc Cert.ReferenceIdeal.main_arg14))
    ∧ (W7 m ρ c (Idealize.ShloMosaic.Proc.devRef .tc Cert.KernelIdeal.main_arg15) = U5 m' c (Idealize.ShloMosaic.Proc.devRef .tc Cert.ReferenceIdeal.main_arg15)) := by
  obtain ⟨e_v63, e_v26, e_v6, e_v3, e_arg7, e_arg8, e_arg9, e_arg10, e_arg11, e_arg12, e_arg13, e_arg14, e_arg15⟩ := b6 m ρ m' c hargs
  exact ⟨Cert.Bridge.Layer2.out_eq (W6 m ρ c) (U4 m' c) e_v63 e_v3 e_v6 e_v26 e_arg7,
    (Cert.KernelIdeal.Keep.hostOps2_keep (W6 m ρ c) Cert.KernelIdeal.main_v26 (by decide)).trans ((e_v26).trans (refC_keep (U4 m' c) Cert.ReferenceIdeal.main_v26 (by decide)).symm),
    (Cert.KernelIdeal.Keep.hostOps2_keep (W6 m ρ c) Cert.KernelIdeal.main_v6 (by decide)).trans ((e_v6).trans (refC_keep (U4 m' c) Cert.ReferenceIdeal.main_v6 (by decide)).symm),
    (Cert.KernelIdeal.Keep.hostOps2_keep (W6 m ρ c) Cert.KernelIdeal.main_v3 (by decide)).trans ((e_v3).trans (refC_keep (U4 m' c) Cert.ReferenceIdeal.main_v3 (by decide)).symm),
    (Cert.KernelIdeal.Keep.hostOps2_keep (W6 m ρ c) Cert.KernelIdeal.main_arg8 (by decide)).trans ((e_arg8).trans (refC_keep (U4 m' c) Cert.ReferenceIdeal.main_arg8 (by decide)).symm),
    (Cert.KernelIdeal.Keep.hostOps2_keep (W6 m ρ c) Cert.KernelIdeal.main_arg9 (by decide)).trans ((e_arg9).trans (refC_keep (U4 m' c) Cert.ReferenceIdeal.main_arg9 (by decide)).symm),
    (Cert.KernelIdeal.Keep.hostOps2_keep (W6 m ρ c) Cert.KernelIdeal.main_arg10 (by decide)).trans ((e_arg10).trans (refC_keep (U4 m' c) Cert.ReferenceIdeal.main_arg10 (by decide)).symm),
    (Cert.KernelIdeal.Keep.hostOps2_keep (W6 m ρ c) Cert.KernelIdeal.main_arg11 (by decide)).trans ((e_arg11).trans (refC_keep (U4 m' c) Cert.ReferenceIdeal.main_arg11 (by decide)).symm),
    (Cert.KernelIdeal.Keep.hostOps2_keep (W6 m ρ c) Cert.KernelIdeal.main_arg12 (by decide)).trans ((e_arg12).trans (refC_keep (U4 m' c) Cert.ReferenceIdeal.main_arg12 (by decide)).symm),
    (Cert.KernelIdeal.Keep.hostOps2_keep (W6 m ρ c) Cert.KernelIdeal.main_arg13 (by decide)).trans ((e_arg13).trans (refC_keep (U4 m' c) Cert.ReferenceIdeal.main_arg13 (by decide)).symm),
    (Cert.KernelIdeal.Keep.hostOps2_keep (W6 m ρ c) Cert.KernelIdeal.main_arg14 (by decide)).trans ((e_arg14).trans (refC_keep (U4 m' c) Cert.ReferenceIdeal.main_arg14 (by decide)).symm),
    (Cert.KernelIdeal.Keep.hostOps2_keep (W6 m ρ c) Cert.KernelIdeal.main_arg15 (by decide)).trans ((e_arg15).trans (refC_keep (U4 m' c) Cert.ReferenceIdeal.main_arg15 (by decide)).symm)⟩

include hargs in
/-- The buffers read later agree at boundary 8. -/
theorem b8 :
    (W8 m ρ c (Idealize.ShloMosaic.Proc.devRef .tc Cert.KernelIdeal.main_v80) = U6 m' c (Idealize.ShloMosaic.Proc.devRef .tc Cert.ReferenceIdeal.main_v80))
    ∧ (W8 m ρ c (Idealize.ShloMosaic.Proc.devRef .tc Cert.KernelIdeal.main_v26) = U6 m' c (Idealize.ShloMosaic.Proc.devRef .tc Cert.ReferenceIdeal.main_v26))
    ∧ (W8 m ρ c (Idealize.ShloMosaic.Proc.devRef .tc Cert.KernelIdeal.main_v6) = U6 m' c (Idealize.ShloMosaic.Proc.devRef .tc Cert.ReferenceIdeal.main_v6))
    ∧ (W8 m ρ c (Idealize.ShloMosaic.Proc.devRef .tc Cert.KernelIdeal.main_v3) = U6 m' c (Idealize.ShloMosaic.Proc.devRef .tc Cert.ReferenceIdeal.main_v3))
    ∧ (W8 m ρ c (Idealize.ShloMosaic.Proc.devRef .tc Cert.KernelIdeal.main_arg9) = U6 m' c (Idealize.ShloMosaic.Proc.devRef .tc Cert.ReferenceIdeal.main_arg9))
    ∧ (W8 m ρ c (Idealize.ShloMosaic.Proc.devRef .tc Cert.KernelIdeal.main_arg10) = U6 m' c (Idealize.ShloMosaic.Proc.devRef .tc Cert.ReferenceIdeal.main_arg10))
    ∧ (W8 m ρ c (Idealize.ShloMosaic.Proc.devRef .tc Cert.KernelIdeal.main_arg11) = U6 m' c (Idealize.ShloMosaic.Proc.devRef .tc Cert.ReferenceIdeal.main_arg11))
    ∧ (W8 m ρ c (Idealize.ShloMosaic.Proc.devRef .tc Cert.KernelIdeal.main_arg12) = U6 m' c (Idealize.ShloMosaic.Proc.devRef .tc Cert.ReferenceIdeal.main_arg12))
    ∧ (W8 m ρ c (Idealize.ShloMosaic.Proc.devRef .tc Cert.KernelIdeal.main_arg13) = U6 m' c (Idealize.ShloMosaic.Proc.devRef .tc Cert.ReferenceIdeal.main_arg13))
    ∧ (W8 m ρ c (Idealize.ShloMosaic.Proc.devRef .tc Cert.KernelIdeal.main_arg14) = U6 m' c (Idealize.ShloMosaic.Proc.devRef .tc Cert.ReferenceIdeal.main_arg14))
    ∧ (W8 m ρ c (Idealize.ShloMosaic.Proc.devRef .tc Cert.KernelIdeal.main_arg15) = U6 m' c (Idealize.ShloMosaic.Proc.devRef .tc Cert.ReferenceIdeal.main_arg15)) := by
  obtain ⟨e_v79, e_v26, e_v6, e_v3, e_arg8, e_arg9, e_arg10, e_arg11, e_arg12, e_arg13, e_arg14, e_arg15⟩ := b7 m ρ m' c hargs
  exact ⟨by
      refine ((Cert.KernelIdeal.Gen.W8_arr m ρ c 2).trans (Cert.KernelIdeal.Region2.final (Cert.KernelIdeal.Gen.V7 m ρ) c)).trans ?_
      refine Eq.trans ?_ (Cert.Bridge.Dots.d2 (U5 m' c)).symm
      show Host.dotGeneral (F := Ideal) (φ₁ := .f32) (φ₂ := .f32) (DotDims.plain 50000 256 256) none
          (W7 m ρ c (Idealize.ShloMosaic.Proc.devRef .tc Cert.KernelIdeal.main_v79)) (W7 m ρ c (Idealize.ShloMosaic.Proc.devRef .tc Cert.KernelIdeal.main_arg8))
        = Host.dotGeneral (F := Ideal) (φ₁ := .f32) (φ₂ := .f32) (DotDims.plain 50000 256 256) none
          (U5 m' c (Idealize.ShloMosaic.Proc.devRef .tc Cert.ReferenceIdeal.main_v79)) (U5 m' c (Idealize.ShloMosaic.Proc.devRef .tc Cert.ReferenceIdeal.main_arg8))
      rw [e_v79, e_arg8],
    (Cert.KernelIdeal.Gen.W8_of_ne m ρ c Cert.KernelIdeal.main_v26 (by decide)).trans ((e_v26).trans (refD2_keep (U5 m' c) Cert.ReferenceIdeal.main_v26 (by decide)).symm),
    (Cert.KernelIdeal.Gen.W8_of_ne m ρ c Cert.KernelIdeal.main_v6 (by decide)).trans ((e_v6).trans (refD2_keep (U5 m' c) Cert.ReferenceIdeal.main_v6 (by decide)).symm),
    (Cert.KernelIdeal.Gen.W8_of_ne m ρ c Cert.KernelIdeal.main_v3 (by decide)).trans ((e_v3).trans (refD2_keep (U5 m' c) Cert.ReferenceIdeal.main_v3 (by decide)).symm),
    (Cert.KernelIdeal.Gen.W8_of_ne m ρ c Cert.KernelIdeal.main_arg9 (by decide)).trans ((e_arg9).trans (refD2_keep (U5 m' c) Cert.ReferenceIdeal.main_arg9 (by decide)).symm),
    (Cert.KernelIdeal.Gen.W8_of_ne m ρ c Cert.KernelIdeal.main_arg10 (by decide)).trans ((e_arg10).trans (refD2_keep (U5 m' c) Cert.ReferenceIdeal.main_arg10 (by decide)).symm),
    (Cert.KernelIdeal.Gen.W8_of_ne m ρ c Cert.KernelIdeal.main_arg11 (by decide)).trans ((e_arg11).trans (refD2_keep (U5 m' c) Cert.ReferenceIdeal.main_arg11 (by decide)).symm),
    (Cert.KernelIdeal.Gen.W8_of_ne m ρ c Cert.KernelIdeal.main_arg12 (by decide)).trans ((e_arg12).trans (refD2_keep (U5 m' c) Cert.ReferenceIdeal.main_arg12 (by decide)).symm),
    (Cert.KernelIdeal.Gen.W8_of_ne m ρ c Cert.KernelIdeal.main_arg13 (by decide)).trans ((e_arg13).trans (refD2_keep (U5 m' c) Cert.ReferenceIdeal.main_arg13 (by decide)).symm),
    (Cert.KernelIdeal.Gen.W8_of_ne m ρ c Cert.KernelIdeal.main_arg14 (by decide)).trans ((e_arg14).trans (refD2_keep (U5 m' c) Cert.ReferenceIdeal.main_arg14 (by decide)).symm),
    (Cert.KernelIdeal.Gen.W8_of_ne m ρ c Cert.KernelIdeal.main_arg15 (by decide)).trans ((e_arg15).trans (refD2_keep (U5 m' c) Cert.ReferenceIdeal.main_arg15 (by decide)).symm)⟩

include hargs in
/-- The buffers read later agree at boundary 9. -/
theorem b9 :
    (W9 m ρ c (Idealize.ShloMosaic.Proc.devRef .tc Cert.KernelIdeal.main_v96) = U7 m' c (Idealize.ShloMosaic.Proc.devRef .tc Cert.ReferenceIdeal.main_v96))
    ∧ (W9 m ρ c (Idealize.ShloMosaic.Proc.devRef .tc Cert.KernelIdeal.main_v26) = U7 m' c (Idealize.ShloMosaic.Proc.devRef .tc Cert.ReferenceIdeal.main_v26))
    ∧ (W9 m ρ c (Idealize.ShloMosaic.Proc.devRef .tc Cert.KernelIdeal.main_v6) = U7 m' c (Idealize.ShloMosaic.Proc.devRef .tc Cert.ReferenceIdeal.main_v6))
    ∧ (W9 m ρ c (Idealize.ShloMosaic.Proc.devRef .tc Cert.KernelIdeal.main_v3) = U7 m' c (Idealize.ShloMosaic.Proc.devRef .tc Cert.ReferenceIdeal.main_v3))
    ∧ (W9 m ρ c (Idealize.ShloMosaic.Proc.devRef .tc Cert.KernelIdeal.main_arg10) = U7 m' c (Idealize.ShloMosaic.Proc.devRef .tc Cert.ReferenceIdeal.main_arg10))
    ∧ (W9 m ρ c (Idealize.ShloMosaic.Proc.devRef .tc Cert.KernelIdeal.main_arg11) = U7 m' c (Idealize.ShloMosaic.Proc.devRef .tc Cert.ReferenceIdeal.main_arg11))
    ∧ (W9 m ρ c (Idealize.ShloMosaic.Proc.devRef .tc Cert.KernelIdeal.main_arg12) = U7 m' c (Idealize.ShloMosaic.Proc.devRef .tc Cert.ReferenceIdeal.main_arg12))
    ∧ (W9 m ρ c (Idealize.ShloMosaic.Proc.devRef .tc Cert.KernelIdeal.main_arg13) = U7 m' c (Idealize.ShloMosaic.Proc.devRef .tc Cert.ReferenceIdeal.main_arg13))
    ∧ (W9 m ρ c (Idealize.ShloMosaic.Proc.devRef .tc Cert.KernelIdeal.main_arg14) = U7 m' c (Idealize.ShloMosaic.Proc.devRef .tc Cert.ReferenceIdeal.main_arg14))
    ∧ (W9 m ρ c (Idealize.ShloMosaic.Proc.devRef .tc Cert.KernelIdeal.main_arg15) = U7 m' c (Idealize.ShloMosaic.Proc.devRef .tc Cert.ReferenceIdeal.main_arg15)) := by
  obtain ⟨e_v80, e_v26, e_v6, e_v3, e_arg9, e_arg10, e_arg11, e_arg12, e_arg13, e_arg14, e_arg15⟩ := b8 m ρ m' c hargs
  exact ⟨Cert.Bridge.Layer3.out_eq (W8 m ρ c) (U6 m' c) e_v80 e_v3 e_v6 e_v26 e_arg9,
    (Cert.KernelIdeal.Keep.hostOps3_keep (W8 m ρ c) Cert.KernelIdeal.main_v26 (by decide)).trans ((e_v26).trans (refE_keep (U6 m' c) Cert.ReferenceIdeal.main_v26 (by decide)).symm),
    (Cert.KernelIdeal.Keep.hostOps3_keep (W8 m ρ c) Cert.KernelIdeal.main_v6 (by decide)).trans ((e_v6).trans (refE_keep (U6 m' c) Cert.ReferenceIdeal.main_v6 (by decide)).symm),
    (Cert.KernelIdeal.Keep.hostOps3_keep (W8 m ρ c) Cert.KernelIdeal.main_v3 (by decide)).trans ((e_v3).trans (refE_keep (U6 m' c) Cert.ReferenceIdeal.main_v3 (by decide)).symm),
    (Cert.KernelIdeal.Keep.hostOps3_keep (W8 m ρ c) Cert.KernelIdeal.main_arg10 (by decide)).trans ((e_arg10).trans (refE_keep (U6 m' c) Cert.ReferenceIdeal.main_arg10 (by decide)).symm),
    (Cert.KernelIdeal.Keep.hostOps3_keep (W8 m ρ c) Cert.KernelIdeal.main_arg11 (by decide)).trans ((e_arg11).trans (refE_keep (U6 m' c) Cert.ReferenceIdeal.main_arg11 (by decide)).symm),
    (Cert.KernelIdeal.Keep.hostOps3_keep (W8 m ρ c) Cert.KernelIdeal.main_arg12 (by decide)).trans ((e_arg12).trans (refE_keep (U6 m' c) Cert.ReferenceIdeal.main_arg12 (by decide)).symm),
    (Cert.KernelIdeal.Keep.hostOps3_keep (W8 m ρ c) Cert.KernelIdeal.main_arg13 (by decide)).trans ((e_arg13).trans (refE_keep (U6 m' c) Cert.ReferenceIdeal.main_arg13 (by decide)).symm),
    (Cert.KernelIdeal.Keep.hostOps3_keep (W8 m ρ c) Cert.KernelIdeal.main_arg14 (by decide)).trans ((e_arg14).trans (refE_keep (U6 m' c) Cert.ReferenceIdeal.main_arg14 (by decide)).symm),
    (Cert.KernelIdeal.Keep.hostOps3_keep (W8 m ρ c) Cert.KernelIdeal.main_arg15 (by decide)).trans ((e_arg15).trans (refE_keep (U6 m' c) Cert.ReferenceIdeal.main_arg15 (by decide)).symm)⟩

include hargs in
/-- The buffers read later agree at boundary 10. -/
theorem b10 :
    (W10 m ρ c (Idealize.ShloMosaic.Proc.devRef .tc Cert.KernelIdeal.main_v97) = U8 m' c (Idealize.ShloMosaic.Proc.devRef .tc Cert.ReferenceIdeal.main_v97))
    ∧ (W10 m ρ c (Idealize.ShloMosaic.Proc.devRef .tc Cert.KernelIdeal.main_v26) = U8 m' c (Idealize.ShloMosaic.Proc.devRef .tc Cert.ReferenceIdeal.main_v26))
    ∧ (W10 m ρ c (Idealize.ShloMosaic.Proc.devRef .tc Cert.KernelIdeal.main_v6) = U8 m' c (Idealize.ShloMosaic.Proc.devRef .tc Cert.ReferenceIdeal.main_v6))
    ∧ (W10 m ρ c (Idealize.ShloMosaic.Proc.devRef .tc Cert.KernelIdeal.main_v3) = U8 m' c (Idealize.ShloMosaic.Proc.devRef .tc Cert.ReferenceIdeal.main_v3))
    ∧ (W10 m ρ c (Idealize.ShloMosaic.Proc.devRef .tc Cert.KernelIdeal.main_arg11) = U8 m' c (Idealize.ShloMosaic.Proc.devRef .tc Cert.ReferenceIdeal.main_arg11))
    ∧ (W10 m ρ c (Idealize.ShloMosaic.Proc.devRef .tc Cert.KernelIdeal.main_arg12) = U8 m' c (Idealize.ShloMosaic.Proc.devRef .tc Cert.ReferenceIdeal.main_arg12))
    ∧ (W10 m ρ c (Idealize.ShloMosaic.Proc.devRef .tc Cert.KernelIdeal.main_arg13) = U8 m' c (Idealize.ShloMosaic.Proc.devRef .tc Cert.ReferenceIdeal.main_arg13))
    ∧ (W10 m ρ c (Idealize.ShloMosaic.Proc.devRef .tc Cert.KernelIdeal.main_arg14) = U8 m' c (Idealize.ShloMosaic.Proc.devRef .tc Cert.ReferenceIdeal.main_arg14))
    ∧ (W10 m ρ c (Idealize.ShloMosaic.Proc.devRef .tc Cert.KernelIdeal.main_arg15) = U8 m' c (Idealize.ShloMosaic.Proc.devRef .tc Cert.ReferenceIdeal.main_arg15)) := by
  obtain ⟨e_v96, e_v26, e_v6, e_v3, e_arg10, e_arg11, e_arg12, e_arg13, e_arg14, e_arg15⟩ := b9 m ρ m' c hargs
  exact ⟨by
      refine ((Cert.KernelIdeal.Gen.W10_arr m ρ c 2).trans (Cert.KernelIdeal.Region3.final (Cert.KernelIdeal.Gen.V9 m ρ) c)).trans ?_
      refine Eq.trans ?_ (Cert.Bridge.Dots.d3 (U7 m' c)).symm
      show Host.dotGeneral (F := Ideal) (φ₁ := .f32) (φ₂ := .f32) (DotDims.plain 50000 256 256) none
          (W9 m ρ c (Idealize.ShloMosaic.Proc.devRef .tc Cert.KernelIdeal.main_v96)) (W9 m ρ c (Idealize.ShloMosaic.Proc.devRef .tc Cert.KernelIdeal.main_arg10))
        = Host.dotGeneral (F := Ideal) (φ₁ := .f32) (φ₂ := .f32) (DotDims.plain 50000 256 256) none
          (U7 m' c (Idealize.ShloMosaic.Proc.devRef .tc Cert.ReferenceIdeal.main_v96)) (U7 m' c (Idealize.ShloMosaic.Proc.devRef .tc Cert.ReferenceIdeal.main_arg10))
      rw [e_v96, e_arg10],
    (Cert.KernelIdeal.Gen.W10_of_ne m ρ c Cert.KernelIdeal.main_v26 (by decide)).trans ((e_v26).trans (refD3_keep (U7 m' c) Cert.ReferenceIdeal.main_v26 (by decide)).symm),
    (Cert.KernelIdeal.Gen.W10_of_ne m ρ c Cert.KernelIdeal.main_v6 (by decide)).trans ((e_v6).trans (refD3_keep (U7 m' c) Cert.ReferenceIdeal.main_v6 (by decide)).symm),
    (Cert.KernelIdeal.Gen.W10_of_ne m ρ c Cert.KernelIdeal.main_v3 (by decide)).trans ((e_v3).trans (refD3_keep (U7 m' c) Cert.ReferenceIdeal.main_v3 (by decide)).symm),
    (Cert.KernelIdeal.Gen.W10_of_ne m ρ c Cert.KernelIdeal.main_arg11 (by decide)).trans ((e_arg11).trans (refD3_keep (U7 m' c) Cert.ReferenceIdeal.main_arg11 (by decide)).symm),
    (Cert.KernelIdeal.Gen.W10_of_ne m ρ c Cert.KernelIdeal.main_arg12 (by decide)).trans ((e_arg12).trans (refD3_keep (U7 m' c) Cert.ReferenceIdeal.main_arg12 (by decide)).symm),
    (Cert.KernelIdeal.Gen.W10_of_ne m ρ c Cert.KernelIdeal.main_arg13 (by decide)).trans ((e_arg13).trans (refD3_keep (U7 m' c) Cert.ReferenceIdeal.main_arg13 (by decide)).symm),
    (Cert.KernelIdeal.Gen.W10_of_ne m ρ c Cert.KernelIdeal.main_arg14 (by decide)).trans ((e_arg14).trans (refD3_keep (U7 m' c) Cert.ReferenceIdeal.main_arg14 (by decide)).symm),
    (Cert.KernelIdeal.Gen.W10_of_ne m ρ c Cert.KernelIdeal.main_arg15 (by decide)).trans ((e_arg15).trans (refD3_keep (U7 m' c) Cert.ReferenceIdeal.main_arg15 (by decide)).symm)⟩

end Cert.Bridge.Final

end
-- ==== Proof.Region4.lean ====
/-
  Region 4, the decoder: a row-tiled matrix product plus a bias row under the logistic function.

  The region takes the 50000 × 256 array of its first window 2000 rows at a time over 25 grid points, and at each point the
  whole 256 × 5 weights and the 1 × 5 bias row: it narrows the rows and the weights (the identity at the ideal values),
  multiplies them into the zero accumulator, adds the bias row to every row and applies the logistic function.  Entry (r, c)
  of the result array is therefore the logistic function of (the sum over k of x (r, k) · w (k, c)) + b (0, c).  The 25 blocks
  tile the array, so after the region the array holds that everywhere.
-/
import proofs.«182173_j27023934226530_1_alg».proof.Proof.Gen.KernelIdeal.Frame
import proofs.«182173_j27023934226530_1_alg».proof.Proof.LibMatmulRows

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The decoder's function of the three arrays as the region finds them. -/
def dec (c : Dev nD) : S50000x5.Idx → EReal := fun i =>
  Ideal.logistic (Host.dotGeneral (F := Ideal) (φ₁ := .f32) (φ₂ := .f32) (DotDims.plain 50000 256 5) none
      (V c main_v132 : FVec Ideal ⟨2, ![50000, 256]⟩ .f32) (V c main_arg14 : FVec Ideal ⟨2, ![256, 5]⟩ .f32) i
    + (V c main_v133 : FVec Ideal ⟨2, ![1, 5]⟩ .f32) (ix2 (0 : Fin 1) (i 1)))

/-- The body's value on a block of rows, at a block-local index. -/
theorem pay_apply (x : FVec Ideal ⟨2, ![50000, 256]⟩ .f32) (w : FVec Ideal ⟨2, ![256, 5]⟩ .f32) (b : FVec Ideal ⟨2, ![1, 5]⟩ .f32)
    (x0 : FVec Ideal ⟨2, ![2000, 256]⟩ .f32) (x1 : FVec Ideal ⟨2, ![256, 5]⟩ .f32) (x2 : FVec Ideal ⟨2, ![1, 5]⟩ .f32)
    (p : Fin 2000) (q : Fin 5) (r : Fin 50000)
    (hx : ∀ k : Fin 256, x0 (ix2 p k) = x (ix2 r k)) (hw : ∀ k : Fin 256, x1 (ix2 k q) = w (ix2 k q))
    (hb : x2 (ix2 (0 : Fin 1) q) = b (ix2 (0 : Fin 1) q)) :
    k4_pay1 (F := Ideal) x0 x1 x2 (ix2 p q)
      = Ideal.logistic (Host.dotGeneral (DotDims.plain 50000 256 5) none x w (ix2 r q) + b (ix2 (0 : Fin 1) q)) := by
  unfold k4_pay1
  exact Cert.Lib.MatmulRows.logistic_rows_apply x w b x0 x1 x2 _ _ _ _ _ none none p r q hx hw hb

/-- The printed index maps over the grid: the row windows sit at block t, the weights and the bias at block 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What grid point t writes back is block t of the decoder's function. -/
theorem flushed_eq (c : Dev nD) (t : Fin cfg4.N) :
    (dat4 (F := Ideal) V c).flushed 3 t = ((cfg4.win 3).blk t).view.read (Elt Ideal) (dec V c) := by
  show (cfg4.win 3).cut (grid4.coords t) ((dat4 (F := Ideal) V c).after 3 t) = _
  rw [after4_3]
  unfold out4_3
  rw [View.canon_unit_zero hz]
  simp only [View.ld_unit_zero (S := S2000x256) hz, View.ld_unit_zero (S := S256x5) hz, View.ld_unit_zero (S := S1x5) hz]
  obtain ⟨e0, e1, e2, e3, e4, e5, e6, e7⟩ := idx_facts t
  have hN : t.val < 25 := t.isLt
  funext j
  obtain ⟨p, q, rfl⟩ : ∃ (p : Fin 2000) (q : Fin 5), j = ix2 p q := ⟨j 0, j 1, eq_ix2 j⟩
  have hp : p.val < 2000 := p.isLt
  have hr : t.val * 2000 + p.val < 50000 := by omega
  show k4_pay1 (F := Ideal) (iblk4 V c 0 t) (iblk4 V c 1 t) (iblk4 V c 2 t) (ix2 p q) = dec V c (((cfg4.win 3).blk t).view.emb (ix2 p q))
  refine (pay_apply (V c main_v132) (V c main_arg14) (V c main_v133) (iblk4 V c 0 t) (iblk4 V c 1 t) (iblk4 V c 2 t) p q
    ⟨t.val * 2000 + p.val, hr⟩ (fun k => ?_) (fun k => ?_) ?_).trans ?_
  · show V c main_v132 (((cfg4.win 0).blk t).view.emb (ix2 p k)) = V c main_v132 (ix2 (⟨t.val * 2000 + p.val, hr⟩ : Fin 50000) k)
    refine congrArg (V c main_v132) (funext fun a => Fin.ext ?_)
    match a with
    | ⟨0, _⟩ => show win4_0.index t (0 : Fin 2) * 2000 + 1 * p.val = t.val * 2000 + p.val; omega
    | ⟨1, _⟩ => show win4_0.index t (1 : Fin 2) * 256 + 1 * k.val = k.val; omega
  · show V c main_arg14 (((cfg4.win 1).blk t).view.emb (ix2 k q)) = V c main_arg14 (ix2 k q)
    refine congrArg (V c main_arg14) (funext fun a => Fin.ext ?_)
    match a with
    | ⟨0, _⟩ => show win4_1.index t (0 : Fin 2) * 256 + 1 * k.val = k.val; omega
    | ⟨1, _⟩ => show win4_1.index t (1 : Fin 2) * 5 + 1 * q.val = q.val; omega
  · show V c main_v133 (((cfg4.win 2).blk t).view.emb (ix2 (0 : Fin 1) q)) = V c main_v133 (ix2 (0 : Fin 1) q)
    refine congrArg (V c main_v133) (funext fun a => Fin.ext ?_)
    match a with
    | ⟨0, _⟩ => show win4_2.index t (0 : Fin 2) * 1 + 1 * 0 = 0; omega
    | ⟨1, _⟩ => show win4_2.index t (1 : Fin 2) * 5 + 1 * q.val = q.val; omega
  · show dec V c (ix2 (⟨t.val * 2000 + p.val, hr⟩ : Fin 50000) q) = dec V c (((cfg4.win 3).blk t).view.emb (ix2 p q))
    refine congrArg (dec V c) (funext fun a => Fin.ext ?_)
    match a with
    | ⟨0, _⟩ => show t.val * 2000 + p.val = win4_3.index t (0 : Fin 2) * 2000 + 1 * p.val; omega
    | ⟨1, _⟩ => show q.val = win4_3.index t (1 : Fin 2) * 5 + 1 * q.val; omega

/-- An index of the result array is in point t's block iff each coordinate is in the block's range on its axis. -/
theorem mem_blk (t : Fin cfg4.N) (i : S50000x5.Idx) :
    i ∈ ((cfg4.win 3).blk t).view.set ↔ ∀ a : Fin 2, win4_3.index t a * S2000x5.size a ≤ (i a).val ∧ (i a).val < win4_3.index t a * S2000x5.size a + S2000x5.size a := by
  show i ∈ ((View.whole main_v134).slice (win4_3.rect t)).set ↔ _
  rw [View.set_slice_whole, Rect.mem_set_unit]
  exact Iff.rfl

/-- Every row of the result is in the block of the point that its row number divided by 2000 names. -/
theorem cover (i : S50000x5.Idx) :
    ∃ t : Fin cfg4.N, (cfg4.win 3).flush t = true ∧ i ∈ ((cfg4.win 3).blk t).view.set := by
  have hi0 : (i 0).val < 50000 := (i 0).isLt
  have hi1 : (i 1).val < 5 := (i 1).isLt
  have ht : (i 0).val / 2000 < 25 := by omega
  obtain ⟨e0, e1, e2, e3, e4, e5, e6, e7⟩ := idx_facts (⟨(i 0).val / 2000, ht⟩ : Fin cfg4.N)
  refine ⟨⟨(i 0).val / 2000, ht⟩, flush4_3 _, ?_⟩
  rw [mem_blk]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win4_3.index ⟨(i 0).val / 2000, ht⟩ (1 : Fin 2) * 5 ≤ (i 1).val ∧ (i 1).val < win4_3.index ⟨(i 0).val / 2000, ht⟩ (1 : Fin 2) * 5 + 5
    rw [e7]; omega

/-- After the region its result array holds the decoder's function of the three arrays it found. -/
theorem final (c : Dev nD) : (dat4 (F := Ideal) V c).arrAt 3 cfg4.N = dec V c :=
  (dat4 (F := Ideal) V c).arrAt_eq_of_cover 3 (dec V c) (fun t _ => flushed_eq V c t) cover

end Cert.KernelIdeal.Region4

end
-- ==== Proof.P4v113.lean ====
/-
  A stretch of host operations that is the same in both programs: the fourth layer's gather, scaling, segment sum and bias.

  From buffer contents that agree on what these operations read, the two programs leave the same array in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.P4v113

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (hp : WK (Proc.devRef .tc Cert.KernelIdeal.main_v97) = WR (Proc.devRef .tc Cert.ReferenceIdeal.main_v97))
    (h3 : WK (Proc.devRef .tc Cert.KernelIdeal.main_v3) = WR (Proc.devRef .tc Cert.ReferenceIdeal.main_v3))
    (h6 : WK (Proc.devRef .tc Cert.KernelIdeal.main_v6) = WR (Proc.devRef .tc Cert.ReferenceIdeal.main_v6))
    (h26 : WK (Proc.devRef .tc Cert.KernelIdeal.main_v26) = WR (Proc.devRef .tc Cert.ReferenceIdeal.main_v26))
    (hb : WK (Proc.devRef .tc Cert.KernelIdeal.main_arg11) = WR (Proc.devRef .tc Cert.ReferenceIdeal.main_arg11)) :
    after (Cert.KernelIdeal.Gen.hostOps4 (F := Ideal)) WK (Proc.devRef .tc Cert.KernelIdeal.main_v113)
      = after (Cert.ReferenceIdeal.Ops.refG1 (F := Ideal)) (after (Cert.ReferenceIdeal.Ops.refG0 (F := Ideal)) WR) (Proc.devRef .tc Cert.ReferenceIdeal.main_v113) := by
  generalize hR : after (Cert.ReferenceIdeal.Ops.refG1 (F := Ideal)) (after (Cert.ReferenceIdeal.Ops.refG0 (F := Ideal)) WR) (Proc.devRef .tc Cert.ReferenceIdeal.main_v113) = rhs
  dsimp only [Cert.KernelIdeal.Gen.hostOps4]
  after_results
  rw [hp, h3, h6, h26, hb]
  subst hR
  symm
  dsimp only [Cert.ReferenceIdeal.Ops.refG0, Cert.ReferenceIdeal.Ops.refG1]
  after_results
  rfl

end Cert.Bridge.P4v113

end
-- ==== Proof.P4v116.lean ====
/-
  A stretch of host operations that is the same in both programs: the column means of the fourth layer's result.

  From buffer contents that agree on what these operations read, the two programs leave the same array in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.P4v116

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (hp : WK (Proc.devRef .tc Cert.KernelIdeal.main_v97) = WR (Proc.devRef .tc Cert.ReferenceIdeal.main_v97))
    (h3 : WK (Proc.devRef .tc Cert.KernelIdeal.main_v3) = WR (Proc.devRef .tc Cert.ReferenceIdeal.main_v3))
    (h6 : WK (Proc.devRef .tc Cert.KernelIdeal.main_v6) = WR (Proc.devRef .tc Cert.ReferenceIdeal.main_v6))
    (h26 : WK (Proc.devRef .tc Cert.KernelIdeal.main_v26) = WR (Proc.devRef .tc Cert.ReferenceIdeal.main_v26))
    (hb : WK (Proc.devRef .tc Cert.KernelIdeal.main_arg11) = WR (Proc.devRef .tc Cert.ReferenceIdeal.main_arg11)) :
    after (Cert.KernelIdeal.Gen.hostOps4 (F := Ideal)) WK (Proc.devRef .tc Cert.KernelIdeal.main_v116)
      = after (Cert.ReferenceIdeal.Ops.refG1 (F := Ideal)) (after (Cert.ReferenceIdeal.Ops.refG0 (F := Ideal)) WR) (Proc.devRef .tc Cert.ReferenceIdeal.main_v116) := by
  generalize hR : after (Cert.ReferenceIdeal.Ops.refG1 (F := Ideal)) (after (Cert.ReferenceIdeal.Ops.refG0 (F := Ideal)) WR) (Proc.devRef .tc Cert.ReferenceIdeal.main_v116) = rhs
  dsimp only [Cert.KernelIdeal.Gen.hostOps4]
  after_results
  rw [hp, h3, h6, h26, hb]
  subst hR
  symm
  dsimp only [Cert.ReferenceIdeal.Ops.refG0, Cert.ReferenceIdeal.Ops.refG1]
  after_results
  rfl

end Cert.Bridge.P4v116

end
-- ==== Proof.P4c22.lean ====
/-
  A stretch of host operations that is the same in both programs: the integer zero the second variance is called with.

  From buffer contents that agree on what these operations read, the two programs leave the same array in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.P4c22

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
 :
    after (Cert.KernelIdeal.Gen.hostOps4 (F := Ideal)) WK (Proc.devRef .tc Cert.KernelIdeal.main_c_22)
      = after (Cert.ReferenceIdeal.Ops.refG1 (F := Ideal)) (after (Cert.ReferenceIdeal.Ops.refG0 (F := Ideal)) WR) (Proc.devRef .tc Cert.ReferenceIdeal.main_c_22) := by
  generalize hR : after (Cert.ReferenceIdeal.Ops.refG1 (F := Ideal)) (after (Cert.ReferenceIdeal.Ops.refG0 (F := Ideal)) WR) (Proc.devRef .tc Cert.ReferenceIdeal.main_c_22) = rhs
  dsimp only [Cert.KernelIdeal.Gen.hostOps4]
  after_results
  subst hR
  symm
  dsimp only [Cert.ReferenceIdeal.Ops.refG0, Cert.ReferenceIdeal.Ops.refG1]
  after_results

end Cert.Bridge.P4c22

end
-- ==== Proof.P4v132.lean ====
/-
  A stretch of host operations that is the same in both programs: the second batch normalisation's scale and shift, from the fourth layer's result, its column means and variances and the two parameter vectors.

  From buffer contents that agree on what these operations read, the two programs leave the same array in this buffer.
-/
import proofs.«182173_j27023934226530_1_alg».proof.Proof.Gen.KernelIdeal.Launch
import proofs.«182173_j27023934226530_1_alg».proof.Proof.RefOps
import Idealize.ShloMosaic.Lib.StableHlo.Run
import Idealize.ShloMosaic.PureOps.Ideal

set_option maxRecDepth 16384

noncomputable section

namespace Cert.Bridge.P4v132

open Idealize.ShloMosaic Idealize.ShloMosaic.TcCoe Idealize.ShloMosaic.StableHlo

variable (WK : Valuation Cert.KernelIdeal.τ Cert.KernelIdeal.sig (Elt Ideal)) (WR : Valuation Cert.ReferenceIdeal.τ Cert.ReferenceIdeal.sig (Elt Ideal))

set_option maxHeartbeats 4000000 in
/-- The result is the same array in both programs when the buffers these operations read agree. -/
theorem out_eq
    (hx : WK (Proc.devRef .tc Cert.KernelIdeal.main_v113) = WR (Proc.devRef .tc Cert.ReferenceIdeal.main_v113))
    (hm : WK (Proc.devRef .tc Cert.KernelIdeal.main_v116) = WR (Proc.devRef .tc Cert.ReferenceIdeal.main_v116))
    (hv : WK (Proc.devRef .tc Cert.KernelIdeal.main_v117) = WR (Proc.devRef .tc Cert.ReferenceIdeal.main_v117))
    (hg : WK (Proc.devRef .tc Cert.KernelIdeal.main_arg12) = WR (Proc.devRef .tc Cert.ReferenceIdeal.main_arg12))
    (hs : WK (Proc.devRef .tc Cert.KernelIdeal.main_arg13) = WR (Proc.devRef .tc Cert.ReferenceIdeal.main_arg13)) :
    after (Cert.KernelIdeal.Gen.hostOps4_2 (F := Ideal)) WK (Proc.devRef .tc Cert.KernelIdeal.main_v132)
      = after (Cert.ReferenceIdeal.Ops.refG3 (F := Ideal)) WR (Proc.devRef .tc Cert.ReferenceIdeal.main_v132) := by
  generalize hR : after (Cert.ReferenceIdeal.Ops.refG3 (F := Ideal)) WR (Proc.devRef .tc Cert.ReferenceIdeal.main_v132) = rhs
  dsimp only [Cert.KernelIdeal.Gen.hostOps4_2]
  after_results
  rw [hx, hm, hv, hg, hs]
  subst hR
  symm
  dsimp only [Cert.ReferenceIdeal.Ops.refG3]
  after_results

end Cert.Bridge.P4v132

end
-- ==== Proof.KBias.lean ====
/-
  The decoder's bias row in the kernel program.

  The kernel program reshapes the bias vector [5] to a row [1, 5] on the host, the last of the operations before the
  decoder region; no operation before it writes the vector.  Read at (0, c), the row is the vector's entry c.
-/
import proofs.«182173_j27023934226530_1_alg».proof.Proof.Gen.KernelIdeal.Launch
import Idealize.ShloMosaic.Lib.StableHlo.Run
import Idealize.ShloMosaic.PureOps.Ideal
import Idealize.ShloMosaic.Lib.ValueIdx
import Idealize.ShloMosaic.Lib.ValueLayout

set_option maxRecDepth 16384

noncomputable section

namespace Cert.Bridge.KBias

open Idealize.ShloMosaic Idealize.ShloMosaic.TcCoe Idealize.ShloMosaic.StableHlo Idealize.ShloMosaic.ValueIdx

variable (WK : Valuation Cert.KernelIdeal.τ Cert.KernelIdeal.sig (Elt Ideal))

set_option maxHeartbeats 2000000 in
/-- The bias row at (0, c) is the bias vector at c, as the stretch of host operations found it. -/
theorem v133_apply (q : Fin 5) :
    after (Cert.KernelIdeal.Gen.hostOps4_2 (F := Ideal)) (after (Cert.KernelIdeal.Gen.hostOps4_1 (F := Ideal)) (after (Cert.KernelIdeal.Gen.hostOps4 (F := Ideal)) WK))
        (Proc.devRef .tc Cert.KernelIdeal.main_v133) (ix2 (0 : Fin 1) q)
      = WK (Proc.devRef .tc Cert.KernelIdeal.main_arg15) (ix1 q) := by
  dsimp only [Cert.KernelIdeal.Gen.hostOps4, Cert.KernelIdeal.Gen.hostOps4_1, Cert.KernelIdeal.Gen.hostOps4_2]
  after_results
  exact shapeCast_a_1a_apply _ _ (0 : Fin 1) q

end Cert.Bridge.KBias

end
-- ==== Proof.Bridge2.lean ====
/-
  The two programs' buffers agree, boundary by boundary.

  The kernel program is the reference with each of its five matrix products handed to the matrix unit (the last one
  together with the decoder's bias and logistic function); every other line of the two programs is the same host
  operation on buffers of the same names.  Cut both programs at the products (and around the two calls of the outlined
  variance).  At the launch the argument buffers agree.  A stretch of host operations keeps every buffer it does not write,
  and writes the same array in both programs when the buffers it reads agree; a kernel region keeps every buffer but its
  result, and its result is the plain product of the arrays it found — what the reference's one operation writes.  So the
  buffers that are read later agree at every boundary.

  This module: the last aggregation and normalisation, and the decoder — after the last region the kernel's result is the
  logistic function of the last product plus the bias, entry by entry what the reference's spelt-out decoder leaves.
-/
import proofs.«182173_j27023934226530_1_alg».proof.Proof.Bridge1
import proofs.«182173_j27023934226530_1_alg».proof.Proof.Region4
import proofs.«182173_j27023934226530_1_alg».proof.Proof.P4v113
import proofs.«182173_j27023934226530_1_alg».proof.Proof.P4v116
import proofs.«182173_j27023934226530_1_alg».proof.Proof.P4c22
import proofs.«182173_j27023934226530_1_alg».proof.Proof.P4v132
import proofs.«182173_j27023934226530_1_alg».proof.Proof.KBias

set_option maxRecDepth 16384

noncomputable section

namespace Cert.Bridge.Final

open Idealize.ShloMosaic Idealize.ShloMosaic.TcCoe Idealize.ShloMosaic.StableHlo Idealize.ShloMosaic.ValueIdx Idealize.SL.Sem
open Cert.KernelIdeal.Gen (W0 W1 W2 W3 W4 W5 W6 W7 W8 W9 W10 W11 W12 W13 W14 V3 V5 V7 V9 V13)
open Cert.ReferenceIdeal.Ops

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

variable (hargs : ArgsAgree m m' c)

include hargs in
/-- The buffers read later agree at boundary 11. -/
theorem b11 :
    (W11 m ρ c (Idealize.ShloMosaic.Proc.devRef .tc Cert.KernelIdeal.main_c_22) = U8a m' c (Idealize.ShloMosaic.Proc.devRef .tc Cert.ReferenceIdeal.main_c_22))
    ∧ (W11 m ρ c (Idealize.ShloMosaic.Proc.devRef .tc Cert.KernelIdeal.main_v116) = U8a m' c (Idealize.ShloMosaic.Proc.devRef .tc Cert.ReferenceIdeal.main_v116))
    ∧ (W11 m ρ c (Idealize.ShloMosaic.Proc.devRef .tc Cert.KernelIdeal.main_v113) = U8a m' c (Idealize.ShloMosaic.Proc.devRef .tc Cert.ReferenceIdeal.main_v113))
    ∧ (W11 m ρ c (Idealize.ShloMosaic.Proc.devRef .tc Cert.KernelIdeal.main_arg12) = U8a m' c (Idealize.ShloMosaic.Proc.devRef .tc Cert.ReferenceIdeal.main_arg12))
    ∧ (W11 m ρ c (Idealize.ShloMosaic.Proc.devRef .tc Cert.KernelIdeal.main_arg13) = U8a m' c (Idealize.ShloMosaic.Proc.devRef .tc Cert.ReferenceIdeal.main_arg13))
    ∧ (W11 m ρ c (Idealize.ShloMosaic.Proc.devRef .tc Cert.KernelIdeal.main_arg14) = U8a m' c (Idealize.ShloMosaic.Proc.devRef .tc Cert.ReferenceIdeal.main_arg14))
    ∧ (W11 m ρ c (Idealize.ShloMosaic.Proc.devRef .tc Cert.KernelIdeal.main_arg15) = U8a m' c (Idealize.ShloMosaic.Proc.devRef .tc Cert.ReferenceIdeal.main_arg15)) := by
  obtain ⟨e_v97, e_v26, e_v6, e_v3, e_arg11, e_arg12, e_arg13, e_arg14, e_arg15⟩ := b10 m ρ m' c hargs
  exact ⟨Cert.Bridge.P4c22.out_eq (W10 m ρ c) (U8 m' c),
    Cert.Bridge.P4v116.out_eq (W10 m ρ c) (U8 m' c) e_v97 e_v3 e_v6 e_v26 e_arg11,
    Cert.Bridge.P4v113.out_eq (W10 m ρ c) (U8 m' c) e_v97 e_v3 e_v6 e_v26 e_arg11,
    (Cert.KernelIdeal.Keep.hostOps4_keep (W10 m ρ c) Cert.KernelIdeal.main_arg12 (by decide)).trans ((e_arg12).trans ((refG1_keep (after refG0 (U8 m' c)) Cert.ReferenceIdeal.main_arg12 (by decide)).trans (refG0_keep (U8 m' c) Cert.ReferenceIdeal.main_arg12 (by decide))).symm),
    (Cert.KernelIdeal.Keep.hostOps4_keep (W10 m ρ c) Cert.KernelIdeal.main_arg13 (by decide)).trans ((e_arg13).trans ((refG1_keep (after refG0 (U8 m' c)) Cert.ReferenceIdeal.main_arg13 (by decide)).trans (refG0_keep (U8 m' c) Cert.ReferenceIdeal.main_arg13 (by decide))).symm),
    (Cert.KernelIdeal.Keep.hostOps4_keep (W10 m ρ c) Cert.KernelIdeal.main_arg14 (by decide)).trans ((e_arg14).trans ((refG1_keep (after refG0 (U8 m' c)) Cert.ReferenceIdeal.main_arg14 (by decide)).trans (refG0_keep (U8 m' c) Cert.ReferenceIdeal.main_arg14 (by decide))).symm),
    (Cert.KernelIdeal.Keep.hostOps4_keep (W10 m ρ c) Cert.KernelIdeal.main_arg15 (by decide)).trans ((e_arg15).trans ((refG1_keep (after refG0 (U8 m' c)) Cert.ReferenceIdeal.main_arg15 (by decide)).trans (refG0_keep (U8 m' c) Cert.ReferenceIdeal.main_arg15 (by decide))).symm)⟩

include hargs in
/-- The buffers read later agree at boundary 12. -/
theorem b12 :
    (W12 m ρ c (Idealize.ShloMosaic.Proc.devRef .tc Cert.KernelIdeal.main_v117) = U8b m' c (Idealize.ShloMosaic.Proc.devRef .tc Cert.ReferenceIdeal.main_v117))
    ∧ (W12 m ρ c (Idealize.ShloMosaic.Proc.devRef .tc Cert.KernelIdeal.main_v116) = U8b m' c (Idealize.ShloMosaic.Proc.devRef .tc Cert.ReferenceIdeal.main_v116))
    ∧ (W12 m ρ c (Idealize.ShloMosaic.Proc.devRef .tc Cert.KernelIdeal.main_v113) = U8b m' c (Idealize.ShloMosaic.Proc.devRef .tc Cert.ReferenceIdeal.main_v113))
    ∧ (W12 m ρ c (Idealize.ShloMosaic.Proc.devRef .tc Cert.KernelIdeal.main_arg12) = U8b m' c (Idealize.ShloMosaic.Proc.devRef .tc Cert.ReferenceIdeal.main_arg12))
    ∧ (W12 m ρ c (Idealize.ShloMosaic.Proc.devRef .tc Cert.KernelIdeal.main_arg13) = U8b m' c (Idealize.ShloMosaic.Proc.devRef .tc Cert.ReferenceIdeal.main_arg13))
    ∧ (W12 m ρ c (Idealize.ShloMosaic.Proc.devRef .tc Cert.KernelIdeal.main_arg14) = U8b m' c (Idealize.ShloMosaic.Proc.devRef .tc Cert.ReferenceIdeal.main_arg14))
    ∧ (W12 m ρ c (Idealize.ShloMosaic.Proc.devRef .tc Cert.KernelIdeal.main_arg15) = U8b m' c (Idealize.ShloMosaic.Proc.devRef .tc Cert.ReferenceIdeal.main_arg15)) := by
  obtain ⟨e_c_22, e_v116, e_v113, e_arg12, e_arg13, e_arg14, e_arg15⟩ := b11 m ρ m' c hargs
  exact ⟨by
      refine (Cert.Bridge.VarK.v117_eq (W11 m ρ c)).trans (Eq.trans ?_ (Cert.Bridge.VarR.v117_eq (U8a m' c)).symm)
      rw [e_v113, e_c_22],
    (Cert.KernelIdeal.Keep.hostOps4_1_keep (W11 m ρ c) Cert.KernelIdeal.main_v116 (by decide)).trans ((e_v116).trans (refG2_keep (U8a m' c) Cert.ReferenceIdeal.main_v116 (by decide)).symm),
    (Cert.KernelIdeal.Keep.hostOps4_1_keep (W11 m ρ c) Cert.KernelIdeal.main_v113 (by decide)).trans ((e_v113).trans (refG2_keep (U8a m' c) Cert.ReferenceIdeal.main_v113 (by decide)).symm),
    (Cert.KernelIdeal.Keep.hostOps4_1_keep (W11 m ρ c) Cert.KernelIdeal.main_arg12 (by decide)).trans ((e_arg12).trans (refG2_keep (U8a m' c) Cert.ReferenceIdeal.main_arg12 (by decide)).symm),
    (Cert.KernelIdeal.Keep.hostOps4_1_keep (W11 m ρ c) Cert.KernelIdeal.main_arg13 (by decide)).trans ((e_arg13).trans (refG2_keep (U8a m' c) Cert.ReferenceIdeal.main_arg13 (by decide)).symm),
    (Cert.KernelIdeal.Keep.hostOps4_1_keep (W11 m ρ c) Cert.KernelIdeal.main_arg14 (by decide)).trans ((e_arg14).trans (refG2_keep (U8a m' c) Cert.ReferenceIdeal.main_arg14 (by decide)).symm),
    (Cert.KernelIdeal.Keep.hostOps4_1_keep (W11 m ρ c) Cert.KernelIdeal.main_arg15 (by decide)).trans ((e_arg15).trans (refG2_keep (U8a m' c) Cert.ReferenceIdeal.main_arg15 (by decide)).symm)⟩

include hargs in
/-- The buffers read later agree at boundary 13. -/
theorem b13 :
    (W13 m ρ c (Idealize.ShloMosaic.Proc.devRef .tc Cert.KernelIdeal.main_v132) = U9 m' c (Idealize.ShloMosaic.Proc.devRef .tc Cert.ReferenceIdeal.main_v132))
    ∧ (W13 m ρ c (Idealize.ShloMosaic.Proc.devRef .tc Cert.KernelIdeal.main_arg14) = U9 m' c (Idealize.ShloMosaic.Proc.devRef .tc Cert.ReferenceIdeal.main_arg14))
    ∧ (W13 m ρ c (Idealize.ShloMosaic.Proc.devRef .tc Cert.KernelIdeal.main_arg15) = U9 m' c (Idealize.ShloMosaic.Proc.devRef .tc Cert.ReferenceIdeal.main_arg15)) := by
  obtain ⟨e_v117, e_v116, e_v113, e_arg12, e_arg13, e_arg14, e_arg15⟩ := b12 m ρ m' c hargs
  exact ⟨Cert.Bridge.P4v132.out_eq (W12 m ρ c) (U8b m' c) e_v113 e_v116 e_v117 e_arg12 e_arg13,
    (Cert.KernelIdeal.Keep.hostOps4_2_keep (W12 m ρ c) Cert.KernelIdeal.main_arg14 (by decide)).trans ((e_arg14).trans (refG3_keep (U8b m' c) Cert.ReferenceIdeal.main_arg14 (by decide)).symm),
    (Cert.KernelIdeal.Keep.hostOps4_2_keep (W12 m ρ c) Cert.KernelIdeal.main_arg15 (by decide)).trans ((e_arg15).trans (refG3_keep (U8b m' c) Cert.ReferenceIdeal.main_arg15 (by decide)).symm)⟩

/-! ## The decoder -/

include hargs in
/-- The kernel program's result array is the reference's. -/
theorem result_eq : W14 m ρ c (Idealize.ShloMosaic.Proc.devRef .tc Cert.KernelIdeal.main_v134) = U10 m' c (Idealize.ShloMosaic.Proc.devRef .tc Cert.ReferenceIdeal.main_v142) := by
  obtain ⟨e_v132, e_arg14, e_arg15⟩ := b13 m ρ m' c hargs
  refine ((Cert.KernelIdeal.Gen.W14_arr m ρ c 3).trans (Cert.KernelIdeal.Region4.final (V13 m ρ) c)).trans ?_
  funext i
  obtain ⟨r, q, rfl⟩ : ∃ (r : Fin 50000) (q : Fin 5), i = ix2 r q := ⟨i 0, i 1, eq_ix2 i⟩
  refine Eq.trans ?_ (Cert.Bridge.Dots.tail_apply (U9 m' c) r q).symm
  have e133 : W13 m ρ c (Idealize.ShloMosaic.Proc.devRef .tc Cert.KernelIdeal.main_v133) (ix2 (0 : Fin 1) q) = W10 m ρ c (Idealize.ShloMosaic.Proc.devRef .tc Cert.KernelIdeal.main_arg15) (ix1 q) :=
    Cert.Bridge.KBias.v133_apply (W10 m ρ c) q
  have e15 : W10 m ρ c (Idealize.ShloMosaic.Proc.devRef .tc Cert.KernelIdeal.main_arg15) = U9 m' c (Idealize.ShloMosaic.Proc.devRef .tc Cert.ReferenceIdeal.main_arg15) := by
    rw [← e_arg15]
    exact ((Cert.KernelIdeal.Keep.hostOps4_2_keep (W12 m ρ c) Cert.KernelIdeal.main_arg15 (by decide)).trans
      ((Cert.KernelIdeal.Keep.hostOps4_1_keep (W11 m ρ c) Cert.KernelIdeal.main_arg15 (by decide)).trans
        (Cert.KernelIdeal.Keep.hostOps4_keep (W10 m ρ c) Cert.KernelIdeal.main_arg15 (by decide)))).symm
  show Ideal.logistic (Host.dotGeneral (F := Ideal) (φ₁ := .f32) (φ₂ := .f32) (DotDims.plain 50000 256 5) none
        (W13 m ρ c (Idealize.ShloMosaic.Proc.devRef .tc Cert.KernelIdeal.main_v132)) (W13 m ρ c (Idealize.ShloMosaic.Proc.devRef .tc Cert.KernelIdeal.main_arg14)) (ix2 r q)
      + W13 m ρ c (Idealize.ShloMosaic.Proc.devRef .tc Cert.KernelIdeal.main_v133) (ix2 (0 : Fin 1) q))
    = Ideal.logistic (Host.dotGeneral (F := Ideal) (φ₁ := .f32) (φ₂ := .f32) (DotDims.plain 50000 256 5) none
        (U9 m' c (Idealize.ShloMosaic.Proc.devRef .tc Cert.ReferenceIdeal.main_v132)) (U9 m' c (Idealize.ShloMosaic.Proc.devRef .tc Cert.ReferenceIdeal.main_arg14)) (ix2 r q)
      + U9 m' c (Idealize.ShloMosaic.Proc.devRef .tc Cert.ReferenceIdeal.main_arg15) (ix1 q))
  rw [e133, e15, e_v132, e_arg14]

include hargs in
/-- The kernel program's result array is what the reference's whole line leaves in its result buffer. -/
theorem result_eq_ops :
    W14 m ρ c (Idealize.ShloMosaic.Proc.devRef .tc Cert.KernelIdeal.main_v134) = after (Cert.ReferenceIdeal.RefRun.ops (F := Ideal)) (launchContents m' c) (Idealize.ShloMosaic.Proc.devRef .tc Cert.ReferenceIdeal.main_v142) := by
  rw [Cert.ReferenceIdeal.RefRun.after_ops]
  exact result_eq m ρ m' c hargs

end Cert.Bridge.Final

end
-- ==== Proof.lean ====
/-
  A four-layer graph convolution network with two batch normalisations and a logistic decoder, whose five matrix
  products run on the matrix unit in row tiles of 2000, against the same network written with whole-array matrix
  products: the two compute the same function on the extended reals.

  Both programs are the same line of host operations — the self loops appended to the edge list, the degrees counted by
  a segment sum of ones, the edge weights as products of gathered inverse square roots of the degrees, the batch
  normalisation of the features, four times (product with the layer's weights; rows gathered at the sources, scaled by the
  edge weights and summed into their destinations; bias), the second batch normalisation, the decoder — except that the
  kernel program hands each product to a region of 25 grid points.  A grid point narrows a block of 2000 rows and the
  whole weights to bfloat16, which at the ideal values is the identity, and multiplies them into a zero accumulator: rows
  2000 t … 2000 t + 1999 of the whole product.  The blocks tile the array, so each region leaves the plain product of the
  arrays it found, which is what the reference's one operation writes.  The decoder region also adds the bias row and
  applies the logistic function, which on the extended reals is one over one plus the exponential of the negated argument,
  the reference's spelling.  No law of the extended reals beyond these definitions is used, so the finiteness of the
  inputs is never opened.

  The kernel program's two frames are the generated ones; the reference's frame and value are read off its run as one
  straight line of host operations; the idealization rewrote nothing, so nothing is owed for it.
-/
import proofs.«182173_j27023934226530_1_alg».proof.Defs
import proofs.«182173_j27023934226530_1_alg».proof.Proof.Gen.Kernel
import proofs.«182173_j27023934226530_1_alg».proof.Proof.Gen.Kernel.Skeleton
import proofs.«182173_j27023934226530_1_alg».proof.Proof.Gen.Kernel.Launch
import proofs.«182173_j27023934226530_1_alg».proof.Proof.Gen.Kernel.Points
import proofs.«182173_j27023934226530_1_alg».proof.Proof.Gen.Kernel.Frame
import proofs.«182173_j27023934226530_1_alg».proof.Proof.Gen.KernelIdeal
import proofs.«182173_j27023934226530_1_alg».proof.Proof.Gen.KernelIdeal.Skeleton
import proofs.«182173_j27023934226530_1_alg».proof.Proof.Gen.KernelIdeal.Launch
import proofs.«182173_j27023934226530_1_alg».proof.Proof.Gen.KernelIdeal.Points
import proofs.«182173_j27023934226530_1_alg».proof.Proof.Gen.KernelIdeal.Frame
import proofs.«182173_j27023934226530_1_alg».proof.Proof.Gen.ReferenceIdeal
import proofs.«182173_j27023934226530_1_alg».proof.Proof.Gen.Pre_finite_inputs
import proofs.«182173_j27023934226530_1_alg».proof.Proof.Bridge2
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- No operation of the reference writes an argument buffer. -/
theorem args_unwritten : ∀ b ∈ [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13, Cert.ReferenceIdeal.main_arg14, Cert.ReferenceIdeal.main_arg15], b ∉ Cert.ReferenceIdeal.RefRun.opsW := by decide

/-- The reference runs, and its arguments end as launched: no operation of its line writes one. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.ops_keep _ Cert.ReferenceIdeal.main_arg0 (args_unwritten _ (by decide))),
     (h c Cert.ReferenceIdeal.main_arg1).trans (Cert.ReferenceIdeal.RefRun.ops_keep _ Cert.ReferenceIdeal.main_arg1 (args_unwritten _ (by decide))),
     (h c Cert.ReferenceIdeal.main_arg2).trans (Cert.ReferenceIdeal.RefRun.ops_keep _ Cert.ReferenceIdeal.main_arg2 (args_unwritten _ (by decide))),
     (h c Cert.ReferenceIdeal.main_arg3).trans (Cert.ReferenceIdeal.RefRun.ops_keep _ Cert.ReferenceIdeal.main_arg3 (args_unwritten _ (by decide))),
     (h c Cert.ReferenceIdeal.main_arg4).trans (Cert.ReferenceIdeal.RefRun.ops_keep _ Cert.ReferenceIdeal.main_arg4 (args_unwritten _ (by decide))),
     (h c Cert.ReferenceIdeal.main_arg5).trans (Cert.ReferenceIdeal.RefRun.ops_keep _ Cert.ReferenceIdeal.main_arg5 (args_unwritten _ (by decide))),
     (h c Cert.ReferenceIdeal.main_arg6).trans (Cert.ReferenceIdeal.RefRun.ops_keep _ Cert.ReferenceIdeal.main_arg6 (args_unwritten _ (by decide))),
     (h c Cert.ReferenceIdeal.main_arg7).trans (Cert.ReferenceIdeal.RefRun.ops_keep _ Cert.ReferenceIdeal.main_arg7 (args_unwritten _ (by decide))),
     (h c Cert.ReferenceIdeal.main_arg8).trans (Cert.ReferenceIdeal.RefRun.ops_keep _ Cert.ReferenceIdeal.main_arg8 (args_unwritten _ (by decide))),
     (h c Cert.ReferenceIdeal.main_arg9).trans (Cert.ReferenceIdeal.RefRun.ops_keep _ Cert.ReferenceIdeal.main_arg9 (args_unwritten _ (by decide))),
     (h c Cert.ReferenceIdeal.main_arg10).trans (Cert.ReferenceIdeal.RefRun.ops_keep _ Cert.ReferenceIdeal.main_arg10 (args_unwritten _ (by decide))),
     (h c Cert.ReferenceIdeal.main_arg11).trans (Cert.ReferenceIdeal.RefRun.ops_keep _ Cert.ReferenceIdeal.main_arg11 (args_unwritten _ (by decide))),
     (h c Cert.ReferenceIdeal.main_arg12).trans (Cert.ReferenceIdeal.RefRun.ops_keep _ Cert.ReferenceIdeal.main_arg12 (args_unwritten _ (by decide))),
     (h c Cert.ReferenceIdeal.main_arg13).trans (Cert.ReferenceIdeal.RefRun.ops_keep _ Cert.ReferenceIdeal.main_arg13 (args_unwritten _ (by decide))),
     (h c Cert.ReferenceIdeal.main_arg14).trans (Cert.ReferenceIdeal.RefRun.ops_keep _ Cert.ReferenceIdeal.main_arg14 (args_unwritten _ (by decide))),
     (h c Cert.ReferenceIdeal.main_arg15).trans (Cert.ReferenceIdeal.RefRun.ops_keep _ Cert.ReferenceIdeal.main_arg15 (args_unwritten _ (by decide)))⟩)
    (Cert.ReferenceIdeal.RefRun.run (F := Ideal) m ρ)

/-- The idealization rewrote no operation. -/
theorem preserves : Cert.preserves_Kernel_KernelIdeal := trivial

/-- From memories agreeing on the arguments both programs run, and the kernel program's result array — the last
    boundary's contents of its result buffer — is what the reference's line leaves in its own. -/
theorem algebraic : Cert.algebraic_KernelIdeal_ReferenceIdeal := by
  intro m ρ m' ρ' _ hagree
  refine ⟨fun c => Cert.KernelIdeal.Gen.W14 m ρ c (Proc.devRef .tc Cert.KernelIdeal.main_v134), ?_, ?_⟩
  · exact (θ_run Cert.KernelIdeal.defs _ _).mono (fun r h c =>
      ⟨h c Cert.KernelIdeal.main_v134 (by decide),
       (h c Cert.KernelIdeal.main_arg0 (by decide)).trans (Cert.KernelIdeal.Gen.W14_main_arg0 m ρ c),
       (h c Cert.KernelIdeal.main_arg1 (by decide)).trans (Cert.KernelIdeal.Gen.W14_main_arg1 m ρ c),
       (h c Cert.KernelIdeal.main_arg2 (by decide)).trans (Cert.KernelIdeal.Gen.W14_main_arg2 m ρ c),
       (h c Cert.KernelIdeal.main_arg3 (by decide)).trans (Cert.KernelIdeal.Gen.W14_main_arg3 m ρ c),
       (h c Cert.KernelIdeal.main_arg4 (by decide)).trans (Cert.KernelIdeal.Gen.W14_main_arg4 m ρ c),
       (h c Cert.KernelIdeal.main_arg5 (by decide)).trans (Cert.KernelIdeal.Gen.W14_main_arg5 m ρ c),
       (h c Cert.KernelIdeal.main_arg6 (by decide)).trans (Cert.KernelIdeal.Gen.W14_main_arg6 m ρ c),
       (h c Cert.KernelIdeal.main_arg7 (by decide)).trans (Cert.KernelIdeal.Gen.W14_main_arg7 m ρ c),
       (h c Cert.KernelIdeal.main_arg8 (by decide)).trans (Cert.KernelIdeal.Gen.W14_main_arg8 m ρ c),
       (h c Cert.KernelIdeal.main_arg9 (by decide)).trans (Cert.KernelIdeal.Gen.W14_main_arg9 m ρ c),
       (h c Cert.KernelIdeal.main_arg10 (by decide)).trans (Cert.KernelIdeal.Gen.W14_main_arg10 m ρ c),
       (h c Cert.KernelIdeal.main_arg11 (by decide)).trans (Cert.KernelIdeal.Gen.W14_main_arg11 m ρ c),
       (h c Cert.KernelIdeal.main_arg12 (by decide)).trans (Cert.KernelIdeal.Gen.W14_main_arg12 m ρ c),
       (h c Cert.KernelIdeal.main_arg13 (by decide)).trans (Cert.KernelIdeal.Gen.W14_main_arg13 m ρ c),
       (h c Cert.KernelIdeal.main_arg14 (by decide)).trans (Cert.KernelIdeal.Gen.W14_main_arg14 m ρ c),
       (h c Cert.KernelIdeal.main_arg15 (by decide)).trans (Cert.KernelIdeal.Gen.W14_main_arg15 m ρ c)⟩)
      (Cert.KernelIdeal.RunValue.run_all m ρ)
  · exact (θ_run Cert.ReferenceIdeal.defs _ _).mono (fun r h c =>
      ⟨(h c Cert.ReferenceIdeal.main_v142).trans (Cert.Bridge.Final.result_eq_ops m ρ m' c (hagree c)).symm,
       (h c Cert.ReferenceIdeal.main_arg0).trans (Cert.ReferenceIdeal.RefRun.ops_keep _ Cert.ReferenceIdeal.main_arg0 (args_unwritten _ (by decide))),
       (h c Cert.ReferenceIdeal.main_arg1).trans (Cert.ReferenceIdeal.RefRun.ops_keep _ Cert.ReferenceIdeal.main_arg1 (args_unwritten _ (by decide))),
       (h c Cert.ReferenceIdeal.main_arg2).trans (Cert.ReferenceIdeal.RefRun.ops_keep _ Cert.ReferenceIdeal.main_arg2 (args_unwritten _ (by decide))),
       (h c Cert.ReferenceIdeal.main_arg3).trans (Cert.ReferenceIdeal.RefRun.ops_keep _ Cert.ReferenceIdeal.main_arg3 (args_unwritten _ (by decide))),
       (h c Cert.ReferenceIdeal.main_arg4).trans (Cert.ReferenceIdeal.RefRun.ops_keep _ Cert.ReferenceIdeal.main_arg4 (args_unwritten _ (by decide))),
       (h c Cert.ReferenceIdeal.main_arg5).trans (Cert.ReferenceIdeal.RefRun.ops_keep _ Cert.ReferenceIdeal.main_arg5 (args_unwritten _ (by decide))),
       (h c Cert.ReferenceIdeal.main_arg6).trans (Cert.ReferenceIdeal.RefRun.ops_keep _ Cert.ReferenceIdeal.main_arg6 (args_unwritten _ (by decide))),
       (h c Cert.ReferenceIdeal.main_arg7).trans (Cert.ReferenceIdeal.RefRun.ops_keep _ Cert.ReferenceIdeal.main_arg7 (args_unwritten _ (by decide))),
       (h c Cert.ReferenceIdeal.main_arg8).trans (Cert.ReferenceIdeal.RefRun.ops_keep _ Cert.ReferenceIdeal.main_arg8 (args_unwritten _ (by decide))),
       (h c Cert.ReferenceIdeal.main_arg9).trans (Cert.ReferenceIdeal.RefRun.ops_keep _ Cert.ReferenceIdeal.main_arg9 (args_unwritten _ (by decide))),
       (h c Cert.ReferenceIdeal.main_arg10).trans (Cert.ReferenceIdeal.RefRun.ops_keep _ Cert.ReferenceIdeal.main_arg10 (args_unwritten _ (by decide))),
       (h c Cert.ReferenceIdeal.main_arg11).trans (Cert.ReferenceIdeal.RefRun.ops_keep _ Cert.ReferenceIdeal.main_arg11 (args_unwritten _ (by decide))),
       (h c Cert.ReferenceIdeal.main_arg12).trans (Cert.ReferenceIdeal.RefRun.ops_keep _ Cert.ReferenceIdeal.main_arg12 (args_unwritten _ (by decide))),
       (h c Cert.ReferenceIdeal.main_arg13).trans (Cert.ReferenceIdeal.RefRun.ops_keep _ Cert.ReferenceIdeal.main_arg13 (args_unwritten _ (by decide))),
       (h c Cert.ReferenceIdeal.main_arg14).trans (Cert.ReferenceIdeal.RefRun.ops_keep _ Cert.ReferenceIdeal.main_arg14 (args_unwritten _ (by decide))),
       (h c Cert.ReferenceIdeal.main_arg15).trans (Cert.ReferenceIdeal.RefRun.ops_keep _ Cert.ReferenceIdeal.main_arg15 (args_unwritten _ (by decide)))⟩)
      (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
